-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x20 : Shape := ⟨2, ![200000, 20]⟩
abbrev S20x20 : Shape := ⟨2, ![20, 20]⟩
abbrev S20 : Shape := ⟨1, ![20]⟩
abbrev S200000 : Shape := ⟨1, ![200000]⟩
abbrev S6400000 : Shape := ⟨1, ![6400000]⟩
abbrev S_ : Shape := ⟨0, ![]⟩

class Facts : Prop where
  bcast_S_S200000x20 : S_.BroadcastsInDim S200000x20 (![] : Fin 0 → Fin S200000x20.rank)
  reducesTo_S200000x20_S_d0_1 : S200000x20.ReducesTo [0, 1] S_
  h_S_ : 0 < S_.numel
  bcast_S_S20x20 : S_.BroadcastsInDim S20x20 (![] : Fin 0 → Fin S20x20.rank)
  reducesTo_S20x20_S_d0_1 : S20x20.ReducesTo [0, 1] S_
  bcast_S_S20 : S_.BroadcastsInDim S20 (![] : Fin 0 → Fin S20.rank)
  reducesTo_S20_S_d0 : S20.ReducesTo [0] S_

variable [Facts]

def fn_part3 {F : FTy → Type} [FloatOps F] (main_arg11 : FVec F S20x20 .f32) (main_arg12 : FVec F S20 .f32) (main_v48 : IVec S_ 1) (main_v49 : FVec F S20 .f32) (main_v50 : FVec F S20 .f32) : IVec S_ 1 :=
  let main_v51 : IVec S20 1 := cmpf .olt main_v49 main_v50
  let main_c_19 : IVec S_ 1 := constantI S_ 1 1#1
  let main_v52 : IVec S_ 1 := (fun x v => Host.reduce IntOp.andi x v reducesTo_S20_S_d0 h_S_) main_v51 main_c_19
  let main_v53 : IVec S_ 1 := andi main_v48 main_v52
  let main_v54 : FVec F S20x20 .f32 := Host.absf main_arg11
  let main_cst_20 : FVec F S_ .f32 := constant S_ .f32 0x7F800000#32
  let main_v55 : FVec F S20x20 .f32 := broadcastInDim S20x20 ![] bcast_S_S20x20 main_cst_20
  let main_v56 : IVec S20x20 1 := cmpf .olt main_v54 main_v55
  let main_c_21 : IVec S_ 1 := constantI S_ 1 1#1
  let main_v57 : IVec S_ 1 := (fun x v => Host.reduce IntOp.andi x v reducesTo_S20x20_S_d0_1 h_S_) main_v56 main_c_21
  let main_v58 : IVec S_ 1 := andi main_v53 main_v57
  let main_v59 : FVec F S20 .f32 := Host.absf main_arg12
  let main_cst_22 : FVec F S_ .f32 := constant S_ .f32 0x7F800000#32
  let main_v60 : FVec F S20 .f32 := broadcastInDim S20 ![] bcast_S_S20 main_cst_22
  let main_v61 : IVec S20 1 := cmpf .olt main_v59 main_v60
  let main_c_23 : IVec S_ 1 := constantI S_ 1 1#1
  let main_v62 : IVec S_ 1 := (fun x v => Host.reduce IntOp.andi x v reducesTo_S20_S_d0 h_S_) main_v61 main_c_23
  let main_v63 : IVec S_ 1 := andi main_v58 main_v62
  main_v63

def fn_part2 {F : FTy → Type} [FloatOps F] (main_arg7 : FVec F S20x20 .f32) (main_arg8 : FVec F S20 .f32) (main_arg9 : FVec F S20x20 .f32) (main_arg10 : FVec F S20 .f32) (main_arg11 : FVec F S20x20 .f32) (main_arg12 : FVec F S20 .f32) (main_v33 : IVec S_ 1) : IVec S_ 1 :=
  let main_v34 : FVec F S20x20 .f32 := Host.absf main_arg7
  let main_cst_12 : FVec F S_ .f32 := constant S_ .f32 0x7F800000#32
  let main_v35 : FVec F S20x20 .f32 := broadcastInDim S20x20 ![] bcast_S_S20x20 main_cst_12
  let main_v36 : IVec S20x20 1 := cmpf .olt main_v34 main_v35
  let main_c_13 : IVec S_ 1 := constantI S_ 1 1#1
  let main_v37 : IVec S_ 1 := (fun x v => Host.reduce IntOp.andi x v reducesTo_S20x20_S_d0_1 h_S_) main_v36 main_c_13
  let main_v38 : IVec S_ 1 := andi main_v33 main_v37
  let main_v39 : FVec F S20 .f32 := Host.absf main_arg8
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  let main_v44 : FVec F S20x20 .f32 := Host.absf main_arg9
  let main_cst_16 : FVec F S_ .f32 := constant S_ .f32 0x7F800000#32
  let main_v45 : FVec F S20x20 .f32 := broadcastInDim S20x20 ![] bcast_S_S20x20 main_cst_16
  let main_v46 : IVec S20x20 1 := cmpf .olt main_v44 main_v45
  let main_c_17 : IVec S_ 1 := constantI S_ 1 1#1
  let main_v47 : IVec S_ 1 := (fun x v => Host.reduce IntOp.andi x v reducesTo_S20x20_S_d0_1 h_S_) main_v46 main_c_17
  let main_v48 : IVec S_ 1 := andi main_v43 main_v47
  let main_v49 : FVec F S20 .f32 := Host.absf main_arg10
  let main_cst_18 : FVec F S_ .f32 := constant S_ .f32 0x7F800000#32
  let main_v50 : FVec F S20 .f32 := broadcastInDim S20 ![] bcast_S_S20 main_cst_18
  fn_part3 (F := F) main_arg11 main_arg12 main_v48 main_v49 main_v50

def fn_part1 {F : FTy → Type} [FloatOps F] (main_arg4 : FVec F S20 .f32) (main_arg5 : FVec F S20x20 .f32) (main_arg6 : FVec F S20 .f32) (main_arg7 : FVec F S20x20 .f32) (main_arg8 : FVec F S20 .f32) (main_arg9 : FVec F S20x20 .f32) (main_arg10 : FVec F S20 .f32) (main_arg11 : FVec F S20x20 .f32) (main_arg12 : FVec F S20 .f32) (main_v13 : IVec S_ 1) (main_v16 : IVec S20x20 1) : IVec S_ 1 :=
  let main_c_5 : IVec S_ 1 := constantI S_ 1 1#1
  let main_v17 : IVec S_ 1 := (fun x v => Host.reduce IntOp.andi x v reducesTo_S20x20_S_d0_1 h_S_) main_v16 main_c_5
  let main_v18 : IVec S_ 1 := andi main_v13 main_v17
  let main_v19 : FVec F S20 .f32 := Host.absf main_arg4
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  let main_v24 : FVec F S20x20 .f32 := Host.absf main_arg5
  let main_cst_8 : FVec F S_ .f32 := constant S_ .f32 0x7F800000#32
  let main_v25 : FVec F S20x20 .f32 := broadcastInDim S20x20 ![] bcast_S_S20x20 main_cst_8
  let main_v26 : IVec S20x20 1 := cmpf .olt main_v24 main_v25
  let main_c_9 : IVec S_ 1 := constantI S_ 1 1#1
  let main_v27 : IVec S_ 1 := (fun x v => Host.reduce IntOp.andi x v reducesTo_S20x20_S_d0_1 h_S_) main_v26 main_c_9
  let main_v28 : IVec S_ 1 := andi main_v23 main_v27
  let main_v29 : FVec F S20 .f32 := Host.absf main_arg6
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S200000x20 .f32) (main_arg1 : FVec F S20x20 .f32) (main_arg2 : FVec F S20 .f32) (main_arg3 : FVec F S20x20 .f32) (main_arg4 : FVec F S20 .f32) (main_arg5 : FVec F S20x20 .f32) (main_arg6 : FVec F S20 .f32) (main_arg7 : FVec F S20x20 .f32) (main_arg8 : FVec F S20 .f32) (main_arg9 : FVec F S20x20 .f32) (main_arg10 : FVec F S20 .f32) (main_arg11 : FVec F S20x20 .f32) (main_arg12 : FVec F S20 .f32) (main_arg13 : IVec S200000 32) (main_arg14 : IVec S6400000 32) (main_arg15 : IVec S6400000 32) : IVec S_ 1 :=
  let main_v0 : FVec F S200000x20 .f32 := Host.absf main_arg0
  let main_cst : FVec F S_ .f32 := constant S_ .f32 0x7F800000#32
  let main_v1 : FVec F S200000x20 .f32 := broadcastInDim S200000x20 ![] bcast_S_S200000x20 main_cst
  let main_v2 : IVec S200000x20 1 := cmpf .olt main_v0 main_v1
  let main_c : IVec S_ 1 := constantI S_ 1 1#1
  let main_v3 : IVec S_ 1 := (fun x v => Host.reduce IntOp.andi x v reducesTo_S200000x20_S_d0_1 h_S_) main_v2 main_c
  let main_v4 : FVec F S20x20 .f32 := Host.absf main_arg1
  let main_cst_0 : FVec F S_ .f32 := constant S_ .f32 0x7F800000#32
  let main_v5 : FVec F S20x20 .f32 := broadcastInDim S20x20 ![] bcast_S_S20x20 main_cst_0
  let main_v6 : IVec S20x20 1 := cmpf .olt main_v4 main_v5
  let main_c_1 : IVec S_ 1 := constantI S_ 1 1#1
  let main_v7 : IVec S_ 1 := (fun x v => Host.reduce IntOp.andi x v reducesTo_S20x20_S_d0_1 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S20x20 .f32 := Host.absf main_arg3
  let main_cst_4 : FVec F S_ .f32 := constant S_ .f32 0x7F800000#32
  let main_v15 : FVec F S20x20 .f32 := broadcastInDim S20x20 ![] bcast_S_S20x20 main_cst_4
  let main_v16 : IVec S20x20 1 := cmpf .olt main_v14 main_v15
  fn_part1 (F := F) main_arg4 main_arg5 main_arg6 main_arg7 main_arg8 main_arg9 main_arg10 main_arg11 main_arg12 main_v13 main_v16
-- ==== Kernel.lean ====
abbrev S200000x20 : Shape := ⟨2, ![200000, 20]⟩
abbrev S20x20 : Shape := ⟨2, ![20, 20]⟩
abbrev S20 : Shape := ⟨1, ![20]⟩
abbrev S200000 : Shape := ⟨1, ![200000]⟩
abbrev S6400000 : Shape := ⟨1, ![6400000]⟩
abbrev S1x20 : Shape := ⟨2, ![1, 20]⟩
abbrev S_ : Shape := ⟨0, ![]⟩
abbrev S200000x1 : Shape := ⟨2, ![200000, 1]⟩
abbrev S6400000x1 : Shape := ⟨2, ![6400000, 1]⟩
abbrev S6400000x20 : Shape := ⟨2, ![6400000, 20]⟩
abbrev S2000x20 : Shape := ⟨2, ![2000, 20]⟩
abbrev S2000x1 : Shape := ⟨2, ![2000, 1]⟩

abbrev nBuf : Space → Nat
  | .hbm => 133
  | .vmem => 60
  | .smem => 0
  | _ => 0

abbrev hbmTy0_0 (i : Nat) : BufTy := match i % 128 with
  | 0 => ⟨S200000x20, .f32⟩
  | 1 => ⟨S20x20, .f32⟩
  | 2 => ⟨S20, .f32⟩
  | 3 => ⟨S20x20, .f32⟩
  | 4 => ⟨S20, .f32⟩
  | 5 => ⟨S20x20, .f32⟩
  | 6 => ⟨S20, .f32⟩
  | 7 => ⟨S20x20, .f32⟩
  | 8 => ⟨S20, .f32⟩
  | 9 => ⟨S20x20, .f32⟩
  | 10 => ⟨S20, .f32⟩
  | 11 => ⟨S20x20, .f32⟩
  | 12 => ⟨S20, .f32⟩
  | 13 => ⟨S200000, .i32⟩
  | 14 => ⟨S6400000, .i32⟩
  | 15 => ⟨S6400000, .i32⟩
  | 16 => ⟨S20x20, .f32⟩
  | 17 => ⟨S20x20, .f32⟩
  | 18 => ⟨S20x20, .f32⟩
  | 19 => ⟨S20x20, .f32⟩
  | 20 => ⟨S20x20, .f32⟩
  | 21 => ⟨S20x20, .f32⟩
  | 22 => ⟨S1x20, .f32⟩
  | 23 => ⟨S1x20, .f32⟩
  | 24 => ⟨S1x20, .f32⟩
  | 25 => ⟨S1x20, .f32⟩
  | 26 => ⟨S1x20, .f32⟩
  | 27 => ⟨S1x20, .f32⟩
  | 28 => ⟨S_, .i32⟩
  | 29 => ⟨S200000, .i32⟩
  | 30 => ⟨S200000, .i32⟩
  | 31 => ⟨S_, .i32⟩
  | 32 => ⟨S200000, .i32⟩
  | 33 => ⟨S200000, .i1⟩
  | 34 => ⟨S200000, .f32⟩
  | 35 => ⟨S200000x1, .f32⟩
  | 36 => ⟨S_, .i32⟩
  | 37 => ⟨S6400000, .i32⟩
  | 38 => ⟨S6400000, .i1⟩
  | 39 => ⟨S_, .i32⟩
  | 40 => ⟨S6400000, .i32⟩
  | 41 => ⟨S6400000, .i32⟩
  | 42 => ⟨S6400000, .i32⟩
  | 43 => ⟨S6400000x1, .i32⟩
  | 44 => ⟨S6400000x20, .f32⟩
  | 45 => ⟨S_, .i32⟩
  | 46 => ⟨S6400000, .i32⟩
  | 47 => ⟨S6400000, .i1⟩
  | 48 => ⟨S_, .i32⟩
  | 49 => ⟨S6400000, .i32⟩
  | 50 => ⟨S6400000, .i32⟩
  | 51 => ⟨S6400000, .i32⟩
  | 52 => ⟨S6400000x1, .i32⟩
  | 53 => ⟨S6400000x1, .f32⟩
  | 54 => ⟨S6400000x20, .f32⟩
  | 55 => ⟨S6400000x20, .f32⟩
  | 56 => ⟨S_, .f32⟩
  | 57 => ⟨S200000x20, .f32⟩
  | 58 => ⟨S6400000x1, .i32⟩
  | 59 => ⟨S200000x20, .f32⟩
  | 60 => ⟨S200000x20, .f32⟩
  | 61 => ⟨S200000x20, .f32⟩
  | 62 => ⟨S200000x20, .f32⟩
  | 63 => ⟨S_, .i32⟩
  | 64 => ⟨S200000, .i32⟩
  | 65 => ⟨S200000, .i32⟩
  | 66 => ⟨S_, .i32⟩
  | 67 => ⟨S200000, .i32⟩
  | 68 => ⟨S200000, .i1⟩
  | 69 => ⟨S200000, .f32⟩
  | 70 => ⟨S200000x1, .f32⟩
  | 71 => ⟨S_, .i32⟩
  | 72 => ⟨S6400000, .i32⟩
  | 73 => ⟨S6400000, .i1⟩
  | 74 => ⟨S_, .i32⟩
  | 75 => ⟨S6400000, .i32⟩
  | 76 => ⟨S6400000, .i32⟩
  | 77 => ⟨S6400000, .i32⟩
  | 78 => ⟨S6400000x1, .i32⟩
  | 79 => ⟨S6400000x20, .f32⟩
  | 80 => ⟨S_, .i32⟩
  | 81 => ⟨S6400000, .i32⟩
  | 82 => ⟨S6400000, .i1⟩
  | 83 => ⟨S_, .i32⟩
  | 84 => ⟨S6400000, .i32⟩
  | 85 => ⟨S6400000, .i32⟩
  | 86 => ⟨S6400000, .i32⟩
  | 87 => ⟨S6400000x1, .i32⟩
  | 88 => ⟨S6400000x1, .f32⟩
  | 89 => ⟨S6400000x20, .f32⟩
  | 90 => ⟨S6400000x20, .f32⟩
  | 91 => ⟨S_, .f32⟩
  | 92 => ⟨S200000x20, .f32⟩
  | 93 => ⟨S6400000x1, .i32⟩
  | 94 => ⟨S200000x20, .f32⟩
  | 95 => ⟨S200000x20, .f32⟩
  | 96 => ⟨S200000x20, .f32⟩
  | 97 => ⟨S200000x20, .f32⟩
  | 98 => ⟨S_, .i32⟩
  | 99 => ⟨S200000, .i32⟩
  | 100 => ⟨S200000, .i32⟩
  | 101 => ⟨S_, .i32⟩
  | 102 => ⟨S200000, .i32⟩
  | 103 => ⟨S200000, .i1⟩
  | 104 => ⟨S200000, .f32⟩
  | 105 => ⟨S200000x1, .f32⟩
  | 106 => ⟨S_, .i32⟩
  | 107 => ⟨S6400000, .i32⟩
  | 108 => ⟨S6400000, .i1⟩
  | 109 => ⟨S_, .i32⟩
  | 110 => ⟨S6400000, .i32⟩
  | 111 => ⟨S6400000, .i32⟩
  | 112 => ⟨S6400000, .i32⟩
  | 113 => ⟨S6400000x1, .i32⟩
  | 114 => ⟨S6400000x20, .f32⟩
  | 115 => ⟨S_, .i32⟩
  | 116 => ⟨S6400000, .i32⟩
  | 117 => ⟨S6400000, .i1⟩
  | 118 => ⟨S_, .i32⟩
  | 119 => ⟨S6400000, .i32⟩
  | 120 => ⟨S6400000, .i32⟩
  | 121 => ⟨S6400000, .i32⟩
  | 122 => ⟨S6400000x1, .i32⟩
  | 123 => ⟨S6400000x1, .f32⟩
  | 124 => ⟨S6400000x20, .f32⟩
  | 125 => ⟨S6400000x20, .f32⟩
  | 126 => ⟨S_, .f32⟩
  | 127 => ⟨S200000x20, .f32⟩
  | _ => ⟨S200000x20, .f32⟩

abbrev hbmTy0_1 (i : Nat) : BufTy := match i % 128 with
  | 0 => ⟨S6400000x1, .i32⟩
  | 1 => ⟨S200000x20, .f32⟩
  | 2 => ⟨S200000x20, .f32⟩
  | 3 => ⟨S200000x20, .f32⟩
  | 4 => ⟨S200000x20, .f32⟩
  | _ => ⟨S200000x20, .f32⟩

abbrev hbmTy (i : Nat) : BufTy := match i / 128 with
  | 0 => hbmTy0_0 i
  | 1 => hbmTy0_1 i
  | _ => ⟨S200000x20, .f32⟩

abbrev bufTy : (tb : Table) → Fin (tcTables nBuf tb) → BufTy
  | .hbm, ⟨i, _⟩ => hbmTy i
  | .local _ .vmem, ⟨0, _⟩ => ⟨S2000x20, .f32⟩
  | .local _ .vmem, ⟨1, _⟩ => ⟨S2000x20, .f32⟩
  | .local _ .vmem, ⟨2, _⟩ => ⟨S2000x20, .f32⟩
  | .local _ .vmem, ⟨3, _⟩ => ⟨S2000x20, .f32⟩
  | .local _ .vmem, ⟨4, _⟩ => ⟨S2000x1, .f32⟩
  | .local _ .vmem, ⟨5, _⟩ => ⟨S2000x1, .f32⟩
  | .local _ .vmem, ⟨6, _⟩ => ⟨S20x20, .f32⟩
  | .local _ .vmem, ⟨7, _⟩ => ⟨S1x20, .f32⟩
  | .local _ .vmem, ⟨8, _⟩ => ⟨S20x20, .f32⟩
  | .local _ .vmem, ⟨9, _⟩ => ⟨S1x20, .f32⟩
  | .local _ .vmem, ⟨10, _⟩ => ⟨S20x20, .f32⟩
  | .local _ .vmem, ⟨11, _⟩ => ⟨S1x20, .f32⟩
  | .local _ .vmem, ⟨12, _⟩ => ⟨S20x20, .f32⟩
  | .local _ .vmem, ⟨13, _⟩ => ⟨S1x20, .f32⟩
  | .local _ .vmem, ⟨14, _⟩ => ⟨S20x20, .f32⟩
  | .local _ .vmem, ⟨15, _⟩ => ⟨S1x20, .f32⟩
  | .local _ .vmem, ⟨16, _⟩ => ⟨S20x20, .f32⟩
  | .local _ .vmem, ⟨17, _⟩ => ⟨S1x20, .f32⟩
  | .local _ .vmem, ⟨18, _⟩ => ⟨S2000x20, .f32⟩
  | .local _ .vmem, ⟨19, _⟩ => ⟨S2000x20, .f32⟩
  | .local _ .vmem, ⟨20, _⟩ => ⟨S2000x20, .f32⟩
  | .local _ .vmem, ⟨21, _⟩ => ⟨S2000x20, .f32⟩
  | .local _ .vmem, ⟨22, _⟩ => ⟨S2000x20, .f32⟩
  | .local _ .vmem, ⟨23, _⟩ => ⟨S2000x20, .f32⟩
  | .local _ .vmem, ⟨24, _⟩ => ⟨S2000x1, .f32⟩
  | .local _ .vmem, ⟨25, _⟩ => ⟨S2000x1, .f32⟩
  | .local _ .vmem, ⟨26, _⟩ => ⟨S20x20, .f32⟩
  | .local _ .vmem, ⟨27, _⟩ => ⟨S1x20, .f32⟩
  | .local _ .vmem, ⟨28, _⟩ => ⟨S20x20, .f32⟩
  | .local _ .vmem, ⟨29, _⟩ => ⟨S1x20, .f32⟩
  | .local _ .vmem, ⟨30, _⟩ => ⟨S20x20, .f32⟩
  | .local _ .vmem, ⟨31, _⟩ => ⟨S1x20, .f32⟩
  | .local _ .vmem, ⟨32, _⟩ => ⟨S20x20, .f32⟩
  | .local _ .vmem, ⟨33, _⟩ => ⟨S1x20, .f32⟩
  | .local _ .vmem, ⟨34, _⟩ => ⟨S20x20, .f32⟩
  | .local _ .vmem, ⟨35, _⟩ => ⟨S1x20, .f32⟩
  | .local _ .vmem, ⟨36, _⟩ => ⟨S20x20, .f32⟩
  | .local _ .vmem, ⟨37, _⟩ => ⟨S1x20, .f32⟩
  | .local _ .vmem, ⟨38, _⟩ => ⟨S2000x20, .f32⟩
  | .local _ .vmem, ⟨39, _⟩ => ⟨S2000x20, .f32⟩
  | .local _ .vmem, ⟨40, _⟩ => ⟨S2000x20, .f32⟩
  | .local _ .vmem, ⟨41, _⟩ => ⟨S2000x20, .f32⟩
  | .local _ .vmem, ⟨42, _⟩ => ⟨S2000x20, .f32⟩
  | .local _ .vmem, ⟨43, _⟩ => ⟨S2000x20, .f32⟩
  | .local _ .vmem, ⟨44, _⟩ => ⟨S2000x1, .f32⟩
  | .local _ .vmem, ⟨45, _⟩ => ⟨S2000x1, .f32⟩
  | .local _ .vmem, ⟨46, _⟩ => ⟨S20x20, .f32⟩
  | .local _ .vmem, ⟨47, _⟩ => ⟨S1x20, .f32⟩
  | .local _ .vmem, ⟨48, _⟩ => ⟨S20x20, .f32⟩
  | .local _ .vmem, ⟨49, _⟩ => ⟨S1x20, .f32⟩
  | .local _ .vmem, ⟨50, _⟩ => ⟨S20x20, .f32⟩
  | .local _ .vmem, ⟨51, _⟩ => ⟨S1x20, .f32⟩
  | .local _ .vmem, ⟨52, _⟩ => ⟨S20x20, .f32⟩
  | .local _ .vmem, ⟨53, _⟩ => ⟨S1x20, .f32⟩
  | .local _ .vmem, ⟨54, _⟩ => ⟨S20x20, .f32⟩
  | .local _ .vmem, ⟨55, _⟩ => ⟨S1x20, .f32⟩
  | .local _ .vmem, ⟨56, _⟩ => ⟨S20x20, .f32⟩
  | .local _ .vmem, ⟨57, _⟩ => ⟨S1x20, .f32⟩
  | .local _ .vmem, ⟨58, _⟩ => ⟨S2000x20, .f32⟩
  | .local _ .vmem, ⟨59, _⟩ => ⟨S2000x20, .f32⟩
  | _, _ => ⟨S200000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_1 : Ref sig .tc := ⟨.hbm, 36, rfl⟩
abbrev main_v18 : Ref sig .tc := ⟨.hbm, 37, rfl⟩
abbrev main_v19 : Ref sig .tc := ⟨.hbm, 38, rfl⟩
abbrev main_c_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_3 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_5 : Ref sig .tc := ⟨.hbm, 63, rfl⟩
abbrev main_v40 : Ref sig .tc := ⟨.hbm, 64, rfl⟩
abbrev main_v41 : Ref sig .tc := ⟨.hbm, 65, rfl⟩
abbrev main_c_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_14 : Ref sig .tc := ⟨.hbm, 106, rfl⟩
abbrev main_v74 : Ref sig .tc := ⟨.hbm, 107, rfl⟩
abbrev main_v75 : Ref sig .tc := ⟨.hbm, 108, rfl⟩
abbrev main_c_15 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_16 : Ref sig .tc := ⟨.hbm, 115, rfl⟩
abbrev main_v81 : Ref sig .tc := ⟨.hbm, 116, rfl⟩
abbrev main_v82 : Ref sig .tc := ⟨.hbm, 117, rfl⟩
abbrev main_c_17 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_18 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg12_0 : Ref sig .tc := ⟨.vmem, 35, rfl⟩
abbrev cc1_stg13_0 : Ref sig .tc := ⟨.vmem, 36, rfl⟩
abbrev cc1_stg14_0 : Ref sig .tc := ⟨.vmem, 37, rfl⟩
abbrev cc1_stg15_0 : Ref sig .tc := ⟨.vmem, 38, rfl⟩
abbrev cc1_stg15_1 : Ref sig .tc := ⟨.vmem, 39, rfl⟩
abbrev cc2_stg0_0 : Ref sig .tc := ⟨.vmem, 40, rfl⟩
abbrev cc2_stg0_1 : Ref sig .tc := ⟨.vmem, 41, rfl⟩
abbrev cc2_stg1_0 : Ref sig .tc := ⟨.vmem, 42, rfl⟩
abbrev cc2_stg1_1 : Ref sig .tc := ⟨.vmem, 43, rfl⟩
abbrev cc2_stg2_0 : Ref sig .tc := ⟨.vmem, 44, rfl⟩
abbrev cc2_stg2_1 : Ref sig .tc := ⟨.vmem, 45, rfl⟩
abbrev cc2_stg3_0 : Ref sig .tc := ⟨.vmem, 46, rfl⟩
abbrev cc2_stg4_0 : Ref sig .tc := ⟨.vmem, 47, rfl⟩
abbrev cc2_stg5_0 : Ref sig .tc := ⟨.vmem, 48, rfl⟩
abbrev cc2_stg6_0 : Ref sig .tc := ⟨.vmem, 49, rfl⟩
abbrev cc2_stg7_0 : Ref sig .tc := ⟨.vmem, 50, rfl⟩
abbrev cc2_stg8_0 : Ref sig .tc := ⟨.vmem, 51, rfl⟩
abbrev cc2_stg9_0 : Ref sig .tc := ⟨.vmem, 52, rfl⟩
abbrev cc2_stg10_0 : Ref sig .tc := ⟨.vmem, 53, rfl⟩
abbrev cc2_stg11_0 : Ref sig .tc := ⟨.vmem, 54, rfl⟩
abbrev cc2_stg12_0 : Ref sig .tc := ⟨.vmem, 55, rfl⟩
abbrev cc2_stg13_0 : Ref sig .tc := ⟨.vmem, 56, rfl⟩
abbrev cc2_stg14_0 : Ref sig .tc := ⟨.vmem, 57, rfl⟩
abbrev cc2_stg15_0 : Ref sig .tc := ⟨.vmem, 58, rfl⟩
abbrev cc2_stg15_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem12_0 : DmaSem sig := 35
abbrev cc1_sem13_0 : DmaSem sig := 36
abbrev cc1_sem14_0 : DmaSem sig := 37
abbrev cc1_sem15_0 : DmaSem sig := 38
abbrev cc1_sem15_1 : DmaSem sig := 39
abbrev cc2_sem0_0 : DmaSem sig := 40
abbrev cc2_sem0_1 : DmaSem sig := 41
abbrev cc2_sem1_0 : DmaSem sig := 42
abbrev cc2_sem1_1 : DmaSem sig := 43
abbrev cc2_sem2_0 : DmaSem sig := 44
abbrev cc2_sem2_1 : DmaSem sig := 45
abbrev cc2_sem3_0 : DmaSem sig := 46
abbrev cc2_sem4_0 : DmaSem sig := 47
abbrev cc2_sem5_0 : DmaSem sig := 48
abbrev cc2_sem6_0 : DmaSem sig := 49
abbrev cc2_sem7_0 : DmaSem sig := 50
abbrev cc2_sem8_0 : DmaSem sig := 51
abbrev cc2_sem9_0 : DmaSem sig := 52
abbrev cc2_sem10_0 : DmaSem sig := 53
abbrev cc2_sem11_0 : DmaSem sig := 54
abbrev cc2_sem12_0 : DmaSem sig := 55
abbrev cc2_sem13_0 : DmaSem sig := 56
abbrev cc2_sem14_0 : DmaSem sig := 57
abbrev cc2_sem15_0 : DmaSem sig := 58
abbrev cc2_sem15_1 : DmaSem sig := 59

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S20x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S20x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S20x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S20x20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x20 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S20x20 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x20 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2000x20 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x20 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S20x20 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x20 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S20x20 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x20 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S20x20 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x20 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S20x20 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x20 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S20x20 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x20 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S20x20 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x20 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S2000x20 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x20 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x20 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S20x20 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x20 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S20x20 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x20 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S20x20 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x20 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S20x20 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x20 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S20x20 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x20 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S20x20 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x20 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S2000x20 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

class Facts₀ : Prop where
  transposes_S20x20_S20x20_1_0 : S20x20.Transposes [1, 0] S20x20
  shapeCasts_S20_S1x20 : S20.ShapeCasts S1x20
  bcast_S_S200000 : S_.BroadcastsInDim S200000 (![] : Fin 0 → Fin S200000.rank)
  bcast_S200000_S200000x1_0 : S200000.BroadcastsInDim S200000x1 (![0] : Fin 1 → Fin S200000x1.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S6400000x1_S6400000x20_0_1 : S6400000x1.BroadcastsInDim S6400000x20 (![0, 1] : Fin 2 → Fin S6400000x20.rank)
  bcast_S_S200000x20 : S_.BroadcastsInDim S200000x20 (![] : Fin 0 → Fin S200000x20.rank)
  bcast_S200000x1_S200000x20_0_1 : S200000x1.BroadcastsInDim S200000x20 (![0, 1] : Fin 2 → Fin S200000x20.rank)
  inb_S2000x20_S2000x20_0_0 : ∀ a, (![0, 0] : Fin 2 → Nat) a + S2000x20.size a ≤ S2000x20.size a
  h_S2000x20 : 0 < S2000x20.numel
  shapeCasts_S2000x20_S2000x20 : S2000x20.ShapeCasts S2000x20
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S20x20_S20x20_0_0 : ∀ a, (![0, 0] : Fin 2 → Nat) a + S20x20.size a ≤ S20x20.size a
  h_S20x20 : 0 < S20x20.numel
  shapeCasts_S20x20_S20x20 : S20x20.ShapeCasts S20x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S2000x20 : S1x20.Broadcasts S2000x20
  broadcasts_S2000x1_S2000x20 : S2000x1.Broadcasts S2000x20
  gather_S200000x20_S6400000x1_S6400000x20_1_0_n_n_0_1_120_wf : GatherDims.WF S200000x20 S6400000x1 S6400000x20 [1] [0] [] [0] [] 1 ![1, 20]
  gather_S200000x1_S6400000x1_S6400000x1_1_0_n_n_0_1_11_wf : GatherDims.WF S200000x1 S6400000x1 S6400000x1 [1] [0] [] [0] [] 1 ![1, 1]
  scatter_S200000x20_S6400000x1_S6400000x20_1_0_0_1_wf : ScatterDims.WF S200000x20 S6400000x1 S6400000x20 [1] [0] [0] 1
  dot_S2000x20_S20x20_S2000x20_1_0_0_1_n_n_wf : DotDims.WF S2000x20 S20x20 S2000x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x20.size a ≤ S200000x20.size a
  hwx0_0 : ∀ i : grid0.Coords, EltTy.bits .f32 = 32 ∨ (Rect.block (s := S200000x20) S2000x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x20.size a ≤ S200000x20.size a
  hwx0_1 : ∀ i : grid0.Coords, EltTy.bits .f32 = 32 ∨ (Rect.block (s := S200000x20) S2000x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S200000x1.size a
  hwx0_2 : ∀ i : grid0.Coords, EltTy.bits .f32 = 32 ∨ (Rect.block (s := S200000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x20.size a ≤ S20x20.size a
  hwx0_3 : ∀ i : grid0.Coords, EltTy.bits .f32 = 32 ∨ (Rect.block (s := S20x20) S20x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x20.size a ≤ S1x20.size a
  hwx0_4 : ∀ i : grid0.Coords, EltTy.bits .f32 = 32 ∨ (Rect.block (s := S1x20) S1x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20x20.size a ≤ S20x20.size a
  hwx0_5 : ∀ i : grid0.Coords, EltTy.bits .f32 = 32 ∨ (Rect.block (s := S20x20) S20x20.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x20.size a ≤ S1x20.size a
  hwx0_6 : ∀ i : grid0.Coords, EltTy.bits .f32 = 32 ∨ (Rect.block (s := S1x20) S1x20.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S20x20.size a ≤ S20x20.size a
  hwx0_7 : ∀ i : grid0.Coords, EltTy.bits .f32 = 32 ∨ (Rect.block (s := S20x20) S20x20.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x20.size a ≤ S1x20.size a
  hwx0_8 : ∀ i : grid0.Coords, EltTy.bits .f32 = 32 ∨ (Rect.block (s := S1x20) S1x20.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S20x20.size a ≤ S20x20.size a
  hwx0_9 : ∀ i : grid0.Coords, EltTy.bits .f32 = 32 ∨ (Rect.block (s := S20x20) S20x20.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x20.size a ≤ S1x20.size a
  hwx0_10 : ∀ i : grid0.Coords, EltTy.bits .f32 = 32 ∨ (Rect.block (s := S1x20) S1x20.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S20x20.size a ≤ S20x20.size a
  hwx0_11 : ∀ i : grid0.Coords, EltTy.bits .f32 = 32 ∨ (Rect.block (s := S20x20) S20x20.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x20.size a ≤ S1x20.size a
  hwx0_12 : ∀ i : grid0.Coords, EltTy.bits .f32 = 32 ∨ (Rect.block (s := S1x20) S1x20.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S20x20.size a ≤ S20x20.size a
  hwx0_13 : ∀ i : grid0.Coords, EltTy.bits .f32 = 32 ∨ (Rect.block (s := S20x20) S20x20.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x20.size a ≤ S1x20.size a
  hwx0_14 : ∀ i : grid0.Coords, EltTy.bits .f32 = 32 ∨ (Rect.block (s := S1x20) S1x20.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x20.size a ≤ S200000x20.size a
  hwx0_15 : ∀ i : grid0.Coords, EltTy.bits .f32 = 32 ∨ (Rect.block (s := S200000x20) S2000x20.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x20.size a ≤ S200000x20.size a
  hwx1_0 : ∀ i : grid1.Coords, EltTy.bits .f32 = 32 ∨ (Rect.block (s := S200000x20) S2000x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x20.size a ≤ S200000x20.size a
  hwx1_1 : ∀ i : grid1.Coords, EltTy.bits .f32 = 32 ∨ (Rect.block (s := S200000x20) S2000x20.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S200000x1.size a
  hwx1_2 : ∀ i : grid1.Coords, EltTy.bits .f32 = 32 ∨ (Rect.block (s := S200000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S20x20.size a ≤ S20x20.size a
  hwx1_3 : ∀ i : grid1.Coords, EltTy.bits .f32 = 32 ∨ (Rect.block (s := S20x20) S20x20.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x20.size a ≤ S1x20.size a
  hwx1_4 : ∀ i : grid1.Coords, EltTy.bits .f32 = 32 ∨ (Rect.block (s := S1x20) S1x20.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S20x20.size a ≤ S20x20.size a
  hwx1_5 : ∀ i : grid1.Coords, EltTy.bits .f32 = 32 ∨ (Rect.block (s := S20x20) S20x20.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x20.size a ≤ S1x20.size a
  hwx1_6 : ∀ i : grid1.Coords, EltTy.bits .f32 = 32 ∨ (Rect.block (s := S1x20) S1x20.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S20x20.size a ≤ S20x20.size a
  hwx1_7 : ∀ i : grid1.Coords, EltTy.bits .f32 = 32 ∨ (Rect.block (s := S20x20) S20x20.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x20.size a ≤ S1x20.size a
  hwx1_8 : ∀ i : grid1.Coords, EltTy.bits .f32 = 32 ∨ (Rect.block (s := S1x20) S1x20.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S20x20.size a ≤ S20x20.size a
  hwx1_9 : ∀ i : grid1.Coords, EltTy.bits .f32 = 32 ∨ (Rect.block (s := S20x20) S20x20.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x20.size a ≤ S1x20.size a
  hwx1_10 : ∀ i : grid1.Coords, EltTy.bits .f32 = 32 ∨ (Rect.block (s := S1x20) S1x20.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S20x20.size a ≤ S20x20.size a
  hwx1_11 : ∀ i : grid1.Coords, EltTy.bits .f32 = 32 ∨ (Rect.block (s := S20x20) S20x20.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x20.size a ≤ S1x20.size a
  hwx1_12 : ∀ i : grid1.Coords, EltTy.bits .f32 = 32 ∨ (Rect.block (s := S1x20) S1x20.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S20x20.size a ≤ S20x20.size a
  hwx1_13 : ∀ i : grid1.Coords, EltTy.bits .f32 = 32 ∨ (Rect.block (s := S20x20) S20x20.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x20.size a ≤ S1x20.size a
  hwx1_14 : ∀ i : grid1.Coords, EltTy.bits .f32 = 32 ∨ (Rect.block (s := S1x20) S1x20.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S2000x20.size a ≤ S200000x20.size a
  hwx1_15 : ∀ i : grid1.Coords, EltTy.bits .f32 = 32 ∨ (Rect.block (s := S200000x20) S2000x20.size (cc1_transform_15 i) (hinb1_15 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x20.size a ≤ S200000x20.size a
  hwx2_0 : ∀ i : grid2.Coords, EltTy.bits .f32 = 32 ∨ (Rect.block (s := S200000x20) S2000x20.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x20.size a ≤ S200000x20.size a
  hwx2_1 : ∀ i : grid2.Coords, EltTy.bits .f32 = 32 ∨ (Rect.block (s := S200000x20) S2000x20.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S200000x1.size a
  hwx2_2 : ∀ i : grid2.Coords, EltTy.bits .f32 = 32 ∨ (Rect.block (s := S200000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S20x20.size a ≤ S20x20.size a
  hwx2_3 : ∀ i : grid2.Coords, EltTy.bits .f32 = 32 ∨ (Rect.block (s := S20x20) S20x20.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x20.size a ≤ S1x20.size a
  hwx2_4 : ∀ i : grid2.Coords, EltTy.bits .f32 = 32 ∨ (Rect.block (s := S1x20) S1x20.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S20x20.size a ≤ S20x20.size a
  hwx2_5 : ∀ i : grid2.Coords, EltTy.bits .f32 = 32 ∨ (Rect.block (s := S20x20) S20x20.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x20.size a ≤ S1x20.size a
  hwx2_6 : ∀ i : grid2.Coords, EltTy.bits .f32 = 32 ∨ (Rect.block (s := S1x20) S1x20.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S20x20.size a ≤ S20x20.size a
  hwx2_7 : ∀ i : grid2.Coords, EltTy.bits .f32 = 32 ∨ (Rect.block (s := S20x20) S20x20.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x20.size a ≤ S1x20.size a
  hwx2_8 : ∀ i : grid2.Coords, EltTy.bits .f32 = 32 ∨ (Rect.block (s := S1x20) S1x20.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S20x20.size a ≤ S20x20.size a
  hwx2_9 : ∀ i : grid2.Coords, EltTy.bits .f32 = 32 ∨ (Rect.block (s := S20x20) S20x20.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x20.size a ≤ S1x20.size a
  hwx2_10 : ∀ i : grid2.Coords, EltTy.bits .f32 = 32 ∨ (Rect.block (s := S1x20) S1x20.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S20x20.size a ≤ S20x20.size a
  hwx2_11 : ∀ i : grid2.Coords, EltTy.bits .f32 = 32 ∨ (Rect.block (s := S20x20) S20x20.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x20.size a ≤ S1x20.size a
  hwx2_12 : ∀ i : grid2.Coords, EltTy.bits .f32 = 32 ∨ (Rect.block (s := S1x20) S1x20.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S20x20.size a ≤ S20x20.size a
  hwx2_13 : ∀ i : grid2.Coords, EltTy.bits .f32 = 32 ∨ (Rect.block (s := S20x20) S20x20.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x20.size a ≤ S1x20.size a
  hwx2_14 : ∀ i : grid2.Coords, EltTy.bits .f32 = 32 ∨ (Rect.block (s := S1x20) S1x20.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S2000x20.size a ≤ S200000x20.size a
  hwx2_15 : ∀ i : grid2.Coords, EltTy.bits .f32 = 32 ∨ (Rect.block (s := S200000x20) S2000x20.size (cc2_transform_15 i) (hinb2_15 i)).WholeWords (EltTy.packing .f32)

variable [Facts₀]

def gather_S200000x20_S6400000x1_S6400000x20_1_0_n_n_0_1_120 : GatherDims S200000x20 S6400000x1 S6400000x20 where
  offsetDims := [1]
  collapsedSliceDims := [0]
  operandBatchingDims := []
  startIndicesBatchingDims := []
  startIndexMap := [0]
  indexVectorDim := 1
  sliceSizes := ![1, 20]
  wf := gather_S200000x20_S6400000x1_S6400000x20_1_0_n_n_0_1_120_wf
def gather_S200000x1_S6400000x1_S6400000x1_1_0_n_n_0_1_11 : GatherDims S200000x1 S6400000x1 S6400000x1 where
  offsetDims := [1]
  collapsedSliceDims := [0]
  operandBatchingDims := []
  startIndicesBatchingDims := []
  startIndexMap := [0]
  indexVectorDim := 1
  sliceSizes := ![1, 1]
  wf := gather_S200000x1_S6400000x1_S6400000x1_1_0_n_n_0_1_11_wf
def scatter_S200000x20_S6400000x1_S6400000x20_1_0_0_1 : ScatterDims S200000x20 S6400000x1 S6400000x20 where
  updateWindowDims := [1]
  insertedWindowDims := [0]
  scatterDimsToOperandDims := [0]
  indexVectorDim := 1
  wf := scatter_S200000x20_S6400000x1_S6400000x20_1_0_0_1_wf
def dot_S2000x20_S20x20_S2000x20_1_0_0_1_n_n : DotDims S2000x20 S20x20 S2000x20 where
  lhsContracting := [1]
  rhsContracting := [0]
  lhsNonContracting := [0]
  rhsNonContracting := [1]
  lhsBatch := []
  rhsBatch := []
  wf := dot_S2000x20_S20x20_S2000x20_1_0_0_1_n_n_wf

abbrev win0_0 : Pipeline.Window sig grid0 :=
  Pipeline.Window.ofSpec (Memref.whole main_arg0) S2000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S2000x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S20x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S20x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S20x20.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x20.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S20x20.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x20.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S20x20.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S1x20.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S20x20.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v11) S1x20.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v39) S2000x20.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v39) S2000x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S2000x20.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S20x20.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x20.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S20x20.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x20.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v2) S20x20.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S1x20.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v3) S20x20.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v9) S1x20.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v4) S20x20.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v10) S1x20.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v5) S20x20.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v11) S1x20.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v67) S2000x20.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev win2_0 : Pipeline.Window sig grid2 :=
  Pipeline.Window.ofSpec (Memref.whole main_v67) S2000x20.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v94) S2000x20.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v73) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S20x20.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x20.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v1) S20x20.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S1x20.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v2) S20x20.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v8) S1x20.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v3) S20x20.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v9) S1x20.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v4) S20x20.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v10) S1x20.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v5) S20x20.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v11) S1x20.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v95) S2000x20.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

class Facts : Prop extends Facts₀ where

variable [Facts]
-- ==== ReferenceIdeal.lean ====
abbrev S200000x20 : Shape := ⟨2, ![200000, 20]⟩
abbrev S20x20 : Shape := ⟨2, ![20, 20]⟩
abbrev S20 : Shape := ⟨1, ![20]⟩
abbrev S200000 : Shape := ⟨1, ![200000]⟩
abbrev S6400000 : Shape := ⟨1, ![6400000]⟩
abbrev S_ : Shape := ⟨0, ![]⟩
abbrev S6400000x1 : Shape := ⟨2, ![6400000, 1]⟩
abbrev S6400000x20 : Shape := ⟨2, ![6400000, 20]⟩
abbrev S200000x1 : Shape := ⟨2, ![200000, 1]⟩
abbrev S1x20 : Shape := ⟨2, ![1, 20]⟩

abbrev nBuf : Space → Nat
  | .hbm => 306
  | .vmem => 0
  | .smem => 0
  | _ => 0

abbrev hbmTy0_0 (i : Nat) : BufTy := match i % 128 with
  | 0 => ⟨S200000x20, .f32⟩
  | 1 => ⟨S20x20, .f32⟩
  | 2 => ⟨S20, .f32⟩
  | 3 => ⟨S20x20, .f32⟩
  | 4 => ⟨S20, .f32⟩
  | 5 => ⟨S20x20, .f32⟩
  | 6 => ⟨S20, .f32⟩
  | 7 => ⟨S20x20, .f32⟩
  | 8 => ⟨S20, .f32⟩
  | 9 => ⟨S20x20, .f32⟩
  | 10 => ⟨S20, .f32⟩
  | 11 => ⟨S20x20, .f32⟩
  | 12 => ⟨S20, .f32⟩
  | 13 => ⟨S200000, .i32⟩
  | 14 => ⟨S6400000, .i32⟩
  | 15 => ⟨S6400000, .i32⟩
  | 16 => ⟨S_, .i32⟩
  | 17 => ⟨S200000, .i32⟩
  | 18 => ⟨S200000, .i32⟩
  | 19 => ⟨S_, .i32⟩
  | 20 => ⟨S200000, .i32⟩
  | 21 => ⟨S200000, .i1⟩
  | 22 => ⟨S200000, .f32⟩
  | 23 => ⟨S_, .i32⟩
  | 24 => ⟨S6400000, .i32⟩
  | 25 => ⟨S6400000, .i1⟩
  | 26 => ⟨S_, .i32⟩
  | 27 => ⟨S6400000, .i32⟩
  | 28 => ⟨S6400000, .i32⟩
  | 29 => ⟨S6400000, .i32⟩
  | 30 => ⟨S6400000x1, .i32⟩
  | 31 => ⟨S6400000x20, .f32⟩
  | 32 => ⟨S_, .i32⟩
  | 33 => ⟨S6400000, .i32⟩
  | 34 => ⟨S6400000, .i1⟩
  | 35 => ⟨S_, .i32⟩
  | 36 => ⟨S6400000, .i32⟩
  | 37 => ⟨S6400000, .i32⟩
  | 38 => ⟨S6400000, .i32⟩
  | 39 => ⟨S6400000x1, .i32⟩
  | 40 => ⟨S6400000, .f32⟩
  | 41 => ⟨S6400000x1, .f32⟩
  | 42 => ⟨S6400000x20, .f32⟩
  | 43 => ⟨S6400000x20, .f32⟩
  | 44 => ⟨S_, .f32⟩
  | 45 => ⟨S200000x20, .f32⟩
  | 46 => ⟨S6400000x1, .i32⟩
  | 47 => ⟨S200000x20, .f32⟩
  | 48 => ⟨S200000x1, .f32⟩
  | 49 => ⟨S200000x20, .f32⟩
  | 50 => ⟨S200000x20, .f32⟩
  | 51 => ⟨S20x20, .f32⟩
  | 52 => ⟨S200000x20, .f32⟩
  | 53 => ⟨S1x20, .f32⟩
  | 54 => ⟨S200000x20, .f32⟩
  | 55 => ⟨S200000x20, .f32⟩
  | 56 => ⟨S20x20, .f32⟩
  | 57 => ⟨S200000x20, .f32⟩
  | 58 => ⟨S1x20, .f32⟩
  | 59 => ⟨S200000x20, .f32⟩
  | 60 => ⟨S200000x20, .f32⟩
  | 61 => ⟨S200000x20, .f32⟩
  | 62 => ⟨S200000x20, .f32⟩
  | 63 => ⟨S200000x20, .f32⟩
  | 64 => ⟨S_, .f32⟩
  | 65 => ⟨S200000x20, .f32⟩
  | 66 => ⟨S200000x20, .f32⟩
  | 67 => ⟨S_, .f32⟩
  | 68 => ⟨S200000x20, .f32⟩
  | 69 => ⟨S200000x20, .f32⟩
  | 70 => ⟨S20x20, .f32⟩
  | 71 => ⟨S200000x20, .f32⟩
  | 72 => ⟨S1x20, .f32⟩
  | 73 => ⟨S200000x20, .f32⟩
  | 74 => ⟨S200000x20, .f32⟩
  | 75 => ⟨S20x20, .f32⟩
  | 76 => ⟨S200000x20, .f32⟩
  | 77 => ⟨S1x20, .f32⟩
  | 78 => ⟨S200000x20, .f32⟩
  | 79 => ⟨S200000x20, .f32⟩
  | 80 => ⟨S200000x20, .f32⟩
  | 81 => ⟨S200000x20, .f32⟩
  | 82 => ⟨S200000x20, .f32⟩
  | 83 => ⟨S_, .f32⟩
  | 84 => ⟨S200000x20, .f32⟩
  | 85 => ⟨S200000x20, .f32⟩
  | 86 => ⟨S_, .f32⟩
  | 87 => ⟨S200000x20, .f32⟩
  | 88 => ⟨S200000x20, .f32⟩
  | 89 => ⟨S20x20, .f32⟩
  | 90 => ⟨S200000x20, .f32⟩
  | 91 => ⟨S1x20, .f32⟩
  | 92 => ⟨S200000x20, .f32⟩
  | 93 => ⟨S200000x20, .f32⟩
  | 94 => ⟨S200000x20, .f32⟩
  | 95 => ⟨S20x20, .f32⟩
  | 96 => ⟨S200000x20, .f32⟩
  | 97 => ⟨S1x20, .f32⟩
  | 98 => ⟨S200000x20, .f32⟩
  | 99 => ⟨S200000x20, .f32⟩
  | 100 => ⟨S200000x20, .f32⟩
  | 101 => ⟨S200000x20, .f32⟩
  | 102 => ⟨S200000x20, .f32⟩
  | 103 => ⟨S_, .f32⟩
  | 104 => ⟨S200000x20, .f32⟩
  | 105 => ⟨S200000x20, .f32⟩
  | 106 => ⟨S200000x20, .f32⟩
  | 107 => ⟨S200000x20, .f32⟩
  | 108 => ⟨S200000x1, .i1⟩
  | 109 => ⟨S200000x20, .i1⟩
  | 110 => ⟨S200000x20, .f32⟩
  | 111 => ⟨S_, .i32⟩
  | 112 => ⟨S200000, .i32⟩
  | 113 => ⟨S200000, .i32⟩
  | 114 => ⟨S_, .i32⟩
  | 115 => ⟨S200000, .i32⟩
  | 116 => ⟨S200000, .i1⟩
  | 117 => ⟨S200000, .f32⟩
  | 118 => ⟨S_, .i32⟩
  | 119 => ⟨S6400000, .i32⟩
  | 120 => ⟨S6400000, .i1⟩
  | 121 => ⟨S_, .i32⟩
  | 122 => ⟨S6400000, .i32⟩
  | 123 => ⟨S6400000, .i32⟩
  | 124 => ⟨S6400000, .i32⟩
  | 125 => ⟨S6400000x1, .i32⟩
  | 126 => ⟨S6400000x20, .f32⟩
  | 127 => ⟨S_, .i32⟩
  | _ => ⟨S200000x20, .f32⟩

abbrev hbmTy0_1 (i : Nat) : BufTy := match i % 128 with
  | 0 => ⟨S6400000, .i32⟩
  | 1 => ⟨S6400000, .i1⟩
  | 2 => ⟨S_, .i32⟩
  | 3 => ⟨S6400000, .i32⟩
  | 4 => ⟨S6400000, .i32⟩
  | 5 => ⟨S6400000, .i32⟩
  | 6 => ⟨S6400000x1, .i32⟩
  | 7 => ⟨S6400000, .f32⟩
  | 8 => ⟨S6400000x1, .f32⟩
  | 9 => ⟨S6400000x20, .f32⟩
  | 10 => ⟨S6400000x20, .f32⟩
  | 11 => ⟨S_, .f32⟩
  | 12 => ⟨S200000x20, .f32⟩
  | 13 => ⟨S6400000x1, .i32⟩
  | 14 => ⟨S200000x20, .f32⟩
  | 15 => ⟨S200000x1, .f32⟩
  | 16 => ⟨S200000x20, .f32⟩
  | 17 => ⟨S200000x20, .f32⟩
  | 18 => ⟨S20x20, .f32⟩
  | 19 => ⟨S200000x20, .f32⟩
  | 20 => ⟨S1x20, .f32⟩
  | 21 => ⟨S200000x20, .f32⟩
  | 22 => ⟨S200000x20, .f32⟩
  | 23 => ⟨S20x20, .f32⟩
  | 24 => ⟨S200000x20, .f32⟩
  | 25 => ⟨S1x20, .f32⟩
  | 26 => ⟨S200000x20, .f32⟩
  | 27 => ⟨S200000x20, .f32⟩
  | 28 => ⟨S200000x20, .f32⟩
  | 29 => ⟨S200000x20, .f32⟩
  | 30 => ⟨S200000x20, .f32⟩
  | 31 => ⟨S_, .f32⟩
  | 32 => ⟨S200000x20, .f32⟩
  | 33 => ⟨S200000x20, .f32⟩
  | 34 => ⟨S_, .f32⟩
  | 35 => ⟨S200000x20, .f32⟩
  | 36 => ⟨S200000x20, .f32⟩
  | 37 => ⟨S20x20, .f32⟩
  | 38 => ⟨S200000x20, .f32⟩
  | 39 => ⟨S1x20, .f32⟩
  | 40 => ⟨S200000x20, .f32⟩
  | 41 => ⟨S200000x20, .f32⟩
  | 42 => ⟨S20x20, .f32⟩
  | 43 => ⟨S200000x20, .f32⟩
  | 44 => ⟨S1x20, .f32⟩
  | 45 => ⟨S200000x20, .f32⟩
  | 46 => ⟨S200000x20, .f32⟩
  | 47 => ⟨S200000x20, .f32⟩
  | 48 => ⟨S200000x20, .f32⟩
  | 49 => ⟨S200000x20, .f32⟩
  | 50 => ⟨S_, .f32⟩
  | 51 => ⟨S200000x20, .f32⟩
  | 52 => ⟨S200000x20, .f32⟩
  | 53 => ⟨S_, .f32⟩
  | 54 => ⟨S200000x20, .f32⟩
  | 55 => ⟨S200000x20, .f32⟩
  | 56 => ⟨S20x20, .f32⟩
  | 57 => ⟨S200000x20, .f32⟩
  | 58 => ⟨S1x20, .f32⟩
  | 59 => ⟨S200000x20, .f32⟩
  | 60 => ⟨S200000x20, .f32⟩
  | 61 => ⟨S200000x20, .f32⟩
  | 62 => ⟨S20x20, .f32⟩
  | 63 => ⟨S200000x20, .f32⟩
  | 64 => ⟨S1x20, .f32⟩
  | 65 => ⟨S200000x20, .f32⟩
  | 66 => ⟨S200000x20, .f32⟩
  | 67 => ⟨S200000x20, .f32⟩
  | 68 => ⟨S200000x20, .f32⟩
  | 69 => ⟨S200000x20, .f32⟩
  | 70 => ⟨S_, .f32⟩
  | 71 => ⟨S200000x20, .f32⟩
  | 72 => ⟨S200000x20, .f32⟩
  | 73 => ⟨S200000x20, .f32⟩
  | 74 => ⟨S200000x20, .f32⟩
  | 75 => ⟨S200000x1, .i1⟩
  | 76 => ⟨S200000x20, .i1⟩
  | 77 => ⟨S200000x20, .f32⟩
  | 78 => ⟨S_, .i32⟩
  | 79 => ⟨S200000, .i32⟩
  | 80 => ⟨S200000, .i32⟩
  | 81 => ⟨S_, .i32⟩
  | 82 => ⟨S200000, .i32⟩
  | 83 => ⟨S200000, .i1⟩
  | 84 => ⟨S200000, .f32⟩
  | 85 => ⟨S_, .i32⟩
  | 86 => ⟨S6400000, .i32⟩
  | 87 => ⟨S6400000, .i1⟩
  | 88 => ⟨S_, .i32⟩
  | 89 => ⟨S6400000, .i32⟩
  | 90 => ⟨S6400000, .i32⟩
  | 91 => ⟨S6400000, .i32⟩
  | 92 => ⟨S6400000x1, .i32⟩
  | 93 => ⟨S6400000x20, .f32⟩
  | 94 => ⟨S_, .i32⟩
  | 95 => ⟨S6400000, .i32⟩
  | 96 => ⟨S6400000, .i1⟩
  | 97 => ⟨S_, .i32⟩
  | 98 => ⟨S6400000, .i32⟩
  | 99 => ⟨S6400000, .i32⟩
  | 100 => ⟨S6400000, .i32⟩
  | 101 => ⟨S6400000x1, .i32⟩
  | 102 => ⟨S6400000, .f32⟩
  | 103 => ⟨S6400000x1, .f32⟩
  | 104 => ⟨S6400000x20, .f32⟩
  | 105 => ⟨S6400000x20, .f32⟩
  | 106 => ⟨S_, .f32⟩
  | 107 => ⟨S200000x20, .f32⟩
  | 108 => ⟨S6400000x1, .i32⟩
  | 109 => ⟨S200000x20, .f32⟩
  | 110 => ⟨S200000x1, .f32⟩
  | 111 => ⟨S200000x20, .f32⟩
  | 112 => ⟨S200000x20, .f32⟩
  | 113 => ⟨S20x20, .f32⟩
  | 114 => ⟨S200000x20, .f32⟩
  | 115 => ⟨S1x20, .f32⟩
  | 116 => ⟨S200000x20, .f32⟩
  | 117 => ⟨S200000x20, .f32⟩
  | 118 => ⟨S20x20, .f32⟩
  | 119 => ⟨S200000x20, .f32⟩
  | 120 => ⟨S1x20, .f32⟩
  | 121 => ⟨S200000x20, .f32⟩
  | 122 => ⟨S200000x20, .f32⟩
  | 123 => ⟨S200000x20, .f32⟩
  | 124 => ⟨S200000x20, .f32⟩
  | 125 => ⟨S200000x20, .f32⟩
  | 126 => ⟨S_, .f32⟩
  | 127 => ⟨S200000x20, .f32⟩
  | _ => ⟨S200000x20, .f32⟩

abbrev hbmTy0_2 (i : Nat) : BufTy := match i % 128 with
  | 0 => ⟨S200000x20, .f32⟩
  | 1 => ⟨S_, .f32⟩
  | 2 => ⟨S200000x20, .f32⟩
  | 3 => ⟨S200000x20, .f32⟩
  | 4 => ⟨S20x20, .f32⟩
  | 5 => ⟨S200000x20, .f32⟩
  | 6 => ⟨S1x20, .f32⟩
  | 7 => ⟨S200000x20, .f32⟩
  | 8 => ⟨S200000x20, .f32⟩
  | 9 => ⟨S20x20, .f32⟩
  | 10 => ⟨S200000x20, .f32⟩
  | 11 => ⟨S1x20, .f32⟩
  | 12 => ⟨S200000x20, .f32⟩
  | 13 => ⟨S200000x20, .f32⟩
  | 14 => ⟨S200000x20, .f32⟩
  | 15 => ⟨S200000x20, .f32⟩
  | 16 => ⟨S200000x20, .f32⟩
  | 17 => ⟨S_, .f32⟩
  | 18 => ⟨S200000x20, .f32⟩
  | 19 => ⟨S200000x20, .f32⟩
  | 20 => ⟨S_, .f32⟩
  | 21 => ⟨S200000x20, .f32⟩
  | 22 => ⟨S200000x20, .f32⟩
  | 23 => ⟨S20x20, .f32⟩
  | 24 => ⟨S200000x20, .f32⟩
  | 25 => ⟨S1x20, .f32⟩
  | 26 => ⟨S200000x20, .f32⟩
  | 27 => ⟨S200000x20, .f32⟩
  | 28 => ⟨S200000x20, .f32⟩
  | 29 => ⟨S20x20, .f32⟩
  | 30 => ⟨S200000x20, .f32⟩
  | 31 => ⟨S1x20, .f32⟩
  | 32 => ⟨S200000x20, .f32⟩
  | 33 => ⟨S200000x20, .f32⟩
  | 34 => ⟨S200000x20, .f32⟩
  | 35 => ⟨S200000x20, .f32⟩
  | 36 => ⟨S200000x20, .f32⟩
  | 37 => ⟨S_, .f32⟩
  | 38 => ⟨S200000x20, .f32⟩
  | 39 => ⟨S200000x20, .f32⟩
  | 40 => ⟨S200000x20, .f32⟩
  | 41 => ⟨S200000x20, .f32⟩
  | 42 => ⟨S200000x1, .i1⟩
  | 43 => ⟨S200000x20, .i1⟩
  | 44 => ⟨S200000x20, .f32⟩
  | 45 => ⟨S200000x1, .i1⟩
  | 46 => ⟨S_, .f32⟩
  | 47 => ⟨S200000x20, .f32⟩
  | 48 => ⟨S200000x20, .i1⟩
  | 49 => ⟨S200000x20, .f32⟩
  | _ => ⟨S200000x20, .f32⟩

abbrev hbmTy (i : Nat) : BufTy := match i / 128 with
  | 0 => hbmTy0_0 i
  | 1 => hbmTy0_1 i
  | 2 => hbmTy0_2 i
  | _ => ⟨S200000x20, .f32⟩

abbrev bufTy : (tb : Table) → Fin (tcTables nBuf tb) → BufTy
  | .hbm, ⟨i, _⟩ => hbmTy i
  | _, _ => ⟨S200000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c_1 : Ref sig .tc := ⟨.hbm, 23, rfl⟩
abbrev main_v5 : Ref sig .tc := ⟨.hbm, 24, rfl⟩
abbrev main_v6 : Ref sig .tc := ⟨.hbm, 25, rfl⟩
abbrev main_c_2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_3 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_7 : Ref sig .tc := ⟨.hbm, 83, rfl⟩
abbrev main_v58 : Ref sig .tc := ⟨.hbm, 84, rfl⟩
abbrev main_v59 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_9 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_call0_v0 : Ref sig .tc := ⟨.hbm, 109, rfl⟩
abbrev main_v81 : Ref sig .tc := ⟨.hbm, 110, rfl⟩
abbrev main_c_10 : Ref sig .tc := ⟨.hbm, 111, rfl⟩
abbrev main_v82 : Ref sig .tc := ⟨.hbm, 112, rfl⟩
abbrev main_v83 : Ref sig .tc := ⟨.hbm, 113, rfl⟩
abbrev main_c_11 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_12 : Ref sig .tc := ⟨.hbm, 118, rfl⟩
abbrev main_v87 : Ref sig .tc := ⟨.hbm, 119, rfl⟩
abbrev main_v88 : Ref sig .tc := ⟨.hbm, 120, rfl⟩
abbrev main_c_13 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_14 : Ref sig .tc := ⟨.hbm, 127, rfl⟩
abbrev main_v94 : Ref sig .tc := ⟨.hbm, 128, rfl⟩
abbrev main_v95 : Ref sig .tc := ⟨.hbm, 129, rfl⟩
abbrev main_c_15 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_16 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_17 : Ref sig .tc := ⟨.hbm, 159, rfl⟩
abbrev main_v123 : Ref sig .tc := ⟨.hbm, 160, rfl⟩
abbrev main_v124 : Ref sig .tc := ⟨.hbm, 161, rfl⟩
abbrev main_cst_18 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_19 : Ref sig .tc := ⟨.hbm, 178, rfl⟩
abbrev main_v140 : Ref sig .tc := ⟨.hbm, 179, rfl⟩
abbrev main_v141 : Ref sig .tc := ⟨.hbm, 180, rfl⟩
abbrev main_cst_20 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_cst_21 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_call1_v0 : Ref sig .tc := ⟨.hbm, 204, rfl⟩
abbrev main_v163 : Ref sig .tc := ⟨.hbm, 205, rfl⟩
abbrev main_c_22 : Ref sig .tc := ⟨.hbm, 206, rfl⟩
abbrev main_v164 : Ref sig .tc := ⟨.hbm, 207, rfl⟩
abbrev main_v165 : Ref sig .tc := ⟨.hbm, 208, rfl⟩
abbrev main_c_23 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_c_24 : Ref sig .tc := ⟨.hbm, 213, rfl⟩
abbrev main_v169 : Ref sig .tc := ⟨.hbm, 214, rfl⟩
abbrev main_v170 : Ref sig .tc := ⟨.hbm, 215, rfl⟩
abbrev main_c_25 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_c_26 : Ref sig .tc := ⟨.hbm, 222, rfl⟩
abbrev main_v176 : Ref sig .tc := ⟨.hbm, 223, rfl⟩
abbrev main_v177 : Ref sig .tc := ⟨.hbm, 224, rfl⟩
abbrev main_c_27 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_cst_28 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_cst_29 : Ref sig .tc := ⟨.hbm, 254, rfl⟩
abbrev main_v205 : Ref sig .tc := ⟨.hbm, 255, rfl⟩
abbrev main_v206 : Ref sig .tc := ⟨.hbm, 256, rfl⟩
abbrev main_cst_30 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_cst_31 : Ref sig .tc := ⟨.hbm, 273, rfl⟩
abbrev main_v222 : Ref sig .tc := ⟨.hbm, 274, rfl⟩
abbrev main_v223 : Ref sig .tc := ⟨.hbm, 275, rfl⟩
abbrev main_cst_32 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_cst_33 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_call2_v0 : Ref sig .tc := ⟨.hbm, 299, rfl⟩
abbrev main_v245 : Ref sig .tc := ⟨.hbm, 300, rfl⟩
abbrev main_v246 : Ref sig .tc := ⟨.hbm, 301, rfl⟩
abbrev main_cst_34 : Ref sig .tc := ⟨.hbm, 302, rfl⟩
abbrev main_v247 : Ref sig .tc := ⟨.hbm, 303, rfl⟩
abbrev main_call3_v0 : Ref sig .tc := ⟨.hbm, 304, rfl⟩
abbrev main_v248 : Ref sig .tc := ⟨.hbm, 305, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S6400000x1_S6400000x20_0_1 : S6400000x1.BroadcastsInDim S6400000x20 (![0, 1] : Fin 2 → Fin S6400000x20.rank)
  bcast_S_S200000x20 : S_.BroadcastsInDim S200000x20 (![] : Fin 0 → Fin S200000x20.rank)
  bcast_S200000_S200000x1_0 : S200000.BroadcastsInDim S200000x1 (![0] : Fin 1 → Fin S200000x1.rank)
  bcast_S200000x1_S200000x20_0_1 : S200000x1.BroadcastsInDim S200000x20 (![0, 1] : Fin 2 → Fin S200000x20.rank)
  transposes_S20x20_S20x20_1_0 : S20x20.Transposes [1, 0] S20x20
  bcast_S20_S1x20_1 : S20.BroadcastsInDim S1x20 (![1] : Fin 1 → Fin S1x20.rank)
  bcast_S1x20_S200000x20_0_1 : S1x20.BroadcastsInDim S200000x20 (![0, 1] : Fin 2 → Fin S200000x20.rank)
  gather_S200000x20_S6400000x1_S6400000x20_1_0_n_n_0_1_120_wf : GatherDims.WF S200000x20 S6400000x1 S6400000x20 [1] [0] [] [0] [] 1 ![1, 20]
  gather_S200000_S6400000x1_S6400000_n_0_n_n_0_1_1_wf : GatherDims.WF S200000 S6400000x1 S6400000 [] [0] [] [0] [] 1 ![1]
  scatter_S200000x20_S6400000x1_S6400000x20_1_0_0_1_wf : ScatterDims.WF S200000x20 S6400000x1 S6400000x20 [1] [0] [0] 1
  dot_S200000x20_S20x20_S200000x20_1_0_0_1_n_n_wf : DotDims.WF S200000x20 S20x20 S200000x20 [1] [0] [0] [1] [] []

variable [Facts₀]

def gather_S200000x20_S6400000x1_S6400000x20_1_0_n_n_0_1_120 : GatherDims S200000x20 S6400000x1 S6400000x20 where
  offsetDims := [1]
  collapsedSliceDims := [0]
  operandBatchingDims := []
  startIndicesBatchingDims := []
  startIndexMap := [0]
  indexVectorDim := 1
  sliceSizes := ![1, 20]
  wf := gather_S200000x20_S6400000x1_S6400000x20_1_0_n_n_0_1_120_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def scatter_S200000x20_S6400000x1_S6400000x20_1_0_0_1 : ScatterDims S200000x20 S6400000x1 S6400000x20 where
  updateWindowDims := [1]
  insertedWindowDims := [0]
  scatterDimsToOperandDims := [0]
  indexVectorDim := 1
  wf := scatter_S200000x20_S6400000x1_S6400000x20_1_0_0_1_wf
def dot_S200000x20_S20x20_S200000x20_1_0_0_1_n_n : DotDims S200000x20 S20x20 S200000x20 where
  lhsContracting := [1]
  rhsContracting := [0]
  lhsNonContracting := [0]
  rhsNonContracting := [1]
  lhsBatch := []
  rhsBatch := []
  wf := dot_S200000x20_S20x20_S200000x20_1_0_0_1_n_n_wf

class Facts : Prop extends Facts₀ where

variable [Facts]
-- ==== Proof.RunValue.lean ====
/-
  The idealized kernel's run, with its result named.

  @main is three launches of the node update among stretches of host operations. Every weakly fair execution
  terminates without a fault, and in its final state every unscoped buffer holds the last boundary's contents: the fold
  through the host stretches and the regions' write-backs. Read at the result's buffer this is the third region's
  output array after its last write-back; read at an argument's buffer, the argument as launched.
-/
import proofs.«162891_j90013924590102_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution ends with the result buffer at the last boundary's contents and the arguments as
    launched. -/
theorem run_result : θ_run defs (onTc (τ := τ) (main (F := F))) ⟨m, fun _ => 0, ρ⟩ (fun r => ∀ c : Dev nD,
      r.2.mem ((c.tc : Thread nD τ).loc main_v95) = W6 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v95 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.RunValue

end
-- ==== Proof.Spec.lean ====
/-
  One gated recurrent update of a graph network, for ONE node, over the extended reals.

  A node carries a state row `h ∈ ℝ̄²⁰` and receives an aggregated message row `x ∈ ℝ̄²⁰`. With six parameter matrices,
  kept here ALREADY TRANSPOSED (`Wᵀ[k, q]`: input `k`, output `q`) and six biases kept as `[1, 20]` rows,

      lin Wᵀ v q   = Σ_k v k · Wᵀ[k, q]
      gate q       = ((lin Wᵀ x q + b q) + lin Uᵀ h q) + c q
      z            = logistic (gate_z),   r = logistic (gate_r),   ĥ = tanh (gate_h with r ⊙ h in place of h)
      h_new q      = z q · h q + (1 − z q) · ĥ q

  and the node's new state is `a · h_new + ((1 − a) · h) · keep` for its activity `a ∈ {0, 1}`: an active node takes the
  update; an inactive one keeps its state (`keep = 1`) or is zeroed (`keep = 0`). The same value written with a
  selection on the activity bit is `if active then h_new else h` (respectively `else 0`): `blend_one`, `blend_zero`.
  None of this needs a finite entry: `0 · x = 0`, `1 · x = x`, `1 − 1 = 0` and the associativity of `+` hold on all of
  the extended reals.
-/
import Idealize.ShloMosaic.PureOps.Ideal
import Idealize.ShloMosaic.Lib.ValueIdx

noncomputable section

open scoped BigOperators

namespace Cert.Gru

open Idealize.ShloMosaic Idealize.ShloMosaic.ValueIdx

/-- A `[20, 20]` matrix, a `[1, 20]` row, the node states `[200000, 20]` and the activity column `[200000, 1]`. -/
abbrev SW : Shape := ⟨2, ![20, 20]⟩
abbrev SB : Shape := ⟨2, ![1, 20]⟩
abbrev SH : Shape := ⟨2, ![200000, 20]⟩
abbrev SA : Shape := ⟨2, ![200000, 1]⟩

/-- The twelve parameter arrays as the update reads them: transposed matrices `Wᵀ[k, q]` and `[1, 20]` bias rows. -/
structure Params where
  wz : SW.Idx → EReal
  bz : SB.Idx → EReal
  uz : SW.Idx → EReal
  cz : SB.Idx → EReal
  wr : SW.Idx → EReal
  br : SB.Idx → EReal
  ur : SW.Idx → EReal
  cr : SB.Idx → EReal
  wh : SW.Idx → EReal
  bh : SB.Idx → EReal
  uh : SW.Idx → EReal
  ch : SB.Idx → EReal

/-- `v · W` at output `q`, for `W` indexed `[input, output]`. -/
def lin (W : SW.Idx → EReal) (v : Fin 20 → EReal) (q : Fin 20) : EReal := ∑ k : Fin 20, v k * W (ix2 k q)

/-- A gate's pre-activation, summed in the order message term, its bias, state term, its bias. -/
def gate (W : SW.Idx → EReal) (b : SB.Idx → EReal) (U : SW.Idx → EReal) (c : SB.Idx → EReal)
    (xr hr : Fin 20 → EReal) (q : Fin 20) : EReal :=
  ((lin W xr q + b (ix2 (0 : Fin 1) q)) + lin U hr q) + c (ix2 (0 : Fin 1) q)

/-- The same pre-activation summed as two biased products: equal, by associativity alone. -/
theorem gate_two_sums (W : SW.Idx → EReal) (b : SB.Idx → EReal) (U : SW.Idx → EReal) (c : SB.Idx → EReal)
    (xr hr : Fin 20 → EReal) (q : Fin 20) :
    (lin W xr q + b (ix2 (0 : Fin 1) q)) + (lin U hr q + c (ix2 (0 : Fin 1) q)) = gate W b U c xr hr q := by
  unfold gate; rw [add_assoc, add_assoc, add_assoc]

/-- The reset gate applied to the state: `r ⊙ h`. -/
def resetState (P : Params) (hr xr : Fin 20 → EReal) (k : Fin 20) : EReal :=
  Ideal.logistic (gate P.wr P.br P.ur P.cr xr hr k) * hr k

/-- The candidate state of an active node, at output `q`. -/
def hnew (P : Params) (hr xr : Fin 20 → EReal) (q : Fin 20) : EReal :=
  Ideal.logistic (gate P.wz P.bz P.uz P.cz xr hr q) * hr q
    + (1 - Ideal.logistic (gate P.wz P.bz P.uz P.cz xr hr q))
      * Ideal.tanh (gate P.wh P.bh P.uh P.ch xr (resetState P hr xr) q)

/-- Activity-weighted mix of the update and the old state, the old state scaled by `keep`. -/
def blend (keep a hn h : EReal) : EReal := a * hn + ((1 - a) * h) * keep

/-- A node's new state at output `q`. -/
def stepRow (keep : EReal) (P : Params) (hr xr : Fin 20 → EReal) (a : EReal) (q : Fin 20) : EReal :=
  blend keep a (hnew P hr xr q) (hr q)

/-- All nodes at once: node `n` reads row `n` of the states and of the messages and entry `n` of the activity. -/
def stepArr (keep : EReal) (P : Params) (h x : SH.Idx → EReal) (a : SA.Idx → EReal) : SH.Idx → EReal := fun j =>
  stepRow keep P (fun k => h (ix2 (⟨(j 0).val, (j 0).isLt⟩ : Fin 200000) k))
    (fun k => x (ix2 (⟨(j 0).val, (j 0).isLt⟩ : Fin 200000) k))
    (a (ix2 (⟨(j 0).val, (j 0).isLt⟩ : Fin 200000) (0 : Fin 1))) ⟨(j 1).val, (j 1).isLt⟩

theorem stepArr_apply (keep : EReal) (P : Params) (h x : SH.Idx → EReal) (a : SA.Idx → EReal) (n : Fin 200000) (q : Fin 20) :
    stepArr keep P h x a (ix2 n q)
      = stepRow keep P (fun k => h (ix2 n k)) (fun k => x (ix2 n k)) (a (ix2 n (0 : Fin 1))) q := rfl

/-- The update at an index `i` of the array, from a row of states, a row of messages, an activity value and a column
    that ARE the arrays' at `i`'s node and column. -/
theorem stepArr_at (keep : EReal) (P : Params) (h x : SH.Idx → EReal) (a : SA.Idx → EReal) (i : SH.Idx)
    (hr xr : Fin 20 → EReal) (av : EReal) (q : Fin 20)
    (e1 : ∀ k, hr k = h (ix2 (⟨(i 0).val, (i 0).isLt⟩ : Fin 200000) k))
    (e2 : ∀ k, xr k = x (ix2 (⟨(i 0).val, (i 0).isLt⟩ : Fin 200000) k))
    (e3 : av = a (ix2 (⟨(i 0).val, (i 0).isLt⟩ : Fin 200000) (0 : Fin 1)))
    (e4 : q.val = (i 1).val) :
    stepRow keep P hr xr av q = stepArr keep P h x a i := by
  obtain rfl : hr = fun k => h (ix2 (⟨(i 0).val, (i 0).isLt⟩ : Fin 200000) k) := funext e1
  obtain rfl : xr = fun k => x (ix2 (⟨(i 0).val, (i 0).isLt⟩ : Fin 200000) k) := funext e2
  obtain rfl : q = ⟨(i 1).val, (i 1).isLt⟩ := Fin.ext e4
  subst e3
  rfl

/-- An activity bit as a number: 0 or 1. -/
def maskVal (b : BitVec 1) : EReal := ((b.toNat : ℝ) : EReal)

theorem maskVal_eq_uitofp (b : BitVec 1) : FloatOps.uitofp (F := Ideal) .f32 b = maskVal b := rfl

private theorem bit_cases (b : BitVec 1) : b = 0#1 ∨ b = 1#1 := by revert b; decide

theorem maskVal_zero : maskVal 0#1 = 0 := by
  show (((0#1 : BitVec 1).toNat : ℝ) : EReal) = 0
  have h : (0#1 : BitVec 1).toNat = 0 := by decide
  rw [h]; simp

theorem maskVal_one : maskVal 1#1 = 1 := by
  show (((1#1 : BitVec 1).toNat : ℝ) : EReal) = 1
  have h : (1#1 : BitVec 1).toNat = 1 := by decide
  rw [h]; simp

private theorem one_sub_one : (1 : EReal) - 1 = 0 := by
  rw [← EReal.coe_one, ← EReal.coe_sub, sub_self, EReal.coe_zero]

private theorem one_sub_zero : (1 : EReal) - 0 = 1 := by
  rw [← EReal.coe_one, ← EReal.coe_zero, ← EReal.coe_sub, sub_zero]

/-- Keeping inactive nodes: the mix is the selection `if active then h_new else h`. -/
theorem blend_one (b : BitVec 1) (hn h : EReal) : blend 1 (maskVal b) hn h = Scalar.select b hn h := by
  rcases bit_cases b with rfl | rfl
  · rw [maskVal_zero]; unfold blend Scalar.select
    rw [if_neg (by decide), zero_mul, zero_add, one_sub_zero, one_mul, mul_one]
  · rw [maskVal_one]; unfold blend Scalar.select
    rw [if_pos (by decide), one_mul, one_sub_one, zero_mul, zero_mul, add_zero]

/-- Zeroing inactive nodes: the mix is the selection `if active then h_new else 0`. -/
theorem blend_zero (b : BitVec 1) (hn h : EReal) : blend 0 (maskVal b) hn h = Scalar.select b hn 0 := by
  rcases bit_cases b with rfl | rfl
  · rw [maskVal_zero]; unfold blend Scalar.select
    rw [if_neg (by decide), zero_mul, zero_add, mul_zero]
  · rw [maskVal_one]; unfold blend Scalar.select
    rw [if_pos (by decide), one_mul, mul_zero, add_zero]

/-- Selecting twice on one bit, the inner alternative is never seen. -/
theorem select_select (b : BitVec 1) (hn h z : EReal) : Scalar.select b (Scalar.select b hn h) z = Scalar.select b hn z := by
  unfold Scalar.select; split <;> rfl

end Cert.Gru

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.BodyLemmas.lean ====
/-
  A gate's pre-activation inside one block of 2000 nodes, read at a coordinate.

  The kernel body forms, for a block `X` of message rows and a block `H` of state rows (each `[2000, 20]`), transposed
  parameter matrices `W`, `U` (`[20, 20]`) and bias rows `b`, `c` (`[1, 20]`, broadcast down the rows),

      ((X · W + b) + H · U) + c

  with both matrix products accumulated from zero. At row `p` and column `q` that is the node's gate pre-activation
  `Cert.Gru.gate` of row `p` of `X` and of `H`: each product is a sum over the contracted axis, each bias row is read at
  its column `q`.
-/
import proofs.«162891_j90013924590102_1_alg».proof.Proof.Spec
import proofs.«162891_j90013924590102_1_alg».proof.Proof.LibMatmulNN
import Idealize.ShloMosaic.Lib.ValueLayout
import Idealize.ShloMosaic.Lib.Pipeline.Value
import Idealize.ShloMosaic.Lib.IdealHost

noncomputable section

open scoped BigOperators

namespace Cert.Body

open Idealize.ShloMosaic Idealize.ShloMosaic.ValueIdx Cert.Gru

/-- A block of 2000 node rows, and a block of the activity column. -/
abbrev SX : Shape := ⟨2, ![2000, 20]⟩
abbrev SC : Shape := ⟨2, ![2000, 1]⟩

/-- `((X · W + b) + H · U) + c` at `(p, q)` is the gate pre-activation of rows `p`. -/
theorem gate_apply (d : DotDims SX SW SX)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (X H : FVec Ideal SX .f32) (W U : FVec Ideal SW .f32) (b c : FVec Ideal SB .f32) (hb : SB.Broadcasts SX)
    (p : Fin 2000) (q : Fin 20) :
    addf (addf (addf (matmul d prec X W (constant SX .f32 0x00000000#32)) (broadcastTo SX b hb))
        (matmul d prec H U (constant SX .f32 0x00000000#32))) (broadcastTo SX c hb) (ix2 p q)
      = gate W b U c (fun k => X (ix2 p k)) (fun k => H (ix2 p k)) q := by
  simp only [addf_apply]
  rw [LibMatmulNN.matmul_nn_apply d hlc hrc hln hrn hlb hrb prec X W p q,
    LibMatmulNN.matmul_nn_apply d hlc hrc hln hrn hlb hrb prec H U p q,
    broadcastTo_1b_ab_apply b hb p q, broadcastTo_1b_ab_apply c hb p q]
  rfl

/-- The same with the sums already read at the coordinate. -/
theorem gate_apply' (d : DotDims SX SW SX)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (X H : FVec Ideal SX .f32) (W U : FVec Ideal SW .f32) (b c : FVec Ideal SB .f32) (hb : SB.Broadcasts SX)
    (p : Fin 2000) (q : Fin 20) :
    matmul d prec X W (constant SX .f32 0x00000000#32) (ix2 p q) + broadcastTo SX b hb (ix2 p q)
        + matmul d prec H U (constant SX .f32 0x00000000#32) (ix2 p q) + broadcastTo SX c hb (ix2 p q)
      = gate W b U c (fun k => X (ix2 p k)) (fun k => H (ix2 p k)) q :=
  gate_apply d hlc hrc hln hrn hlb hrb prec X H W U b c hb p q

/-- The activity column broadcast across a block's columns reads, at `(p, q)`, the column at row `p`. -/
theorem column_apply (a : FVec Ideal SC .f32) (h : SC.Broadcasts SX) (p : Fin 2000) (q : Fin 20) :
    broadcastTo SX a h (ix2 p q) = a (ix2 p (0 : Fin 1)) := by
  refine broadcastTo_apply a h (ix2 p q) (ix2 p (0 : Fin 1)) fun ax => ?_
  match ax with
  | ⟨0, _⟩ =>
    show p.val = if (2000 : Nat) = 1 then 0 else p.val
    rw [if_neg (by decide)]
  | ⟨1, _⟩ => rfl

end Cert.Body

end
-- ==== Proof.Body2.lean ====
/-
  What one grid point of the third update leaves in its output block, read at a coordinate.

  The body loads a block `x0` of 2000 state rows, the matching block `x1` of message rows and `x2` of the activity
  column, and the twelve parameter arrays `x3 … x14` whole; it stores ONE value through the whole output block. Read
  at row `p`, column `q` that value is the node update `Cert.Gru.stepRow` of row `p` of the two blocks and entry `p` of
  the column, with the old state of an inactive node scaled by 0: the update and reset gates are the
  logistic of their pre-activations (`Cert.Body.gate_apply`), the candidate the hyperbolic tangent of its own with the
  reset state `r ⊙ h` as the state operand, and the rest is pointwise.
-/
import proofs.«162891_j90013924590102_1_alg».proof.Proof.BodyLemmas
import proofs.«162891_j90013924590102_1_alg».proof.Proof.Gen.KernelIdeal.Frame

set_option maxRecDepth 16384

noncomputable section

open scoped BigOperators

namespace Cert.KernelIdeal.Body2

open Idealize.ShloMosaic Idealize.ShloMosaic.ValueIdx Cert.KernelIdeal Cert.KernelIdeal.Gen Cert.Gru Cert.Body

theorem hz : (![0, 0] : Fin 2 → Nat) = fun _ => 0 := funext fun a => by fin_cases a <;> rfl

/-- The update gate of the block at `(p, q)`. -/
theorem zgate_apply (x0 x1 : Vec Ideal S2000x20 .f32) (x3 : Vec Ideal S20x20 .f32) (x4 : Vec Ideal S1x20 .f32)
    (x5 : Vec Ideal S20x20 .f32) (x6 : Vec Ideal S1x20 .f32) (p : Fin 2000) (q : Fin 20) :
    k2_pay5 (F := Ideal) x0 x1 x3 x4 x5 x6 (ix2 p q)
      = Ideal.logistic (gate x3 x4 x5 x6 (fun k => x1 (ix2 p k)) (fun k => x0 (ix2 p k)) q) := by
  unfold k2_pay5 k2_pay3 k2_pay2
  dsimp only
  simp only [shapeCast_self]
  exact congrArg Ideal.logistic
    (gate_apply dot_S2000x20_S20x20_S2000x20_1_0_0_1_n_n rfl rfl rfl rfl rfl rfl (some .fp32) x1 x0 x3 x5 x4 x6
      broadcasts_S1x20_S2000x20 p q)

/-- The reset gate's pre-activation short of its last bias, at `(p, q)`. -/
theorem rpart_apply (x0 x1 : Vec Ideal S2000x20 .f32) (x7 : Vec Ideal S20x20 .f32) (x8 : Vec Ideal S1x20 .f32)
    (x9 : Vec Ideal S20x20 .f32) (x10 : Vec Ideal S1x20 .f32) (p : Fin 2000) (q : Fin 20) :
    addf (k2_pay6 (F := Ideal) x0 x1 x7 x8 x9) (broadcastTo S2000x20 x10 broadcasts_S1x20_S2000x20) (ix2 p q)
      = gate x7 x8 x9 x10 (fun k => x1 (ix2 p k)) (fun k => x0 (ix2 p k)) q := by
  unfold k2_pay6 k2_pay3 k2_pay2
  dsimp only
  simp only [shapeCast_self]
  exact gate_apply dot_S2000x20_S20x20_S2000x20_1_0_0_1_n_n rfl rfl rfl rfl rfl rfl (some .fp32) x1 x0 x7 x9 x8 x10
    broadcasts_S1x20_S2000x20 p q

/-- The reset state `r ⊙ h` of row `p`, as the candidate's matrix product reads it. -/
theorem reset_apply (x0 x1 : Vec Ideal S2000x20 .f32) (x7 : Vec Ideal S20x20 .f32) (x8 : Vec Ideal S1x20 .f32)
    (x9 : Vec Ideal S20x20 .f32) (x10 : Vec Ideal S1x20 .f32) (p : Fin 2000) (k : Fin 20) :
    mulf (logistic (addf (k2_pay6 (F := Ideal) x0 x1 x7 x8 x9) (broadcastTo S2000x20 x10 broadcasts_S1x20_S2000x20))) x0 (ix2 p k)
      = Ideal.logistic (gate x7 x8 x9 x10 (fun k => x1 (ix2 p k)) (fun k => x0 (ix2 p k)) k) * x0 (ix2 p k) := by
  show Ideal.logistic (addf (k2_pay6 (F := Ideal) x0 x1 x7 x8 x9) (broadcastTo S2000x20 x10 broadcasts_S1x20_S2000x20) (ix2 p k)) * x0 (ix2 p k) = _
  rw [rpart_apply x0 x1 x7 x8 x9 x10 p k]

/-- THE STORED VALUE at `(p, q)` is the node update of row `p`. -/
theorem out_apply (x0 x1 : Vec Ideal S2000x20 .f32) (x2 : Vec Ideal S2000x1 .f32) (x3 : Vec Ideal S20x20 .f32)
    (x4 : Vec Ideal S1x20 .f32) (x5 : Vec Ideal S20x20 .f32) (x6 : Vec Ideal S1x20 .f32) (x7 : Vec Ideal S20x20 .f32)
    (x8 : Vec Ideal S1x20 .f32) (x9 : Vec Ideal S20x20 .f32) (x10 : Vec Ideal S1x20 .f32) (x11 : Vec Ideal S20x20 .f32)
    (x12 : Vec Ideal S1x20 .f32) (x13 : Vec Ideal S20x20 .f32) (x14 : Vec Ideal S1x20 .f32) (p : Fin 2000) (q : Fin 20) :
    out2_15 (F := Ideal) x0 x1 x2 x3 x4 x5 x6 x7 x8 x9 x10 x11 x12 x13 x14 (ix2 p q)
      = stepRow 0 ⟨x3, x4, x5, x6, x7, x8, x9, x10, x11, x12, x13, x14⟩
          (fun k => x0 (ix2 p k)) (fun k => x1 (ix2 p k)) (x2 (ix2 p (0 : Fin 1))) q := by
  unfold out2_15
  rw [View.canon_unit_zero hz]
  simp only [View.ld_unit_zero (S := S2000x20) hz, View.ld_unit_zero (S := S2000x1) hz,
    View.ld_unit_zero (S := S20x20) hz, View.ld_unit_zero (S := S1x20) hz]
  unfold k2_pay1 k2_pay3 k2_pay4 k2_pay2
  dsimp only
  simp only [shapeCast_self]
  have hR : (fun k => mulf (logistic (addf (k2_pay6 (F := Ideal) x0 x1 x7 x8 x9) (broadcastTo S2000x20 x10 broadcasts_S1x20_S2000x20))) x0 (ix2 p k))
      = resetState ⟨x3, x4, x5, x6, x7, x8, x9, x10, x11, x12, x13, x14⟩ (fun k => x0 (ix2 p k)) (fun k => x1 (ix2 p k)) :=
    funext fun k => reset_apply x0 x1 x7 x8 x9 x10 p k
  have hC := gate_apply dot_S2000x20_S20x20_S2000x20_1_0_0_1_n_n rfl rfl rfl rfl rfl rfl (some .fp32) x1
    (mulf (logistic (addf (k2_pay6 (F := Ideal) x0 x1 x7 x8 x9) (broadcastTo S2000x20 x10 broadcasts_S1x20_S2000x20))) x0)
    x11 x13 x12 x14 broadcasts_S1x20_S2000x20 p q
  rw [hR] at hC
  have hZ := zgate_apply x0 x1 x3 x4 x5 x6 p q
  have hA := column_apply x2 broadcasts_S2000x1_S2000x20 p q
  have hA' : broadcastTo S2000x20 (subf (broadcast S2000x1 (Scalar.ofBits (F := Ideal) .f32 0x3F800000#32)) x2) broadcasts_S2000x1_S2000x20 (ix2 p q)
      = Ideal.ofBits .f32 0x3F800000#32 - x2 (ix2 p (0 : Fin 1)) :=
    column_apply (subf (broadcast S2000x1 (Scalar.ofBits (F := Ideal) .f32 0x3F800000#32)) x2) broadcasts_S2000x1_S2000x20 p q
  show broadcastTo S2000x20 x2 broadcasts_S2000x1_S2000x20 (ix2 p q)
      * (k2_pay5 (F := Ideal) x0 x1 x3 x4 x5 x6 (ix2 p q) * x0 (ix2 p q)
        + (Ideal.ofBits .f32 0x3F800000#32 - k2_pay5 (F := Ideal) x0 x1 x3 x4 x5 x6 (ix2 p q))
          * Ideal.tanh (addf (addf (addf (matmul dot_S2000x20_S20x20_S2000x20_1_0_0_1_n_n (some .fp32) x1 x11 (constant S2000x20 .f32 0x00000000#32)) (broadcastTo S2000x20 x12 broadcasts_S1x20_S2000x20))
              (matmul dot_S2000x20_S20x20_S2000x20_1_0_0_1_n_n (some .fp32) (mulf (logistic (addf (k2_pay6 (F := Ideal) x0 x1 x7 x8 x9) (broadcastTo S2000x20 x10 broadcasts_S1x20_S2000x20))) x0) x13 (constant S2000x20 .f32 0x00000000#32)))
              (broadcastTo S2000x20 x14 broadcasts_S1x20_S2000x20) (ix2 p q)))
      + broadcastTo S2000x20 (subf (broadcast S2000x1 (Scalar.ofBits (F := Ideal) .f32 0x3F800000#32)) x2) broadcasts_S2000x1_S2000x20 (ix2 p q)
        * x0 (ix2 p q) * Ideal.ofBits .f32 0x00000000#32
    = _
  rw [hC, hZ, hA, hA', Ideal.ofBits_one_f32, Ideal.ofBits_zero_f32]
  rfl

end Cert.KernelIdeal.Body2

end
-- ==== Proof.Region2.lean ====
/-
  From the blocks one launch writes back to the array it leaves: the third node update of all 200000 nodes.

  The launch runs the body at 100 grid points. Point `t` stages rows `2000 t … 2000 t + 1999` of the states, of the
  messages and of the activity column, the twelve parameter arrays whole, and writes back rows `2000 t …` of the
  output. What it writes back is the node update (`Cert.Gru.stepArr`) of the region's entry arrays restricted to those
  rows, because a node's update reads only its own row; the 100 row ranges cover the array, so after the last
  write-back the output array IS the update of the entry arrays. Stated for any entry contents `V`.
-/
import proofs.«162891_j90013924590102_1_alg».proof.Proof.Body2

set_option maxRecDepth 16384

noncomputable section

namespace Cert.KernelIdeal.Region2

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gru

variable (V : (c : Dev nD) → (b : Ref sig .tc) → Buf (Elt Ideal) ((c : Thread nD τ).loc b))

/-- The parameter arrays as the region finds them. -/
def params (c : Dev nD) : Params :=
  ⟨V c main_v0, V c main_v6, V c main_v1, V c main_v7, V c main_v2, V c main_v8, V c main_v3, V c main_v9, V c main_v4, V c main_v10, V c main_v5, V c main_v11⟩

/-- The update of the entry arrays: what the output array ends holding. -/
def G (c : Dev nD) : SH.Idx → EReal :=
  stepArr 0 (params V c) (V c main_v67) (V c main_v94) (V c main_v73)

/-- The printed index maps, decided over the grid: the row blocks move with the point, on the first axis only. -/
theorem row_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_15.index t (0 : Fin 2) = t.val ∧ win2_15.index t (1 : Fin 2) = 0 :=
  (by decide +kernel : ∀ t : Fin grid2.N, _)

/-! ## A parameter window never moves, so its block is its whole array -/

theorem fix3 : ∀ t : Fin cfg2.N, win2_3.index t (0 : Fin 2) = 0 ∧ win2_3.index t (1 : Fin 2) = 0 :=
  (by decide +kernel : ∀ t : Fin grid2.N, _)
theorem blk3 (c : Dev nD) (t : Fin cfg2.N) : iblk2 V c 3 t = V c main_v0 := by
  funext y
  show V c main_v0 (((cfg2.win 3).blk t).view.emb y) = V c main_v0 y
  refine congrArg _ (funext fun a => Fin.ext ?_)
  obtain ⟨f0, f1⟩ := fix3 t
  match a with
  | ⟨0, _⟩ => show win2_3.index t (0 : Fin 2) * 20 + 1 * (y 0).val = (y 0).val; omega
  | ⟨1, _⟩ => show win2_3.index t (1 : Fin 2) * 20 + 1 * (y 1).val = (y 1).val; omega

theorem fix4 : ∀ t : Fin cfg2.N, win2_4.index t (0 : Fin 2) = 0 ∧ win2_4.index t (1 : Fin 2) = 0 :=
  (by decide +kernel : ∀ t : Fin grid2.N, _)
theorem blk4 (c : Dev nD) (t : Fin cfg2.N) : iblk2 V c 4 t = V c main_v6 := by
  funext y
  show V c main_v6 (((cfg2.win 4).blk t).view.emb y) = V c main_v6 y
  refine congrArg _ (funext fun a => Fin.ext ?_)
  obtain ⟨f0, f1⟩ := fix4 t
  match a with
  | ⟨0, _⟩ => show win2_4.index t (0 : Fin 2) * 1 + 1 * (y 0).val = (y 0).val; omega
  | ⟨1, _⟩ => show win2_4.index t (1 : Fin 2) * 20 + 1 * (y 1).val = (y 1).val; omega

theorem fix5 : ∀ t : Fin cfg2.N, win2_5.index t (0 : Fin 2) = 0 ∧ win2_5.index t (1 : Fin 2) = 0 :=
  (by decide +kernel : ∀ t : Fin grid2.N, _)
theorem blk5 (c : Dev nD) (t : Fin cfg2.N) : iblk2 V c 5 t = V c main_v1 := by
  funext y
  show V c main_v1 (((cfg2.win 5).blk t).view.emb y) = V c main_v1 y
  refine congrArg _ (funext fun a => Fin.ext ?_)
  obtain ⟨f0, f1⟩ := fix5 t
  match a with
  | ⟨0, _⟩ => show win2_5.index t (0 : Fin 2) * 20 + 1 * (y 0).val = (y 0).val; omega
  | ⟨1, _⟩ => show win2_5.index t (1 : Fin 2) * 20 + 1 * (y 1).val = (y 1).val; omega

theorem fix6 : ∀ t : Fin cfg2.N, win2_6.index t (0 : Fin 2) = 0 ∧ win2_6.index t (1 : Fin 2) = 0 :=
  (by decide +kernel : ∀ t : Fin grid2.N, _)
theorem blk6 (c : Dev nD) (t : Fin cfg2.N) : iblk2 V c 6 t = V c main_v7 := by
  funext y
  show V c main_v7 (((cfg2.win 6).blk t).view.emb y) = V c main_v7 y
  refine congrArg _ (funext fun a => Fin.ext ?_)
  obtain ⟨f0, f1⟩ := fix6 t
  match a with
  | ⟨0, _⟩ => show win2_6.index t (0 : Fin 2) * 1 + 1 * (y 0).val = (y 0).val; omega
  | ⟨1, _⟩ => show win2_6.index t (1 : Fin 2) * 20 + 1 * (y 1).val = (y 1).val; omega

theorem fix7 : ∀ t : Fin cfg2.N, win2_7.index t (0 : Fin 2) = 0 ∧ win2_7.index t (1 : Fin 2) = 0 :=
  (by decide +kernel : ∀ t : Fin grid2.N, _)
theorem blk7 (c : Dev nD) (t : Fin cfg2.N) : iblk2 V c 7 t = V c main_v2 := by
  funext y
  show V c main_v2 (((cfg2.win 7).blk t).view.emb y) = V c main_v2 y
  refine congrArg _ (funext fun a => Fin.ext ?_)
  obtain ⟨f0, f1⟩ := fix7 t
  match a with
  | ⟨0, _⟩ => show win2_7.index t (0 : Fin 2) * 20 + 1 * (y 0).val = (y 0).val; omega
  | ⟨1, _⟩ => show win2_7.index t (1 : Fin 2) * 20 + 1 * (y 1).val = (y 1).val; omega

theorem fix8 : ∀ t : Fin cfg2.N, win2_8.index t (0 : Fin 2) = 0 ∧ win2_8.index t (1 : Fin 2) = 0 :=
  (by decide +kernel : ∀ t : Fin grid2.N, _)
theorem blk8 (c : Dev nD) (t : Fin cfg2.N) : iblk2 V c 8 t = V c main_v8 := by
  funext y
  show V c main_v8 (((cfg2.win 8).blk t).view.emb y) = V c main_v8 y
  refine congrArg _ (funext fun a => Fin.ext ?_)
  obtain ⟨f0, f1⟩ := fix8 t
  match a with
  | ⟨0, _⟩ => show win2_8.index t (0 : Fin 2) * 1 + 1 * (y 0).val = (y 0).val; omega
  | ⟨1, _⟩ => show win2_8.index t (1 : Fin 2) * 20 + 1 * (y 1).val = (y 1).val; omega

theorem fix9 : ∀ t : Fin cfg2.N, win2_9.index t (0 : Fin 2) = 0 ∧ win2_9.index t (1 : Fin 2) = 0 :=
  (by decide +kernel : ∀ t : Fin grid2.N, _)
theorem blk9 (c : Dev nD) (t : Fin cfg2.N) : iblk2 V c 9 t = V c main_v3 := by
  funext y
  show V c main_v3 (((cfg2.win 9).blk t).view.emb y) = V c main_v3 y
  refine congrArg _ (funext fun a => Fin.ext ?_)
  obtain ⟨f0, f1⟩ := fix9 t
  match a with
  | ⟨0, _⟩ => show win2_9.index t (0 : Fin 2) * 20 + 1 * (y 0).val = (y 0).val; omega
  | ⟨1, _⟩ => show win2_9.index t (1 : Fin 2) * 20 + 1 * (y 1).val = (y 1).val; omega

theorem fix10 : ∀ t : Fin cfg2.N, win2_10.index t (0 : Fin 2) = 0 ∧ win2_10.index t (1 : Fin 2) = 0 :=
  (by decide +kernel : ∀ t : Fin grid2.N, _)
theorem blk10 (c : Dev nD) (t : Fin cfg2.N) : iblk2 V c 10 t = V c main_v9 := by
  funext y
  show V c main_v9 (((cfg2.win 10).blk t).view.emb y) = V c main_v9 y
  refine congrArg _ (funext fun a => Fin.ext ?_)
  obtain ⟨f0, f1⟩ := fix10 t
  match a with
  | ⟨0, _⟩ => show win2_10.index t (0 : Fin 2) * 1 + 1 * (y 0).val = (y 0).val; omega
  | ⟨1, _⟩ => show win2_10.index t (1 : Fin 2) * 20 + 1 * (y 1).val = (y 1).val; omega

theorem fix11 : ∀ t : Fin cfg2.N, win2_11.index t (0 : Fin 2) = 0 ∧ win2_11.index t (1 : Fin 2) = 0 :=
  (by decide +kernel : ∀ t : Fin grid2.N, _)
theorem blk11 (c : Dev nD) (t : Fin cfg2.N) : iblk2 V c 11 t = V c main_v4 := by
  funext y
  show V c main_v4 (((cfg2.win 11).blk t).view.emb y) = V c main_v4 y
  refine congrArg _ (funext fun a => Fin.ext ?_)
  obtain ⟨f0, f1⟩ := fix11 t
  match a with
  | ⟨0, _⟩ => show win2_11.index t (0 : Fin 2) * 20 + 1 * (y 0).val = (y 0).val; omega
  | ⟨1, _⟩ => show win2_11.index t (1 : Fin 2) * 20 + 1 * (y 1).val = (y 1).val; omega

theorem fix12 : ∀ t : Fin cfg2.N, win2_12.index t (0 : Fin 2) = 0 ∧ win2_12.index t (1 : Fin 2) = 0 :=
  (by decide +kernel : ∀ t : Fin grid2.N, _)
theorem blk12 (c : Dev nD) (t : Fin cfg2.N) : iblk2 V c 12 t = V c main_v10 := by
  funext y
  show V c main_v10 (((cfg2.win 12).blk t).view.emb y) = V c main_v10 y
  refine congrArg _ (funext fun a => Fin.ext ?_)
  obtain ⟨f0, f1⟩ := fix12 t
  match a with
  | ⟨0, _⟩ => show win2_12.index t (0 : Fin 2) * 1 + 1 * (y 0).val = (y 0).val; omega
  | ⟨1, _⟩ => show win2_12.index t (1 : Fin 2) * 20 + 1 * (y 1).val = (y 1).val; omega

theorem fix13 : ∀ t : Fin cfg2.N, win2_13.index t (0 : Fin 2) = 0 ∧ win2_13.index t (1 : Fin 2) = 0 :=
  (by decide +kernel : ∀ t : Fin grid2.N, _)
theorem blk13 (c : Dev nD) (t : Fin cfg2.N) : iblk2 V c 13 t = V c main_v5 := by
  funext y
  show V c main_v5 (((cfg2.win 13).blk t).view.emb y) = V c main_v5 y
  refine congrArg _ (funext fun a => Fin.ext ?_)
  obtain ⟨f0, f1⟩ := fix13 t
  match a with
  | ⟨0, _⟩ => show win2_13.index t (0 : Fin 2) * 20 + 1 * (y 0).val = (y 0).val; omega
  | ⟨1, _⟩ => show win2_13.index t (1 : Fin 2) * 20 + 1 * (y 1).val = (y 1).val; omega

theorem fix14 : ∀ t : Fin cfg2.N, win2_14.index t (0 : Fin 2) = 0 ∧ win2_14.index t (1 : Fin 2) = 0 :=
  (by decide +kernel : ∀ t : Fin grid2.N, _)
theorem blk14 (c : Dev nD) (t : Fin cfg2.N) : iblk2 V c 14 t = V c main_v11 := by
  funext y
  show V c main_v11 (((cfg2.win 14).blk t).view.emb y) = V c main_v11 y
  refine congrArg _ (funext fun a => Fin.ext ?_)
  obtain ⟨f0, f1⟩ := fix14 t
  match a with
  | ⟨0, _⟩ => show win2_14.index t (0 : Fin 2) * 1 + 1 * (y 0).val = (y 0).val; omega
  | ⟨1, _⟩ => show win2_14.index t (1 : Fin 2) * 20 + 1 * (y 1).val = (y 1).val; omega

/-! ## What a point writes back -/

/-- The body's stored value at any index of the block, by its two coordinates. -/
theorem out_at (x0 x1 : Vec Ideal S2000x20 .f32) (x2 : Vec Ideal S2000x1 .f32) (x3 : Vec Ideal S20x20 .f32)
    (x4 : Vec Ideal S1x20 .f32) (x5 : Vec Ideal S20x20 .f32) (x6 : Vec Ideal S1x20 .f32) (x7 : Vec Ideal S20x20 .f32)
    (x8 : Vec Ideal S1x20 .f32) (x9 : Vec Ideal S20x20 .f32) (x10 : Vec Ideal S1x20 .f32) (x11 : Vec Ideal S20x20 .f32)
    (x12 : Vec Ideal S1x20 .f32) (x13 : Vec Ideal S20x20 .f32) (x14 : Vec Ideal S1x20 .f32) (y : S2000x20.Idx) :
    out2_15 (F := Ideal) x0 x1 x2 x3 x4 x5 x6 x7 x8 x9 x10 x11 x12 x13 x14 y
      = stepRow 0 ⟨x3, x4, x5, x6, x7, x8, x9, x10, x11, x12, x13, x14⟩
          (fun k => x0 (ix2 (⟨(y 0).val, (y 0).isLt⟩ : Fin 2000) k)) (fun k => x1 (ix2 (⟨(y 0).val, (y 0).isLt⟩ : Fin 2000) k))
          (x2 (ix2 (⟨(y 0).val, (y 0).isLt⟩ : Fin 2000) (0 : Fin 1))) ⟨(y 1).val, (y 1).isLt⟩ := by
  have e : y = ix2 (⟨(y 0).val, (y 0).isLt⟩ : Fin 2000) (⟨(y 1).val, (y 1).isLt⟩ : Fin 20) := eq_ix2 y
  conv_lhs => rw [e]
  exact Body2.out_apply x0 x1 x2 x3 x4 x5 x6 x7 x8 x9 x10 x11 x12 x13 x14 _ _

/-- WHAT POINT `t` WRITES BACK is block `t` of the update of the entry arrays. -/
theorem flushed_eq (c : Dev nD) (t : Fin cfg2.N) :
    (dat2 V c).flushed 15 t = ((cfg2.win 15).blk t).view.read (Elt Ideal) (G V c) := by
  show (cfg2.win 15).cut (grid2.coords t) ((dat2 V c).after 15 t) = _
  rw [after2_15]
  rw [blk3 V c t, blk4 V c t, blk5 V c t, blk6 V c t, blk7 V c t, blk8 V c t, blk9 V c t, blk10 V c t, blk11 V c t,
    blk12 V c t, blk13 V c t, blk14 V c t]
  obtain ⟨a0, a1, b0, b1, c0, c1, o0, o1⟩ := row_facts t
  funext j
  refine (out_at (iblk2 V c 0 t) (iblk2 V c 1 t) (iblk2 V c 2 t) (V c main_v0) (V c main_v6) (V c main_v1) (V c main_v7)
    (V c main_v2) (V c main_v8) (V c main_v3) (V c main_v9) (V c main_v4) (V c main_v10) (V c main_v5) (V c main_v11) j).trans ?_
  refine stepArr_at 0 (params V c) (V c main_v67) (V c main_v94) (V c main_v73) (((cfg2.win 15).blk t).view.emb j) _ _ _ _
    (fun k => ?_) (fun k => ?_) ?_ ?_
  · show V c main_v67 (((cfg2.win 0).blk t).view.emb (ix2 (⟨(j 0).val, (j 0).isLt⟩ : Fin 2000) k)) = _
    refine congrArg _ (funext fun a => Fin.ext ?_)
    match a with
    | ⟨0, _⟩ => show win2_0.index t (0 : Fin 2) * 2000 + 1 * (j 0).val = win2_15.index t (0 : Fin 2) * 2000 + 1 * (j 0).val; omega
    | ⟨1, _⟩ => show win2_0.index t (1 : Fin 2) * 20 + 1 * k.val = k.val; omega
  · show V c main_v94 (((cfg2.win 1).blk t).view.emb (ix2 (⟨(j 0).val, (j 0).isLt⟩ : Fin 2000) k)) = _
    refine congrArg _ (funext fun a => Fin.ext ?_)
    match a with
    | ⟨0, _⟩ => show win2_1.index t (0 : Fin 2) * 2000 + 1 * (j 0).val = win2_15.index t (0 : Fin 2) * 2000 + 1 * (j 0).val; omega
    | ⟨1, _⟩ => show win2_1.index t (1 : Fin 2) * 20 + 1 * k.val = k.val; omega
  · show V c main_v73 (((cfg2.win 2).blk t).view.emb (ix2 (⟨(j 0).val, (j 0).isLt⟩ : Fin 2000) (0 : Fin 1))) = _
    refine congrArg _ (funext fun a => Fin.ext ?_)
    match a with
    | ⟨0, _⟩ => show win2_2.index t (0 : Fin 2) * 2000 + 1 * (j 0).val = win2_15.index t (0 : Fin 2) * 2000 + 1 * (j 0).val; omega
    | ⟨1, _⟩ => show win2_2.index t (1 : Fin 2) * 1 + 1 * 0 = 0; omega
  · show (j 1).val = win2_15.index t (1 : Fin 2) * 20 + 1 * (j 1).val; omega

/-! ## The blocks cover the array -/

/-- An index of the array is in point `t`'s block iff each coordinate is in the block's range on its axis. -/
theorem mem_blk (t : Fin cfg2.N) (i : S200000x20.Idx) :
    i ∈ ((cfg2.win 15).blk t).view.set ↔ ∀ a : Fin 2, win2_15.index t a * S2000x20.size a ≤ (i a).val
      ∧ (i a).val < win2_15.index t a * S2000x20.size a + S2000x20.size a := by
  show i ∈ ((View.whole main_v95).slice (win2_15.rect t)).set ↔ _
  rw [View.set_slice_whole, Rect.mem_set_unit]
  exact Iff.rfl

/-- Node `n`'s row lies in the block of point `n / 2000`. -/
theorem cover (i : S200000x20.Idx) :
    ∃ t : Fin cfg2.N, (cfg2.win 15).flush t = true ∧ i ∈ ((cfg2.win 15).blk t).view.set := by
  have hi0 : (i 0).val < 200000 := (i 0).isLt
  have hi1 : (i 1).val < 20 := (i 1).isLt
  have hN : (i 0).val / 2000 < cfg2.N := lt_of_lt_of_eq (by omega : (i 0).val / 2000 < 100) N_2.symm
  refine ⟨⟨(i 0).val / 2000, hN⟩, flush2_15 _, ?_⟩
  rw [mem_blk]
  obtain ⟨-, -, -, -, -, -, o0, o1⟩ := row_facts ⟨(i 0).val / 2000, hN⟩
  intro a
  match a with
  | ⟨0, _⟩ =>
    show win2_15.index ⟨(i 0).val / 2000, hN⟩ (0 : Fin 2) * 2000 ≤ (i 0).val
      ∧ (i 0).val < win2_15.index ⟨(i 0).val / 2000, hN⟩ (0 : Fin 2) * 2000 + 2000
    rw [o0]; show (i 0).val / 2000 * 2000 ≤ (i 0).val ∧ (i 0).val < (i 0).val / 2000 * 2000 + 2000; omega
  | ⟨1, _⟩ =>
    show win2_15.index ⟨(i 0).val / 2000, hN⟩ (1 : Fin 2) * 20 ≤ (i 1).val
      ∧ (i 1).val < win2_15.index ⟨(i 0).val / 2000, hN⟩ (1 : Fin 2) * 20 + 20
    rw [o1]; omega

/-- THE OUTPUT ARRAY after the launch is the update of the entry arrays. -/
theorem final (c : Dev nD) : (dat2 V c).arrAt 15 cfg2.N = G V c :=
  (dat2 V c).arrAt_eq_of_cover 15 (G V c) (fun t _ => flushed_eq V c t) cover

end Cert.KernelIdeal.Region2

end
-- ==== Proof.Walk.lean ====
/-
  Buffers that ride through: at each boundary between a stretch of host operations and a launch, a buffer the segment
  does not write holds what it held at the previous boundary.

  The parameter arrays (six transposed matrices, six bias rows) are computed once by the first stretch and only READ
  by the three launches; the three integer argument arrays are never written. So each of them, read at a later
  boundary, walks back to the first region's entry contents (a parameter) or to the launch memory (an argument).
-/
import proofs.«162891_j90013924590102_1_alg».proof.Proof.Gen.KernelIdeal.Frame

set_option maxRecDepth 16384

noncomputable section

namespace Cert.KernelIdeal.Walk

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg) (c : Dev nD)

/-! ## Across the first stretch: the arguments as launched -/

theorem W1_main_arg0 : W1 m ρ c (Proc.devRef .tc main_arg0) = m ((c : Thread nD τ).loc main_arg0) := by
  show StableHlo.after hostOps0 (W0 m ρ c) (Proc.devRef .tc main_arg0) = _
  after_results
  all_goals rfl

theorem W1_main_arg13 : W1 m ρ c (Proc.devRef .tc main_arg13) = m ((c : Thread nD τ).loc main_arg13) := by
  show StableHlo.after hostOps0 (W0 m ρ c) (Proc.devRef .tc main_arg13) = _
  after_results
  all_goals rfl

theorem W1_main_arg14 : W1 m ρ c (Proc.devRef .tc main_arg14) = m ((c : Thread nD τ).loc main_arg14) := by
  show StableHlo.after hostOps0 (W0 m ρ c) (Proc.devRef .tc main_arg14) = _
  after_results
  all_goals rfl

theorem W1_main_arg15 : W1 m ρ c (Proc.devRef .tc main_arg15) = m ((c : Thread nD τ).loc main_arg15) := by
  show StableHlo.after hostOps0 (W0 m ρ c) (Proc.devRef .tc main_arg15) = _
  after_results
  all_goals rfl

/-! ## Across a launch: an input window's array, or a buffer that is none of its arrays -/

theorem W2_main_v0 : W2 m ρ c (Proc.devRef .tc main_v0) = W1 m ρ c (Proc.devRef .tc main_v0) :=
  (W2_arr m ρ c 3).trans (((dat0 (V1 m ρ) c).arrAt_in 3 rfl _).trans (A_eq0 (V1 m ρ) c 3))

theorem W2_main_v6 : W2 m ρ c (Proc.devRef .tc main_v6) = W1 m ρ c (Proc.devRef .tc main_v6) :=
  (W2_arr m ρ c 4).trans (((dat0 (V1 m ρ) c).arrAt_in 4 rfl _).trans (A_eq0 (V1 m ρ) c 4))

theorem W2_main_v1 : W2 m ρ c (Proc.devRef .tc main_v1) = W1 m ρ c (Proc.devRef .tc main_v1) :=
  (W2_arr m ρ c 5).trans (((dat0 (V1 m ρ) c).arrAt_in 5 rfl _).trans (A_eq0 (V1 m ρ) c 5))

theorem W2_main_v7 : W2 m ρ c (Proc.devRef .tc main_v7) = W1 m ρ c (Proc.devRef .tc main_v7) :=
  (W2_arr m ρ c 6).trans (((dat0 (V1 m ρ) c).arrAt_in 6 rfl _).trans (A_eq0 (V1 m ρ) c 6))

theorem W2_main_v2 : W2 m ρ c (Proc.devRef .tc main_v2) = W1 m ρ c (Proc.devRef .tc main_v2) :=
  (W2_arr m ρ c 7).trans (((dat0 (V1 m ρ) c).arrAt_in 7 rfl _).trans (A_eq0 (V1 m ρ) c 7))

theorem W2_main_v8 : W2 m ρ c (Proc.devRef .tc main_v8) = W1 m ρ c (Proc.devRef .tc main_v8) :=
  (W2_arr m ρ c 8).trans (((dat0 (V1 m ρ) c).arrAt_in 8 rfl _).trans (A_eq0 (V1 m ρ) c 8))

theorem W2_main_v3 : W2 m ρ c (Proc.devRef .tc main_v3) = W1 m ρ c (Proc.devRef .tc main_v3) :=
  (W2_arr m ρ c 9).trans (((dat0 (V1 m ρ) c).arrAt_in 9 rfl _).trans (A_eq0 (V1 m ρ) c 9))

theorem W2_main_v9 : W2 m ρ c (Proc.devRef .tc main_v9) = W1 m ρ c (Proc.devRef .tc main_v9) :=
  (W2_arr m ρ c 10).trans (((dat0 (V1 m ρ) c).arrAt_in 10 rfl _).trans (A_eq0 (V1 m ρ) c 10))

theorem W2_main_v4 : W2 m ρ c (Proc.devRef .tc main_v4) = W1 m ρ c (Proc.devRef .tc main_v4) :=
  (W2_arr m ρ c 11).trans (((dat0 (V1 m ρ) c).arrAt_in 11 rfl _).trans (A_eq0 (V1 m ρ) c 11))

theorem W2_main_v10 : W2 m ρ c (Proc.devRef .tc main_v10) = W1 m ρ c (Proc.devRef .tc main_v10) :=
  (W2_arr m ρ c 12).trans (((dat0 (V1 m ρ) c).arrAt_in 12 rfl _).trans (A_eq0 (V1 m ρ) c 12))

theorem W2_main_v5 : W2 m ρ c (Proc.devRef .tc main_v5) = W1 m ρ c (Proc.devRef .tc main_v5) :=
  (W2_arr m ρ c 13).trans (((dat0 (V1 m ρ) c).arrAt_in 13 rfl _).trans (A_eq0 (V1 m ρ) c 13))

theorem W2_main_v11 : W2 m ρ c (Proc.devRef .tc main_v11) = W1 m ρ c (Proc.devRef .tc main_v11) :=
  (W2_arr m ρ c 14).trans (((dat0 (V1 m ρ) c).arrAt_in 14 rfl _).trans (A_eq0 (V1 m ρ) c 14))

theorem W2_main_arg13 : W2 m ρ c (Proc.devRef .tc main_arg13) = W1 m ρ c (Proc.devRef .tc main_arg13) :=
  W2_of_ne m ρ c main_arg13 (by decide)

theorem W2_main_arg14 : W2 m ρ c (Proc.devRef .tc main_arg14) = W1 m ρ c (Proc.devRef .tc main_arg14) :=
  W2_of_ne m ρ c main_arg14 (by decide)

theorem W2_main_arg15 : W2 m ρ c (Proc.devRef .tc main_arg15) = W1 m ρ c (Proc.devRef .tc main_arg15) :=
  W2_of_ne m ρ c main_arg15 (by decide)

theorem W4_main_v0 : W4 m ρ c (Proc.devRef .tc main_v0) = W3 m ρ c (Proc.devRef .tc main_v0) :=
  (W4_arr m ρ c 3).trans (((dat1 (V3 m ρ) c).arrAt_in 3 rfl _).trans (A_eq1 (V3 m ρ) c 3))

theorem W4_main_v6 : W4 m ρ c (Proc.devRef .tc main_v6) = W3 m ρ c (Proc.devRef .tc main_v6) :=
  (W4_arr m ρ c 4).trans (((dat1 (V3 m ρ) c).arrAt_in 4 rfl _).trans (A_eq1 (V3 m ρ) c 4))

theorem W4_main_v1 : W4 m ρ c (Proc.devRef .tc main_v1) = W3 m ρ c (Proc.devRef .tc main_v1) :=
  (W4_arr m ρ c 5).trans (((dat1 (V3 m ρ) c).arrAt_in 5 rfl _).trans (A_eq1 (V3 m ρ) c 5))

theorem W4_main_v7 : W4 m ρ c (Proc.devRef .tc main_v7) = W3 m ρ c (Proc.devRef .tc main_v7) :=
  (W4_arr m ρ c 6).trans (((dat1 (V3 m ρ) c).arrAt_in 6 rfl _).trans (A_eq1 (V3 m ρ) c 6))

theorem W4_main_v2 : W4 m ρ c (Proc.devRef .tc main_v2) = W3 m ρ c (Proc.devRef .tc main_v2) :=
  (W4_arr m ρ c 7).trans (((dat1 (V3 m ρ) c).arrAt_in 7 rfl _).trans (A_eq1 (V3 m ρ) c 7))

theorem W4_main_v8 : W4 m ρ c (Proc.devRef .tc main_v8) = W3 m ρ c (Proc.devRef .tc main_v8) :=
  (W4_arr m ρ c 8).trans (((dat1 (V3 m ρ) c).arrAt_in 8 rfl _).trans (A_eq1 (V3 m ρ) c 8))

theorem W4_main_v3 : W4 m ρ c (Proc.devRef .tc main_v3) = W3 m ρ c (Proc.devRef .tc main_v3) :=
  (W4_arr m ρ c 9).trans (((dat1 (V3 m ρ) c).arrAt_in 9 rfl _).trans (A_eq1 (V3 m ρ) c 9))

theorem W4_main_v9 : W4 m ρ c (Proc.devRef .tc main_v9) = W3 m ρ c (Proc.devRef .tc main_v9) :=
  (W4_arr m ρ c 10).trans (((dat1 (V3 m ρ) c).arrAt_in 10 rfl _).trans (A_eq1 (V3 m ρ) c 10))

theorem W4_main_v4 : W4 m ρ c (Proc.devRef .tc main_v4) = W3 m ρ c (Proc.devRef .tc main_v4) :=
  (W4_arr m ρ c 11).trans (((dat1 (V3 m ρ) c).arrAt_in 11 rfl _).trans (A_eq1 (V3 m ρ) c 11))

theorem W4_main_v10 : W4 m ρ c (Proc.devRef .tc main_v10) = W3 m ρ c (Proc.devRef .tc main_v10) :=
  (W4_arr m ρ c 12).trans (((dat1 (V3 m ρ) c).arrAt_in 12 rfl _).trans (A_eq1 (V3 m ρ) c 12))

theorem W4_main_v5 : W4 m ρ c (Proc.devRef .tc main_v5) = W3 m ρ c (Proc.devRef .tc main_v5) :=
  (W4_arr m ρ c 13).trans (((dat1 (V3 m ρ) c).arrAt_in 13 rfl _).trans (A_eq1 (V3 m ρ) c 13))

theorem W4_main_v11 : W4 m ρ c (Proc.devRef .tc main_v11) = W3 m ρ c (Proc.devRef .tc main_v11) :=
  (W4_arr m ρ c 14).trans (((dat1 (V3 m ρ) c).arrAt_in 14 rfl _).trans (A_eq1 (V3 m ρ) c 14))

theorem W4_main_arg13 : W4 m ρ c (Proc.devRef .tc main_arg13) = W3 m ρ c (Proc.devRef .tc main_arg13) :=
  W4_of_ne m ρ c main_arg13 (by decide)

theorem W4_main_arg14 : W4 m ρ c (Proc.devRef .tc main_arg14) = W3 m ρ c (Proc.devRef .tc main_arg14) :=
  W4_of_ne m ρ c main_arg14 (by decide)

theorem W4_main_arg15 : W4 m ρ c (Proc.devRef .tc main_arg15) = W3 m ρ c (Proc.devRef .tc main_arg15) :=
  W4_of_ne m ρ c main_arg15 (by decide)

/-! ## Across a later stretch of host operations: a buffer it does not write -/

theorem W3_main_v0 : W3 m ρ c (Proc.devRef .tc main_v0) = W2 m ρ c (Proc.devRef .tc main_v0) := by
  show StableHlo.after hostOps1 (W2 m ρ c) (Proc.devRef .tc main_v0) = _
  after_results

theorem W3_main_v6 : W3 m ρ c (Proc.devRef .tc main_v6) = W2 m ρ c (Proc.devRef .tc main_v6) := by
  show StableHlo.after hostOps1 (W2 m ρ c) (Proc.devRef .tc main_v6) = _
  after_results

theorem W3_main_v1 : W3 m ρ c (Proc.devRef .tc main_v1) = W2 m ρ c (Proc.devRef .tc main_v1) := by
  show StableHlo.after hostOps1 (W2 m ρ c) (Proc.devRef .tc main_v1) = _
  after_results

theorem W3_main_v7 : W3 m ρ c (Proc.devRef .tc main_v7) = W2 m ρ c (Proc.devRef .tc main_v7) := by
  show StableHlo.after hostOps1 (W2 m ρ c) (Proc.devRef .tc main_v7) = _
  after_results

theorem W3_main_v2 : W3 m ρ c (Proc.devRef .tc main_v2) = W2 m ρ c (Proc.devRef .tc main_v2) := by
  show StableHlo.after hostOps1 (W2 m ρ c) (Proc.devRef .tc main_v2) = _
  after_results

theorem W3_main_v8 : W3 m ρ c (Proc.devRef .tc main_v8) = W2 m ρ c (Proc.devRef .tc main_v8) := by
  show StableHlo.after hostOps1 (W2 m ρ c) (Proc.devRef .tc main_v8) = _
  after_results

theorem W3_main_v3 : W3 m ρ c (Proc.devRef .tc main_v3) = W2 m ρ c (Proc.devRef .tc main_v3) := by
  show StableHlo.after hostOps1 (W2 m ρ c) (Proc.devRef .tc main_v3) = _
  after_results

theorem W3_main_v9 : W3 m ρ c (Proc.devRef .tc main_v9) = W2 m ρ c (Proc.devRef .tc main_v9) := by
  show StableHlo.after hostOps1 (W2 m ρ c) (Proc.devRef .tc main_v9) = _
  after_results

theorem W3_main_v4 : W3 m ρ c (Proc.devRef .tc main_v4) = W2 m ρ c (Proc.devRef .tc main_v4) := by
  show StableHlo.after hostOps1 (W2 m ρ c) (Proc.devRef .tc main_v4) = _
  after_results

theorem W3_main_v10 : W3 m ρ c (Proc.devRef .tc main_v10) = W2 m ρ c (Proc.devRef .tc main_v10) := by
  show StableHlo.after hostOps1 (W2 m ρ c) (Proc.devRef .tc main_v10) = _
  after_results

theorem W3_main_v5 : W3 m ρ c (Proc.devRef .tc main_v5) = W2 m ρ c (Proc.devRef .tc main_v5) := by
  show StableHlo.after hostOps1 (W2 m ρ c) (Proc.devRef .tc main_v5) = _
  after_results

theorem W3_main_v11 : W3 m ρ c (Proc.devRef .tc main_v11) = W2 m ρ c (Proc.devRef .tc main_v11) := by
  show StableHlo.after hostOps1 (W2 m ρ c) (Proc.devRef .tc main_v11) = _
  after_results

theorem W3_main_arg13 : W3 m ρ c (Proc.devRef .tc main_arg13) = W2 m ρ c (Proc.devRef .tc main_arg13) := by
  show StableHlo.after hostOps1 (W2 m ρ c) (Proc.devRef .tc main_arg13) = _
  after_results

theorem W3_main_arg14 : W3 m ρ c (Proc.devRef .tc main_arg14) = W2 m ρ c (Proc.devRef .tc main_arg14) := by
  show StableHlo.after hostOps1 (W2 m ρ c) (Proc.devRef .tc main_arg14) = _
  after_results

theorem W3_main_arg15 : W3 m ρ c (Proc.devRef .tc main_arg15) = W2 m ρ c (Proc.devRef .tc main_arg15) := by
  show StableHlo.after hostOps1 (W2 m ρ c) (Proc.devRef .tc main_arg15) = _
  after_results

theorem W3_main_v39 : W3 m ρ c (Proc.devRef .tc main_v39) = W2 m ρ c (Proc.devRef .tc main_v39) := by
  show StableHlo.after hostOps1 (W2 m ρ c) (Proc.devRef .tc main_v39) = _
  after_results

theorem W5_main_v0 : W5 m ρ c (Proc.devRef .tc main_v0) = W4 m ρ c (Proc.devRef .tc main_v0) := by
  show StableHlo.after hostOps2 (W4 m ρ c) (Proc.devRef .tc main_v0) = _
  after_results

theorem W5_main_v6 : W5 m ρ c (Proc.devRef .tc main_v6) = W4 m ρ c (Proc.devRef .tc main_v6) := by
  show StableHlo.after hostOps2 (W4 m ρ c) (Proc.devRef .tc main_v6) = _
  after_results

theorem W5_main_v1 : W5 m ρ c (Proc.devRef .tc main_v1) = W4 m ρ c (Proc.devRef .tc main_v1) := by
  show StableHlo.after hostOps2 (W4 m ρ c) (Proc.devRef .tc main_v1) = _
  after_results

theorem W5_main_v7 : W5 m ρ c (Proc.devRef .tc main_v7) = W4 m ρ c (Proc.devRef .tc main_v7) := by
  show StableHlo.after hostOps2 (W4 m ρ c) (Proc.devRef .tc main_v7) = _
  after_results

theorem W5_main_v2 : W5 m ρ c (Proc.devRef .tc main_v2) = W4 m ρ c (Proc.devRef .tc main_v2) := by
  show StableHlo.after hostOps2 (W4 m ρ c) (Proc.devRef .tc main_v2) = _
  after_results

theorem W5_main_v8 : W5 m ρ c (Proc.devRef .tc main_v8) = W4 m ρ c (Proc.devRef .tc main_v8) := by
  show StableHlo.after hostOps2 (W4 m ρ c) (Proc.devRef .tc main_v8) = _
  after_results

theorem W5_main_v3 : W5 m ρ c (Proc.devRef .tc main_v3) = W4 m ρ c (Proc.devRef .tc main_v3) := by
  show StableHlo.after hostOps2 (W4 m ρ c) (Proc.devRef .tc main_v3) = _
  after_results

theorem W5_main_v9 : W5 m ρ c (Proc.devRef .tc main_v9) = W4 m ρ c (Proc.devRef .tc main_v9) := by
  show StableHlo.after hostOps2 (W4 m ρ c) (Proc.devRef .tc main_v9) = _
  after_results

theorem W5_main_v4 : W5 m ρ c (Proc.devRef .tc main_v4) = W4 m ρ c (Proc.devRef .tc main_v4) := by
  show StableHlo.after hostOps2 (W4 m ρ c) (Proc.devRef .tc main_v4) = _
  after_results

theorem W5_main_v10 : W5 m ρ c (Proc.devRef .tc main_v10) = W4 m ρ c (Proc.devRef .tc main_v10) := by
  show StableHlo.after hostOps2 (W4 m ρ c) (Proc.devRef .tc main_v10) = _
  after_results

theorem W5_main_v5 : W5 m ρ c (Proc.devRef .tc main_v5) = W4 m ρ c (Proc.devRef .tc main_v5) := by
  show StableHlo.after hostOps2 (W4 m ρ c) (Proc.devRef .tc main_v5) = _
  after_results

theorem W5_main_v11 : W5 m ρ c (Proc.devRef .tc main_v11) = W4 m ρ c (Proc.devRef .tc main_v11) := by
  show StableHlo.after hostOps2 (W4 m ρ c) (Proc.devRef .tc main_v11) = _
  after_results

theorem W5_main_arg13 : W5 m ρ c (Proc.devRef .tc main_arg13) = W4 m ρ c (Proc.devRef .tc main_arg13) := by
  show StableHlo.after hostOps2 (W4 m ρ c) (Proc.devRef .tc main_arg13) = _
  after_results

theorem W5_main_arg14 : W5 m ρ c (Proc.devRef .tc main_arg14) = W4 m ρ c (Proc.devRef .tc main_arg14) := by
  show StableHlo.after hostOps2 (W4 m ρ c) (Proc.devRef .tc main_arg14) = _
  after_results

theorem W5_main_arg15 : W5 m ρ c (Proc.devRef .tc main_arg15) = W4 m ρ c (Proc.devRef .tc main_arg15) := by
  show StableHlo.after hostOps2 (W4 m ρ c) (Proc.devRef .tc main_arg15) = _
  after_results

theorem W5_main_v67 : W5 m ρ c (Proc.devRef .tc main_v67) = W4 m ρ c (Proc.devRef .tc main_v67) := by
  show StableHlo.after hostOps2 (W4 m ρ c) (Proc.devRef .tc main_v67) = _
  after_results

end Cert.KernelIdeal.Walk

end
-- ==== Proof.LibGatherRows.lean ====
/-
  A general lemma: `stablehlo.gather` of WHOLE ROWS of a rank-2 operand, read at an index.

  What `jnp.take(x, idx, axis = 0)` of a table `x : [N, C]` at an integer vector `idx : [R]` lowers to: a gather with
  offset_dims `[1]`, collapsed_slice_dims `[0]`, start_index_map `[0]`, index_vector_dim `1` and slice sizes `[1, C]`
  over the indices as a column `[R, 1]`. Result element `(t, d)` is `x` at row `idx[t, 0]` — read as a signed integer
  and clamped into `[0, N − 1]`, as the gather clamps every start index — and column `d`: on the operand's row axis
  the clamped start index alone (that axis is collapsed: no offset), on its column axis the result's own column
  coordinate alone (that axis is not in the start index map: start `0`).
-/
import Idealize.ShloMosaic.PureOps
import Idealize.ShloMosaic.Lib.ValueIdx

noncomputable section

namespace Cert.Lib.GatherRows

open Idealize.ShloMosaic Idealize.ShloMosaic.ValueIdx

variable {α : Type}

/-- Those dimension numbers for an operand `[N, C]`, start indices `[R, 1]` and result `[R, C]`; their conditions
    `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(t, d)`: the operand at row `r`, the start index `idx[t, 0]` read signed and clamped into
    `[0, N − 1]`, and column `d`. The row is a variable with its defining equation, so that a user substitutes the
    row it has computed without rewriting under an index's bound proof. -/
theorem gather_rows_apply {N C R w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (d : Fin C) (r : Fin N)
    (hr : r.val = min (idx (ix2 t (0 : Fin 1))).toInt.toNat (N - 1)) :
    Host.gather (rowDims N C R wf) x idx (ix2 t d) = x (ix2 r d) := by
  unfold Host.gather
  refine congrArg x (funext fun a => Fin.ext ?_)
  match a with
  | ⟨0, _⟩ =>
    show (rowDims N C R wf).start (ix2 t d) idx 0 + (rowDims N C R wf).batchCoord (ix2 t d) 0
      + (rowDims N C R wf).offCoord (ix2 t d) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 t d) ⟨List.idxOf (0 : Fin 2) (rowDims N C R wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi, hr]
    rfl
  | ⟨1, _⟩ =>
    show (rowDims N C R wf).start (ix2 t d) idx 1 + (rowDims N C R wf).batchCoord (ix2 t d) 1
      + (rowDims N C R wf).offCoord (ix2 t d) 1 = d.val
    rw [GatherDims.batchCoord_eq_zero _ _ _ List.not_mem_nil]
    unfold GatherDims.start
    have h10 : (1 : Fin 2) ∉ ([0] : List (Fin 2)) := by decide
    rw [dif_neg (show (1 : Fin 2) ∉ (rowDims N C R wf).startIndexMap from h10)]
    unfold GatherDims.offCoord
    rw [dif_pos ((GatherDims.mem_sKept _ _).mpr ⟨(show (1 : Fin 2) ∉ (rowDims N C R wf).collapsedSliceDims from h10), List.not_mem_nil⟩)]
    simp only [Nat.add_zero, Nat.zero_add]
    rfl

end Cert.Lib.GatherRows

end
-- ==== Proof.LibGatherVec.lean ====
/-
  A general lemma: `stablehlo.gather` of single ELEMENTS of a rank-1 operand, read at an index.

  What `v[idx]` / `jnp.take(v, idx)` of a vector `v : [N]` at an integer vector `idx : [R]` lowers to: a gather with
  offset_dims `[]`, collapsed_slice_dims `[0]`, start_index_map `[0]`, index_vector_dim `1` and slice sizes `[1]` over
  the indices as a column `[R, 1]`. Result element `t` is `v` at `idx[t, 0]` — read as a signed integer and clamped
  into `[0, N − 1]`, as the gather clamps every start index: the operand's one axis is collapsed, so the clamped start
  index is the whole coordinate.
-/
import Idealize.ShloMosaic.PureOps
import Idealize.ShloMosaic.Lib.ValueIdx

noncomputable section

namespace Cert.LibGatherVec

open Idealize.ShloMosaic Idealize.ShloMosaic.ValueIdx

variable {α : Type}

/-- Those dimension numbers for an operand `[N]`, start indices `[R, 1]` and result `[R]`; their conditions `wf` are
    decided on a program's literal shapes. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER OF ELEMENTS READ AT `t`: the operand at `r`, the start index `idx[t, 0]` read signed and clamped into
    `[0, N − 1]`. The position is a variable with its defining equation, so that a user substitutes the position it has
    computed without rewriting under an index's bound proof. -/
theorem gather_vec_apply {N R w : Nat}
    (wf : GatherDims.WF ⟨1, ![N]⟩ ⟨2, ![R, 1]⟩ ⟨1, ![R]⟩ [] [0] [] [0] [] 1 ![1])
    (v : (⟨1, ![N]⟩ : Shape).Idx → α) (idx : IVec ⟨2, ![R, 1]⟩ w) (t : Fin R) (r : Fin N)
    (hr : r.val = min (idx (ix2 t (0 : Fin 1))).toInt.toNat (N - 1)) :
    Host.gather (vecDims N R wf) v idx (ix1 t) = v (ix1 r) := by
  unfold Host.gather
  refine congrArg v (funext fun a => Fin.ext ?_)
  obtain rfl : a = 0 := Subsingleton.elim _ _
  show (vecDims N R wf).start (ix1 t) idx 0 + (vecDims N R wf).batchCoord (ix1 t) 0 + (vecDims N R wf).offCoord (ix1 t) 0 = r.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 t) ⟨List.idxOf (0 : Fin 1) (vecDims N R wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi, hr]
  rfl

end Cert.LibGatherVec

end
-- ==== Proof.GatherCol.lean ====
/-
  The activity of the source node of every edge, gathered two ways.

  One program keeps the activity as a column `[N, 1]` and gathers its rows at the edges' source indices; the other
  keeps it as a vector `[N]`, gathers its elements and then makes the result a column `[R, 1]`. Both read, for edge
  `t`, the activity at the start index `idx[t, 0]` taken signed and clamped into `[0, N − 1]`.

  Also here: a bias vector made a `[1, a]` row by a reshape or by a broadcast is one row (`bias_row_eq`).
-/
import proofs.«162891_j90013924590102_1_alg».proof.Proof.LibGatherRows
import proofs.«162891_j90013924590102_1_alg».proof.Proof.LibGatherVec
import Idealize.ShloMosaic.Lib.Pipeline.Value
import Idealize.ShloMosaic.Lib.ValueLayout

noncomputable section

namespace Cert.GatherCol

open Idealize.ShloMosaic Idealize.ShloMosaic.ValueIdx

variable {α : Type}

/-- The activity of every edge's source node, as an `[R, 1]` column: gathering rows of the activity COLUMN `[N, 1]`
    is gathering elements of the activity VECTOR `[N]` and then making the result a column. Either way entry `t` is the
    activity at the clamped start index `idx[t, 0]`. -/
theorem gather_column_eq {N R w : Nat}
    (wfr : GatherDims.WF ⟨2, ![N, 1]⟩ ⟨2, ![R, 1]⟩ ⟨2, ![R, 1]⟩ [1] [0] [] [0] [] 1 ![1, 1])
    (wfv : GatherDims.WF ⟨1, ![N]⟩ ⟨2, ![R, 1]⟩ ⟨1, ![R]⟩ [] [0] [] [0] [] 1 ![1])
    (hN : (⟨1, ![N]⟩ : Shape).BroadcastsInDim ⟨2, ![N, 1]⟩ ![0])
    (hR : (⟨1, ![R]⟩ : Shape).BroadcastsInDim ⟨2, ![R, 1]⟩ ![0])
    (hpos : 0 < N) (hN1 : N ≠ 1) (hR1 : R ≠ 1)
    (af : (⟨1, ![N]⟩ : Shape).Idx → α) (idx : IVec ⟨2, ![R, 1]⟩ w) :
    Host.gather (Cert.Lib.GatherRows.rowDims N 1 R wfr) (broadcastInDim ⟨2, ![N, 1]⟩ ![0] hN af) idx
      = broadcastInDim ⟨2, ![R, 1]⟩ ![0] hR (Host.gather (Cert.LibGatherVec.vecDims N R wfv) af idx) := by
  funext j
  obtain ⟨t, u, rfl⟩ : ∃ (t : Fin R) (u : Fin 1), j = ix2 t u := ⟨j 0, j 1, eq_ix2 j⟩
  obtain rfl : u = 0 := Subsingleton.elim _ _
  have hr : min (idx (ix2 t (0 : Fin 1))).toInt.toNat (N - 1) < N := by omega
  rw [Cert.Lib.GatherRows.gather_rows_apply wfr _ idx t (0 : Fin 1) ⟨_, hr⟩ rfl]
  rw [broadcastInDim_apply ![0] hN af (ix2 (⟨_, hr⟩ : Fin N) (0 : Fin 1)) (ix1 (⟨_, hr⟩ : Fin N)) (fun a => by
    obtain rfl : a = 0 := Subsingleton.elim _ _
    show _ = if N = 1 then 0 else _
    rw [if_neg hN1]; rfl)]
  rw [broadcastInDim_apply ![0] hR (Host.gather (Cert.LibGatherVec.vecDims N R wfv) af idx) (ix2 t (0 : Fin 1)) (ix1 t) (fun a => by
    obtain rfl : a = 0 := Subsingleton.elim _ _
    show _ = if R = 1 then 0 else _
    rw [if_neg hR1]; rfl)]
  exact (Cert.LibGatherVec.gather_vec_apply wfv af idx t ⟨_, hr⟩ rfl).symm

end Cert.GatherCol

namespace Cert.GatherCol

open Idealize.ShloMosaic Idealize.ShloMosaic.ValueIdx

variable {α : Type}

/-- A bias vector `[a]` made a row `[1, a]` by a reshape or by a broadcast into the second axis: the same row, entry
    `(0, i)` the vector's entry `i` either way. -/
theorem bias_row_eq {a : ℕ} (ha : a ≠ 1) (x : (⟨1, ![a]⟩ : Shape).Idx → α)
    (hc : (⟨1, ![a]⟩ : Shape).ShapeCasts ⟨2, ![1, a]⟩) (hb : (⟨1, ![a]⟩ : Shape).BroadcastsInDim ⟨2, ![1, a]⟩ ![1]) :
    shapeCast ⟨2, ![1, a]⟩ x hc = broadcastInDim ⟨2, ![1, a]⟩ ![1] hb x := by
  funext j
  obtain ⟨u, i, rfl⟩ : ∃ (u : Fin 1) (i : Fin a), j = ix2 u i := ⟨j 0, j 1, eq_ix2 j⟩
  rw [shapeCast_a_1a_apply x hc u i, broadcastInDim_apply ![1] hb x (ix2 u i) (ix1 i) (fun b => by
    obtain rfl : b = 0 := Subsingleton.elim _ _
    show _ = if a = 1 then 0 else _
    rw [if_neg ha]; rfl)]

end Cert.GatherCol

end
-- ==== Proof.RefTerms.lean ====
/-
  The reference's three iterations as whole-array terms, named.

  Per iteration, for the depth offset `d ∈ {0, 1, 2}`: the activity bits `act d` (depth + d ≤ 3), their float
  `actF` and column `actCol`; the edges' source indices as a column `srcCol` (a negative index wrapped by the number
  of nodes); the message array `msgWith g` (gather the state rows at the sources, scale each by its entry of `g`, sum
  into the destination nodes, mask by the destinations' activity), where `g` is the sources' activity gathered from the
  activity VECTOR (`msgRef`, the reference) or from the activity COLUMN (`msgKer`, the kernel's host glue) — equal by
  `Cert.GatherCol.gather_column_eq`; and the node update `gruRef`: gates by transposed products and broadcast bias
  rows, the logistic spelt `1 / (1 + e⁻ˣ)`, the new state selected where the node is active. The result zeroes the
  nodes inactive in the last iteration (`zeroRef`).
-/
import proofs.«162891_j90013924590102_1_alg».proof.ReferenceIdeal
import proofs.«162891_j90013924590102_1_alg».proof.Proof.Gen.ReferenceIdeal
import proofs.«162891_j90013924590102_1_alg».proof.Proof.GatherCol
import proofs.«162891_j90013924590102_1_alg».proof.Proof.Spec
import Idealize.ShloMosaic.PureOps.Ideal

set_option maxRecDepth 16384

noncomputable section

namespace Cert.RefTerms

open Idealize.ShloMosaic Idealize.ShloMosaic.ValueIdx Cert.ReferenceIdeal Cert.ReferenceIdeal.Gen

abbrev Mat : Type := FVec Ideal S200000x20 .f32
abbrev Wt : Type := FVec Ideal S20x20 .f32
abbrev Bs : Type := FVec Ideal S20 .f32
abbrev Dp : Type := IVec S200000 32
abbrev Ed : Type := IVec S6400000 32
abbrev Bits1 : Type := IVec S200000 1

/-! ## Activity and edge indices -/

/-- Node `n` is active in the iteration with offset `d` when `depth n + d ≤ 3` (signed). -/
def act (d : BitVec 32) (x13 : Dp) : Bits1 :=
  cmpi .sle (addi x13 (broadcastInDim S200000 ![] bcast_S_S200000 (constantI S_ 32 d)))
    (broadcastInDim S200000 ![] bcast_S_S200000 (constantI S_ 32 3#32))

/-- The activity as a float vector (0 or 1) and as a column. -/
def actF (d : BitVec 32) (x13 : Dp) : FVec Ideal S200000 .f32 := uitofp (F := Ideal) .f32 (act d x13)
def actCol (d : BitVec 32) (x13 : Dp) : FVec Ideal S200000x1 .f32 :=
  broadcastInDim S200000x1 ![0] bcast_S200000_S200000x1_0 (actF d x13)

/-- The edges' source indices, a negative one wrapped by the number of nodes, as a column. -/
def srcCol (x14 : Ed) : IVec S6400000x1 32 :=
  broadcastInDim S6400000x1 ![0] bcast_S6400000_S6400000x1_0
    (select (cmpi .slt x14 (broadcastInDim S6400000 ![] bcast_S_S6400000 (constantI S_ 32 0#32)))
      (addi x14 (broadcastInDim S6400000 ![] bcast_S_S6400000 (constantI S_ 32 200000#32))) x14)

/-! ## Message passing -/

/-- The conditions of the two gathers' dimension numbers at the programs' shapes. -/
theorem wfRows : GatherDims.WF ⟨2, ![200000, 1]⟩ ⟨2, ![6400000, 1]⟩ ⟨2, ![6400000, 1]⟩ [1] [0] [] [0] [] 1 ![1, 1] := by decide
theorem wfVec : GatherDims.WF ⟨1, ![200000]⟩ ⟨2, ![6400000, 1]⟩ ⟨1, ![6400000]⟩ [] [0] [] [0] [] 1 ![1] := by decide

/-- The message array, given the sources' activity `g` as a column over the edges. -/
def msgWith (g : FVec Ideal S6400000x1 .f32) (d : BitVec 32) (h : Mat) (x13 : Dp) (x14 x15 : Ed) : Mat :=
  mulf (F := Ideal) (Host.scatterAdd (F := Ideal) scatter_S200000x20_S6400000x1_S6400000x20_1_0_0_1
      (broadcastInDim S200000x20 ![] bcast_S_S200000x20 (constant (F := Ideal) S_ .f32 0x00000000#32))
      (broadcastInDim S6400000x1 ![0] bcast_S6400000_S6400000x1_0 x15)
      (mulf (F := Ideal) (Host.gather gather_S200000x20_S6400000x1_S6400000x20_1_0_n_n_0_1_120 h (srcCol x14))
        (broadcastInDim S6400000x20 ![0, 1] bcast_S6400000x1_S6400000x20_0_1 g)))
    (broadcastInDim S200000x20 ![0, 1] bcast_S200000x1_S200000x20_0_1 (actCol d x13))

/-- The reference gathers the sources' activity from the activity vector and makes it a column. -/
def msgRef (d : BitVec 32) (h : Mat) (x13 : Dp) (x14 x15 : Ed) : Mat :=
  msgWith (broadcastInDim S6400000x1 ![0] bcast_S6400000_S6400000x1_0
    (Host.gather (Cert.LibGatherVec.vecDims 200000 6400000 wfVec) (actF d x13) (srcCol x14))) d h x13 x14 x15

/-- The kernel's host glue gathers it from the activity column. -/
def msgKer (d : BitVec 32) (h : Mat) (x13 : Dp) (x14 x15 : Ed) : Mat :=
  msgWith (Host.gather (Cert.Lib.GatherRows.rowDims 200000 1 6400000 wfRows) (actCol d x13) (srcCol x14)) d h x13 x14 x15

theorem msgKer_eq (d : BitVec 32) (h : Mat) (x13 : Dp) (x14 x15 : Ed) : msgKer d h x13 x14 x15 = msgRef d h x13 x14 x15 :=
  congrArg (fun g => msgWith g d h x13 x14 x15)
    (Cert.GatherCol.gather_column_eq wfRows wfVec bcast_S200000_S200000x1_0 bcast_S6400000_S6400000x1_0
      (by decide) (by decide) (by decide) (actF d x13) (srcCol x14))

/-! ## The node update -/

/-- A parameter matrix transposed, a bias as a row. -/
def wT (w : Wt) : Wt := transpose S20x20 [1, 0] w transposes_S20x20_S20x20_1_0
def bRow (b : Bs) : FVec Ideal S1x20 .f32 := broadcastInDim S1x20 ![1] bcast_S20_S1x20_1 b

/-- The twelve parameter arrays as the node update reads them. -/
def refParams (x1 : Wt) (x2 : Bs) (x3 : Wt) (x4 : Bs) (x5 : Wt) (x6 : Bs) (x7 : Wt) (x8 : Bs) (x9 : Wt) (x10 : Bs)
    (x11 : Wt) (x12 : Bs) : Cert.Gru.Params :=
  ⟨wT x1, bRow x2, wT x3, bRow x4, wT x5, bRow x6, wT x7, bRow x8, wT x9, bRow x10, wT x11, bRow x12⟩

/-- `v · wᵀ + b` over all nodes. -/
def linRef (v : Mat) (w : Wt) (b : Bs) : Mat :=
  addf (F := Ideal) (Host.dotGeneral (F := Ideal) dot_S200000x20_S20x20_S200000x20_1_0_0_1_n_n none v (wT w))
    (broadcastInDim S200000x20 ![0, 1] bcast_S1x20_S200000x20_0_1 (bRow b))

def ones : Mat := broadcastInDim S200000x20 ![] bcast_S_S200000x20 (constant (F := Ideal) S_ .f32 0x3F800000#32)
def zeros : Mat := broadcastInDim S200000x20 ![] bcast_S_S200000x20 (constant (F := Ideal) S_ .f32 0x00000000#32)

/-- The logistic, spelt out. -/
def sigRef (p : Mat) : Mat := Host.divf (F := Ideal) ones (addf (F := Ideal) ones (Host.exp (F := Ideal) (Host.negf (F := Ideal) p)))

/-- The new state of an active node, over all nodes. -/
def hnewRef (h x : Mat) (x1 : Wt) (x2 : Bs) (x3 : Wt) (x4 : Bs) (x5 : Wt) (x6 : Bs) (x7 : Wt) (x8 : Bs) (x9 : Wt) (x10 : Bs)
    (x11 : Wt) (x12 : Bs) : Mat :=
  addf (F := Ideal) (mulf (F := Ideal) (sigRef (addf (F := Ideal) (linRef x x1 x2) (linRef h x3 x4))) h)
    (mulf (F := Ideal) (subf (F := Ideal) ones (sigRef (addf (F := Ideal) (linRef x x1 x2) (linRef h x3 x4))))
      (Host.tanh (F := Ideal) (addf (F := Ideal) (linRef x x9 x10) (linRef (mulf (F := Ideal) (sigRef (addf (F := Ideal) (linRef x x5 x6) (linRef h x7 x8))) h) x11 x12))))

/-- Activity bits broadcast over the state array. -/
def maskMat (a : Bits1) : IVec S200000x20 1 :=
  broadcastInDim S200000x20 ![0, 1] bcast_S200000x1_S200000x20_0_1 (broadcastInDim S200000x1 ![0] bcast_S200000_S200000x1_0 a)

/-- One iteration's node update: active nodes take the new state, the others keep theirs. -/
def gruRef (a : Bits1) (h x : Mat) (x1 : Wt) (x2 : Bs) (x3 : Wt) (x4 : Bs) (x5 : Wt) (x6 : Bs) (x7 : Wt) (x8 : Bs) (x9 : Wt)
    (x10 : Bs) (x11 : Wt) (x12 : Bs) : Mat :=
  select (maskMat a) (hnewRef h x x1 x2 x3 x4 x5 x6 x7 x8 x9 x10 x11 x12) h

/-- The inactive nodes zeroed. -/
def zeroRef (a : Bits1) (v : Mat) : Mat := select (maskMat a) v zeros

/-- One whole iteration with offset `d`, from the state `h`. -/
def stepRef (d : BitVec 32) (h : Mat) (x1 : Wt) (x2 : Bs) (x3 : Wt) (x4 : Bs) (x5 : Wt) (x6 : Bs) (x7 : Wt) (x8 : Bs) (x9 : Wt)
    (x10 : Bs) (x11 : Wt) (x12 : Bs) (x13 : Dp) (x14 x15 : Ed) : Mat :=
  gruRef (act d x13) h (msgRef d h x13 x14 x15) x1 x2 x3 x4 x5 x6 x7 x8 x9 x10 x11 x12

end Cert.RefTerms

end
-- ==== Proof.RefResult.lean ====
/-
  The reference's result as a function of its sixteen arguments: three iterations, then the inactive nodes zeroed.
-/
import proofs.«162891_j90013924590102_1_alg».proof.Proof.RefTerms
import Idealize.ShloMosaic.Lib.Pipeline.Value

noncomputable section

namespace Cert.RefTerms

open Idealize.ShloMosaic Idealize.ShloMosaic.ValueIdx Cert.ReferenceIdeal Cert.ReferenceIdeal.Gen

/-- The state after the first and after the second iteration. -/
def iter1 (x0 : Mat) (x1 : Wt) (x2 : Bs) (x3 : Wt) (x4 : Bs) (x5 : Wt) (x6 : Bs) (x7 : Wt) (x8 : Bs) (x9 : Wt) (x10 : Bs) (x11 : Wt) (x12 : Bs) (x13 : Dp) (x14 x15 : Ed) : Mat := stepRef 0#32 x0 x1 x2 x3 x4 x5 x6 x7 x8 x9 x10 x11 x12 x13 x14 x15
def iter2 (x0 : Mat) (x1 : Wt) (x2 : Bs) (x3 : Wt) (x4 : Bs) (x5 : Wt) (x6 : Bs) (x7 : Wt) (x8 : Bs) (x9 : Wt) (x10 : Bs) (x11 : Wt) (x12 : Bs) (x13 : Dp) (x14 x15 : Ed) : Mat := stepRef 1#32 (iter1 x0 x1 x2 x3 x4 x5 x6 x7 x8 x9 x10 x11 x12 x13 x14 x15) x1 x2 x3 x4 x5 x6 x7 x8 x9 x10 x11 x12 x13 x14 x15

/-- The result: the third iteration's state with the nodes inactive in it zeroed. -/
def resultRef (x0 : Mat) (x1 : Wt) (x2 : Bs) (x3 : Wt) (x4 : Bs) (x5 : Wt) (x6 : Bs) (x7 : Wt) (x8 : Bs) (x9 : Wt) (x10 : Bs) (x11 : Wt) (x12 : Bs) (x13 : Dp) (x14 x15 : Ed) : Mat :=
  zeroRef (act 2#32 x13) (stepRef 2#32 (iter2 x0 x1 x2 x3 x4 x5 x6 x7 x8 x9 x10 x11 x12 x13 x14 x15) x1 x2 x3 x4 x5 x6 x7 x8 x9 x10 x11 x12 x13 x14 x15)

/-- The activity column at node `n` is the node's activity bit as a number. -/
theorem actCol_apply (d : BitVec 32) (x13 : Dp) (n : Fin 200000) :
    actCol d x13 (ix2 n (0 : Fin 1)) = Cert.Gru.maskVal (act d x13 (ix1 n)) := by
  unfold actCol
  rw [broadcastInDim_apply ![0] bcast_S200000_S200000x1_0 (actF d x13) (ix2 n (0 : Fin 1)) (ix1 n) (fun a => by
    obtain rfl : a = 0 := Subsingleton.elim _ _
    show _ = if (200000 : Nat) = 1 then 0 else _
    rw [if_neg (by decide)]; rfl)]
  rfl

end Cert.RefTerms

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.RefGru.lean ====
/-
  The reference's node update, read at one node, is the gated recurrent update of `Spec`.

  The reference computes every array whole. At node `n` and output `q`: the product of the node rows with a transposed
  matrix is `Σ_k v[n, k] · Wᵀ[k, q]`; a bias row `[1, 20]` broadcast over the nodes is read at `[0, q]`; the activity
  bits broadcast over the outputs are read at `n`; the constant arrays read `1` and `0`. So a gate's pre-activation,
  which the reference adds as two biased sums, is `Cert.Gru.gate` (the specification adds left to right; the two agree
  by associativity alone); `1 / (1 + e^(-g))` is the logistic function of `g`; the reset gate times the state along a
  row is `Cert.Gru.resetState`; and the selection on the activity bit is the activity-weighted mix (`blend_one`).
  Selecting once more on the same bit with zero as the alternative never sees the inner alternative, so an inactive node
  ends at zero (`blend_zero`).
-/
import proofs.«162891_j90013924590102_1_alg».proof.Proof.RefTerms
import proofs.«162891_j90013924590102_1_alg».proof.Proof.LibHostMatmulNN
import Idealize.ShloMosaic.Lib.IdealHost

noncomputable section

open scoped BigOperators

namespace Cert.RefGru

open Idealize.ShloMosaic Idealize.ShloMosaic.ValueIdx Cert.ReferenceIdeal Cert.ReferenceIdeal.Gen Cert.RefTerms

/-! ## Single arrays at an index -/

/-- `v · wᵀ + b` at node `n`, output `q`: the sum over `k` of `v[n, k] · wᵀ[k, q]`, plus the bias row at `[0, q]`. -/
theorem linRef_apply (v : Mat) (w : Wt) (b : Bs) (n : Fin 200000) (q : Fin 20) :
    linRef v w b (ix2 n q) = Cert.Gru.lin (wT w) (fun k => v (ix2 n k)) q + bRow b (ix2 (0 : Fin 1) q) := by
  unfold linRef
  rw [addf_apply,
    Cert.LibHostMatmulNN.hostDot_nn_apply dot_S200000x20_S20x20_S200000x20_1_0_0_1_n_n rfl rfl rfl rfl rfl rfl none v (wT w) n q,
    broadcastInDim_apply ![0, 1] bcast_S1x20_S200000x20_0_1 (bRow b) (ix2 n q) (ix2 (0 : Fin 1) q) (fun ax => by
      match ax with
      | ⟨0, _⟩ => show 0 = if (1 : Nat) = 1 then 0 else n.val; rw [if_pos rfl]
      | ⟨1, _⟩ => show q.val = if (20 : Nat) = 1 then 0 else q.val; rw [if_neg (by decide)])]
  rfl

/-- The array of ones reads `1`. -/
theorem ones_apply (i : S200000x20.Idx) : ones i = (1 : EReal) := by
  unfold ones
  rw [broadcastInDim_scalar_apply, constant_apply, Ideal.ofBits_one_f32]

/-- The array of zeros reads `0`. -/
theorem zeros_apply (i : S200000x20.Idx) : zeros i = (0 : EReal) := by
  unfold zeros
  rw [broadcastInDim_scalar_apply, constant_apply, Ideal.ofBits_zero_f32]

/-- `1 / (1 + e^(-p))` at an index is the logistic function of `p` there. -/
theorem sigRef_apply (p : Mat) (i : S200000x20.Idx) : sigRef p i = Ideal.logistic (p i) := by
  unfold sigRef
  rw [hostDivf_apply, addf_apply, ones_apply]
  rfl

/-- The hyperbolic tangent of an array at an index is that of the element. -/
theorem tanh_apply (p : Mat) (i : S200000x20.Idx) : (Host.tanh p : Mat) i = Ideal.tanh (p i) := rfl

/-- The activity bits broadcast over the outputs read, at node `n`, the node's bit. -/
theorem maskMat_apply (a : Bits1) (n : Fin 200000) (q : Fin 20) : maskMat a (ix2 n q) = a (ix1 n) := by
  unfold maskMat
  rw [broadcastInDim_apply ![0, 1] bcast_S200000x1_S200000x20_0_1 _ (ix2 n q) (ix2 n (0 : Fin 1)) (fun ax => by
      match ax with
      | ⟨0, _⟩ => show n.val = if (200000 : Nat) = 1 then 0 else n.val; rw [if_neg (by decide)]
      | ⟨1, _⟩ => show 0 = if (1 : Nat) = 1 then 0 else q.val; rw [if_pos rfl]),
    broadcastInDim_apply ![0] bcast_S200000_S200000x1_0 a (ix2 n (0 : Fin 1)) (ix1 n) (fun ax => by
      match ax with
      | ⟨0, _⟩ => show n.val = if (200000 : Nat) = 1 then 0 else n.val; rw [if_neg (by decide)])]

/-! ## The gates and the new state -/

/-- A gate's pre-activation at node `n`, output `q`: the message term and the state term, each a sum over `k` plus its
bias, added. -/
theorem gate_apply (x h : Mat) (w : Wt) (b : Bs) (u : Wt) (c : Bs) (n : Fin 200000) (q : Fin 20) :
    (addf (linRef x w b) (linRef h u c) : Mat) (ix2 n q)
      = Cert.Gru.gate (wT w) (bRow b) (wT u) (bRow c) (fun k => x (ix2 n k)) (fun k => h (ix2 n k)) q := by
  rw [addf_apply, linRef_apply, linRef_apply, Cert.Gru.gate_two_sums]

/-- The reset gate times the state, along node `n`'s row: `r ⊙ h`. -/
theorem reset_apply (h x : Mat) (x1 : Wt) (x2 : Bs) (x3 : Wt) (x4 : Bs) (x5 : Wt) (x6 : Bs) (x7 : Wt) (x8 : Bs) (x9 : Wt) (x10 : Bs)
    (x11 : Wt) (x12 : Bs) (n : Fin 200000) :
    (fun k : Fin 20 => (mulf (sigRef (addf (linRef x x5 x6) (linRef h x7 x8))) h : Mat) (ix2 n k))
      = Cert.Gru.resetState (refParams x1 x2 x3 x4 x5 x6 x7 x8 x9 x10 x11 x12) (fun k => h (ix2 n k)) (fun k => x (ix2 n k)) := by
  funext k
  show (mulf (sigRef (addf (linRef x x5 x6) (linRef h x7 x8))) h : Mat) (ix2 n k) = _
  rw [mulf_apply, sigRef_apply, gate_apply]
  rfl

/-- The new state of an active node: `z · h + (1 − z) · tanh(candidate pre-activation)`, the candidate's state term
reading `r ⊙ h`. -/
theorem hnewRef_apply (h x : Mat) (x1 : Wt) (x2 : Bs) (x3 : Wt) (x4 : Bs) (x5 : Wt) (x6 : Bs) (x7 : Wt) (x8 : Bs) (x9 : Wt) (x10 : Bs)
    (x11 : Wt) (x12 : Bs) (n : Fin 200000) (q : Fin 20) :
    hnewRef h x x1 x2 x3 x4 x5 x6 x7 x8 x9 x10 x11 x12 (ix2 n q)
      = Cert.Gru.hnew (refParams x1 x2 x3 x4 x5 x6 x7 x8 x9 x10 x11 x12) (fun k => h (ix2 n k)) (fun k => x (ix2 n k)) q := by
  unfold hnewRef
  rw [addf_apply, mulf_apply, mulf_apply, subf_apply, ones_apply, sigRef_apply, gate_apply, tanh_apply, gate_apply,
    reset_apply h x x1 x2 x3 x4 x5 x6 x7 x8 x9 x10 x11 x12 n]
  rfl

/-! ## The node update -/

/-- One iteration's node update at node `n`: an active node takes the new state, an inactive one keeps its own. -/
theorem gruRef_apply (a : Bits1) (h x : Mat) (x1 : Wt) (x2 : Bs) (x3 : Wt) (x4 : Bs) (x5 : Wt) (x6 : Bs) (x7 : Wt) (x8 : Bs) (x9 : Wt) (x10 : Bs)
    (x11 : Wt) (x12 : Bs) (n : Fin 200000) (q : Fin 20) :
    gruRef a h x x1 x2 x3 x4 x5 x6 x7 x8 x9 x10 x11 x12 (ix2 n q)
      = Cert.Gru.stepRow 1 (refParams x1 x2 x3 x4 x5 x6 x7 x8 x9 x10 x11 x12) (fun k => h (ix2 n k)) (fun k => x (ix2 n k))
          (Cert.Gru.maskVal (a (ix1 n))) q := by
  unfold gruRef Cert.Gru.stepRow
  rw [Cert.Gru.blend_one, select_apply, maskMat_apply, hnewRef_apply]

/-- The node update followed by the zeroing of inactive nodes, at node `n`: selecting twice on one bit, the inner
alternative is never seen, so an active node takes the new state and an inactive one ends at zero. -/
theorem zeroRef_gruRef_apply (a : Bits1) (h x : Mat) (x1 : Wt) (x2 : Bs) (x3 : Wt) (x4 : Bs) (x5 : Wt) (x6 : Bs) (x7 : Wt) (x8 : Bs) (x9 : Wt) (x10 : Bs)
    (x11 : Wt) (x12 : Bs) (n : Fin 200000) (q : Fin 20) :
    zeroRef a (gruRef a h x x1 x2 x3 x4 x5 x6 x7 x8 x9 x10 x11 x12) (ix2 n q)
      = Cert.Gru.stepRow 0 (refParams x1 x2 x3 x4 x5 x6 x7 x8 x9 x10 x11 x12) (fun k => h (ix2 n k)) (fun k => x (ix2 n k))
          (Cert.Gru.maskVal (a (ix1 n))) q := by
  unfold zeroRef gruRef Cert.Gru.stepRow
  rw [Cert.Gru.blend_zero, select_apply, select_apply, maskMat_apply, Cert.Gru.select_select, zeros_apply,
    hnewRef_apply]

end Cert.RefGru

end
-- ==== Proof.Body1.lean ====
/-
  What one grid point of the second update leaves in its output block, read at a coordinate.

  The body loads a block `x0` of 2000 state rows, the matching block `x1` of message rows and `x2` of the activity
  column, and the twelve parameter arrays `x3 … x14` whole; it stores ONE value through the whole output block. Read
  at row `p`, column `q` that value is the node update `Cert.Gru.stepRow` of row `p` of the two blocks and entry `p` of
  the column, with the old state of an inactive node scaled by 1: the update and reset gates are the
  logistic of their pre-activations (`Cert.Body.gate_apply`), the candidate the hyperbolic tangent of its own with the
  reset state `r ⊙ h` as the state operand, and the rest is pointwise.
-/
import proofs.«162891_j90013924590102_1_alg».proof.Proof.BodyLemmas
import proofs.«162891_j90013924590102_1_alg».proof.Proof.Gen.KernelIdeal.Frame

set_option maxRecDepth 16384

noncomputable section

open scoped BigOperators

namespace Cert.KernelIdeal.Body1

open Idealize.ShloMosaic Idealize.ShloMosaic.ValueIdx Cert.KernelIdeal Cert.KernelIdeal.Gen Cert.Gru Cert.Body

theorem hz : (![0, 0] : Fin 2 → Nat) = fun _ => 0 := funext fun a => by fin_cases a <;> rfl

/-- The update gate of the block at `(p, q)`. -/
theorem zgate_apply (x0 x1 : Vec Ideal S2000x20 .f32) (x3 : Vec Ideal S20x20 .f32) (x4 : Vec Ideal S1x20 .f32)
    (x5 : Vec Ideal S20x20 .f32) (x6 : Vec Ideal S1x20 .f32) (p : Fin 2000) (q : Fin 20) :
    k1_pay5 (F := Ideal) x0 x1 x3 x4 x5 x6 (ix2 p q)
      = Ideal.logistic (gate x3 x4 x5 x6 (fun k => x1 (ix2 p k)) (fun k => x0 (ix2 p k)) q) := by
  unfold k1_pay5 k1_pay3 k1_pay2
  dsimp only
  simp only [shapeCast_self]
  exact congrArg Ideal.logistic
    (gate_apply dot_S2000x20_S20x20_S2000x20_1_0_0_1_n_n rfl rfl rfl rfl rfl rfl (some .fp32) x1 x0 x3 x5 x4 x6
      broadcasts_S1x20_S2000x20 p q)

/-- The reset gate's pre-activation short of its last bias, at `(p, q)`. -/
theorem rpart_apply (x0 x1 : Vec Ideal S2000x20 .f32) (x7 : Vec Ideal S20x20 .f32) (x8 : Vec Ideal S1x20 .f32)
    (x9 : Vec Ideal S20x20 .f32) (x10 : Vec Ideal S1x20 .f32) (p : Fin 2000) (q : Fin 20) :
    addf (k1_pay6 (F := Ideal) x0 x1 x7 x8 x9) (broadcastTo S2000x20 x10 broadcasts_S1x20_S2000x20) (ix2 p q)
      = gate x7 x8 x9 x10 (fun k => x1 (ix2 p k)) (fun k => x0 (ix2 p k)) q := by
  unfold k1_pay6 k1_pay3 k1_pay2
  dsimp only
  simp only [shapeCast_self]
  exact gate_apply dot_S2000x20_S20x20_S2000x20_1_0_0_1_n_n rfl rfl rfl rfl rfl rfl (some .fp32) x1 x0 x7 x9 x8 x10
    broadcasts_S1x20_S2000x20 p q

/-- The reset state `r ⊙ h` of row `p`, as the candidate's matrix product reads it. -/
theorem reset_apply (x0 x1 : Vec Ideal S2000x20 .f32) (x7 : Vec Ideal S20x20 .f32) (x8 : Vec Ideal S1x20 .f32)
    (x9 : Vec Ideal S20x20 .f32) (x10 : Vec Ideal S1x20 .f32) (p : Fin 2000) (k : Fin 20) :
    mulf (logistic (addf (k1_pay6 (F := Ideal) x0 x1 x7 x8 x9) (broadcastTo S2000x20 x10 broadcasts_S1x20_S2000x20))) x0 (ix2 p k)
      = Ideal.logistic (gate x7 x8 x9 x10 (fun k => x1 (ix2 p k)) (fun k => x0 (ix2 p k)) k) * x0 (ix2 p k) := by
  show Ideal.logistic (addf (k1_pay6 (F := Ideal) x0 x1 x7 x8 x9) (broadcastTo S2000x20 x10 broadcasts_S1x20_S2000x20) (ix2 p k)) * x0 (ix2 p k) = _
  rw [rpart_apply x0 x1 x7 x8 x9 x10 p k]

/-- THE STORED VALUE at `(p, q)` is the node update of row `p`. -/
theorem out_apply (x0 x1 : Vec Ideal S2000x20 .f32) (x2 : Vec Ideal S2000x1 .f32) (x3 : Vec Ideal S20x20 .f32)
    (x4 : Vec Ideal S1x20 .f32) (x5 : Vec Ideal S20x20 .f32) (x6 : Vec Ideal S1x20 .f32) (x7 : Vec Ideal S20x20 .f32)
    (x8 : Vec Ideal S1x20 .f32) (x9 : Vec Ideal S20x20 .f32) (x10 : Vec Ideal S1x20 .f32) (x11 : Vec Ideal S20x20 .f32)
    (x12 : Vec Ideal S1x20 .f32) (x13 : Vec Ideal S20x20 .f32) (x14 : Vec Ideal S1x20 .f32) (p : Fin 2000) (q : Fin 20) :
    out1_15 (F := Ideal) x0 x1 x2 x3 x4 x5 x6 x7 x8 x9 x10 x11 x12 x13 x14 (ix2 p q)
      = stepRow 1 ⟨x3, x4, x5, x6, x7, x8, x9, x10, x11, x12, x13, x14⟩
          (fun k => x0 (ix2 p k)) (fun k => x1 (ix2 p k)) (x2 (ix2 p (0 : Fin 1))) q := by
  unfold out1_15
  rw [View.canon_unit_zero hz]
  simp only [View.ld_unit_zero (S := S2000x20) hz, View.ld_unit_zero (S := S2000x1) hz,
    View.ld_unit_zero (S := S20x20) hz, View.ld_unit_zero (S := S1x20) hz]
  unfold k1_pay1 k1_pay3 k1_pay4 k1_pay2
  dsimp only
  simp only [shapeCast_self]
  have hR : (fun k => mulf (logistic (addf (k1_pay6 (F := Ideal) x0 x1 x7 x8 x9) (broadcastTo S2000x20 x10 broadcasts_S1x20_S2000x20))) x0 (ix2 p k))
      = resetState ⟨x3, x4, x5, x6, x7, x8, x9, x10, x11, x12, x13, x14⟩ (fun k => x0 (ix2 p k)) (fun k => x1 (ix2 p k)) :=
    funext fun k => reset_apply x0 x1 x7 x8 x9 x10 p k
  have hC := gate_apply dot_S2000x20_S20x20_S2000x20_1_0_0_1_n_n rfl rfl rfl rfl rfl rfl (some .fp32) x1
    (mulf (logistic (addf (k1_pay6 (F := Ideal) x0 x1 x7 x8 x9) (broadcastTo S2000x20 x10 broadcasts_S1x20_S2000x20))) x0)
    x11 x13 x12 x14 broadcasts_S1x20_S2000x20 p q
  rw [hR] at hC
  have hZ := zgate_apply x0 x1 x3 x4 x5 x6 p q
  have hA := column_apply x2 broadcasts_S2000x1_S2000x20 p q
  have hA' : broadcastTo S2000x20 (subf (broadcast S2000x1 (Scalar.ofBits (F := Ideal) .f32 0x3F800000#32)) x2) broadcasts_S2000x1_S2000x20 (ix2 p q)
      = Ideal.ofBits .f32 0x3F800000#32 - x2 (ix2 p (0 : Fin 1)) :=
    column_apply (subf (broadcast S2000x1 (Scalar.ofBits (F := Ideal) .f32 0x3F800000#32)) x2) broadcasts_S2000x1_S2000x20 p q
  show broadcastTo S2000x20 x2 broadcasts_S2000x1_S2000x20 (ix2 p q)
      * (k1_pay5 (F := Ideal) x0 x1 x3 x4 x5 x6 (ix2 p q) * x0 (ix2 p q)
        + (Ideal.ofBits .f32 0x3F800000#32 - k1_pay5 (F := Ideal) x0 x1 x3 x4 x5 x6 (ix2 p q))
          * Ideal.tanh (addf (addf (addf (matmul dot_S2000x20_S20x20_S2000x20_1_0_0_1_n_n (some .fp32) x1 x11 (constant S2000x20 .f32 0x00000000#32)) (broadcastTo S2000x20 x12 broadcasts_S1x20_S2000x20))
              (matmul dot_S2000x20_S20x20_S2000x20_1_0_0_1_n_n (some .fp32) (mulf (logistic (addf (k1_pay6 (F := Ideal) x0 x1 x7 x8 x9) (broadcastTo S2000x20 x10 broadcasts_S1x20_S2000x20))) x0) x13 (constant S2000x20 .f32 0x00000000#32)))
              (broadcastTo S2000x20 x14 broadcasts_S1x20_S2000x20) (ix2 p q)))
      + broadcastTo S2000x20 (subf (broadcast S2000x1 (Scalar.ofBits (F := Ideal) .f32 0x3F800000#32)) x2) broadcasts_S2000x1_S2000x20 (ix2 p q)
        * x0 (ix2 p q) * Ideal.ofBits .f32 0x3F800000#32
    = _
  rw [hC, hZ, hA, hA', Ideal.ofBits_one_f32]
  rfl

end Cert.KernelIdeal.Body1

end
-- ==== Proof.Region1.lean ====
/-
  From the blocks one launch writes back to the array it leaves: the second node update of all 200000 nodes.

  The launch runs the body at 100 grid points. Point `t` stages rows `2000 t … 2000 t + 1999` of the states, of the
  messages and of the activity column, the twelve parameter arrays whole, and writes back rows `2000 t …` of the
  output. What it writes back is the node update (`Cert.Gru.stepArr`) of the region's entry arrays restricted to those
  rows, because a node's update reads only its own row; the 100 row ranges cover the array, so after the last
  write-back the output array IS the update of the entry arrays. Stated for any entry contents `V`.
-/
import proofs.«162891_j90013924590102_1_alg».proof.Proof.Body1

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gru

variable (V : (c : Dev nD) → (b : Ref sig .tc) → Buf (Elt Ideal) ((c : Thread nD τ).loc b))

/-- The parameter arrays as the region finds them. -/
def params (c : Dev nD) : Params :=
  ⟨V c main_v0, V c main_v6, V c main_v1, V c main_v7, V c main_v2, V c main_v8, V c main_v3, V c main_v9, V c main_v4, V c main_v10, V c main_v5, V c main_v11⟩

/-- The update of the entry arrays: what the output array ends holding. -/
def G (c : Dev nD) : SH.Idx → EReal :=
  stepArr 1 (params V c) (V c main_v39) (V c main_v66) (V c main_v45)

/-- The printed index maps, decided over the grid: the row blocks move with the point, on the first axis only. -/
theorem row_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_15.index t (0 : Fin 2) = t.val ∧ win1_15.index t (1 : Fin 2) = 0 :=
  (by decide +kernel : ∀ t : Fin grid1.N, _)

/-! ## A parameter window never moves, so its block is its whole array -/

theorem fix3 : ∀ t : Fin cfg1.N, win1_3.index t (0 : Fin 2) = 0 ∧ win1_3.index t (1 : Fin 2) = 0 :=
  (by decide +kernel : ∀ t : Fin grid1.N, _)
theorem blk3 (c : Dev nD) (t : Fin cfg1.N) : iblk1 V c 3 t = V c main_v0 := by
  funext y
  show V c main_v0 (((cfg1.win 3).blk t).view.emb y) = V c main_v0 y
  refine congrArg _ (funext fun a => Fin.ext ?_)
  obtain ⟨f0, f1⟩ := fix3 t
  match a with
  | ⟨0, _⟩ => show win1_3.index t (0 : Fin 2) * 20 + 1 * (y 0).val = (y 0).val; omega
  | ⟨1, _⟩ => show win1_3.index t (1 : Fin 2) * 20 + 1 * (y 1).val = (y 1).val; omega

theorem fix4 : ∀ t : Fin cfg1.N, win1_4.index t (0 : Fin 2) = 0 ∧ win1_4.index t (1 : Fin 2) = 0 :=
  (by decide +kernel : ∀ t : Fin grid1.N, _)
theorem blk4 (c : Dev nD) (t : Fin cfg1.N) : iblk1 V c 4 t = V c main_v6 := by
  funext y
  show V c main_v6 (((cfg1.win 4).blk t).view.emb y) = V c main_v6 y
  refine congrArg _ (funext fun a => Fin.ext ?_)
  obtain ⟨f0, f1⟩ := fix4 t
  match a with
  | ⟨0, _⟩ => show win1_4.index t (0 : Fin 2) * 1 + 1 * (y 0).val = (y 0).val; omega
  | ⟨1, _⟩ => show win1_4.index t (1 : Fin 2) * 20 + 1 * (y 1).val = (y 1).val; omega

theorem fix5 : ∀ t : Fin cfg1.N, win1_5.index t (0 : Fin 2) = 0 ∧ win1_5.index t (1 : Fin 2) = 0 :=
  (by decide +kernel : ∀ t : Fin grid1.N, _)
theorem blk5 (c : Dev nD) (t : Fin cfg1.N) : iblk1 V c 5 t = V c main_v1 := by
  funext y
  show V c main_v1 (((cfg1.win 5).blk t).view.emb y) = V c main_v1 y
  refine congrArg _ (funext fun a => Fin.ext ?_)
  obtain ⟨f0, f1⟩ := fix5 t
  match a with
  | ⟨0, _⟩ => show win1_5.index t (0 : Fin 2) * 20 + 1 * (y 0).val = (y 0).val; omega
  | ⟨1, _⟩ => show win1_5.index t (1 : Fin 2) * 20 + 1 * (y 1).val = (y 1).val; omega

theorem fix6 : ∀ t : Fin cfg1.N, win1_6.index t (0 : Fin 2) = 0 ∧ win1_6.index t (1 : Fin 2) = 0 :=
  (by decide +kernel : ∀ t : Fin grid1.N, _)
theorem blk6 (c : Dev nD) (t : Fin cfg1.N) : iblk1 V c 6 t = V c main_v7 := by
  funext y
  show V c main_v7 (((cfg1.win 6).blk t).view.emb y) = V c main_v7 y
  refine congrArg _ (funext fun a => Fin.ext ?_)
  obtain ⟨f0, f1⟩ := fix6 t
  match a with
  | ⟨0, _⟩ => show win1_6.index t (0 : Fin 2) * 1 + 1 * (y 0).val = (y 0).val; omega
  | ⟨1, _⟩ => show win1_6.index t (1 : Fin 2) * 20 + 1 * (y 1).val = (y 1).val; omega

theorem fix7 : ∀ t : Fin cfg1.N, win1_7.index t (0 : Fin 2) = 0 ∧ win1_7.index t (1 : Fin 2) = 0 :=
  (by decide +kernel : ∀ t : Fin grid1.N, _)
theorem blk7 (c : Dev nD) (t : Fin cfg1.N) : iblk1 V c 7 t = V c main_v2 := by
  funext y
  show V c main_v2 (((cfg1.win 7).blk t).view.emb y) = V c main_v2 y
  refine congrArg _ (funext fun a => Fin.ext ?_)
  obtain ⟨f0, f1⟩ := fix7 t
  match a with
  | ⟨0, _⟩ => show win1_7.index t (0 : Fin 2) * 20 + 1 * (y 0).val = (y 0).val; omega
  | ⟨1, _⟩ => show win1_7.index t (1 : Fin 2) * 20 + 1 * (y 1).val = (y 1).val; omega

theorem fix8 : ∀ t : Fin cfg1.N, win1_8.index t (0 : Fin 2) = 0 ∧ win1_8.index t (1 : Fin 2) = 0 :=
  (by decide +kernel : ∀ t : Fin grid1.N, _)
theorem blk8 (c : Dev nD) (t : Fin cfg1.N) : iblk1 V c 8 t = V c main_v8 := by
  funext y
  show V c main_v8 (((cfg1.win 8).blk t).view.emb y) = V c main_v8 y
  refine congrArg _ (funext fun a => Fin.ext ?_)
  obtain ⟨f0, f1⟩ := fix8 t
  match a with
  | ⟨0, _⟩ => show win1_8.index t (0 : Fin 2) * 1 + 1 * (y 0).val = (y 0).val; omega
  | ⟨1, _⟩ => show win1_8.index t (1 : Fin 2) * 20 + 1 * (y 1).val = (y 1).val; omega

theorem fix9 : ∀ t : Fin cfg1.N, win1_9.index t (0 : Fin 2) = 0 ∧ win1_9.index t (1 : Fin 2) = 0 :=
  (by decide +kernel : ∀ t : Fin grid1.N, _)
theorem blk9 (c : Dev nD) (t : Fin cfg1.N) : iblk1 V c 9 t = V c main_v3 := by
  funext y
  show V c main_v3 (((cfg1.win 9).blk t).view.emb y) = V c main_v3 y
  refine congrArg _ (funext fun a => Fin.ext ?_)
  obtain ⟨f0, f1⟩ := fix9 t
  match a with
  | ⟨0, _⟩ => show win1_9.index t (0 : Fin 2) * 20 + 1 * (y 0).val = (y 0).val; omega
  | ⟨1, _⟩ => show win1_9.index t (1 : Fin 2) * 20 + 1 * (y 1).val = (y 1).val; omega

theorem fix10 : ∀ t : Fin cfg1.N, win1_10.index t (0 : Fin 2) = 0 ∧ win1_10.index t (1 : Fin 2) = 0 :=
  (by decide +kernel : ∀ t : Fin grid1.N, _)
theorem blk10 (c : Dev nD) (t : Fin cfg1.N) : iblk1 V c 10 t = V c main_v9 := by
  funext y
  show V c main_v9 (((cfg1.win 10).blk t).view.emb y) = V c main_v9 y
  refine congrArg _ (funext fun a => Fin.ext ?_)
  obtain ⟨f0, f1⟩ := fix10 t
  match a with
  | ⟨0, _⟩ => show win1_10.index t (0 : Fin 2) * 1 + 1 * (y 0).val = (y 0).val; omega
  | ⟨1, _⟩ => show win1_10.index t (1 : Fin 2) * 20 + 1 * (y 1).val = (y 1).val; omega

theorem fix11 : ∀ t : Fin cfg1.N, win1_11.index t (0 : Fin 2) = 0 ∧ win1_11.index t (1 : Fin 2) = 0 :=
  (by decide +kernel : ∀ t : Fin grid1.N, _)
theorem blk11 (c : Dev nD) (t : Fin cfg1.N) : iblk1 V c 11 t = V c main_v4 := by
  funext y
  show V c main_v4 (((cfg1.win 11).blk t).view.emb y) = V c main_v4 y
  refine congrArg _ (funext fun a => Fin.ext ?_)
  obtain ⟨f0, f1⟩ := fix11 t
  match a with
  | ⟨0, _⟩ => show win1_11.index t (0 : Fin 2) * 20 + 1 * (y 0).val = (y 0).val; omega
  | ⟨1, _⟩ => show win1_11.index t (1 : Fin 2) * 20 + 1 * (y 1).val = (y 1).val; omega

theorem fix12 : ∀ t : Fin cfg1.N, win1_12.index t (0 : Fin 2) = 0 ∧ win1_12.index t (1 : Fin 2) = 0 :=
  (by decide +kernel : ∀ t : Fin grid1.N, _)
theorem blk12 (c : Dev nD) (t : Fin cfg1.N) : iblk1 V c 12 t = V c main_v10 := by
  funext y
  show V c main_v10 (((cfg1.win 12).blk t).view.emb y) = V c main_v10 y
  refine congrArg _ (funext fun a => Fin.ext ?_)
  obtain ⟨f0, f1⟩ := fix12 t
  match a with
  | ⟨0, _⟩ => show win1_12.index t (0 : Fin 2) * 1 + 1 * (y 0).val = (y 0).val; omega
  | ⟨1, _⟩ => show win1_12.index t (1 : Fin 2) * 20 + 1 * (y 1).val = (y 1).val; omega

theorem fix13 : ∀ t : Fin cfg1.N, win1_13.index t (0 : Fin 2) = 0 ∧ win1_13.index t (1 : Fin 2) = 0 :=
  (by decide +kernel : ∀ t : Fin grid1.N, _)
theorem blk13 (c : Dev nD) (t : Fin cfg1.N) : iblk1 V c 13 t = V c main_v5 := by
  funext y
  show V c main_v5 (((cfg1.win 13).blk t).view.emb y) = V c main_v5 y
  refine congrArg _ (funext fun a => Fin.ext ?_)
  obtain ⟨f0, f1⟩ := fix13 t
  match a with
  | ⟨0, _⟩ => show win1_13.index t (0 : Fin 2) * 20 + 1 * (y 0).val = (y 0).val; omega
  | ⟨1, _⟩ => show win1_13.index t (1 : Fin 2) * 20 + 1 * (y 1).val = (y 1).val; omega

theorem fix14 : ∀ t : Fin cfg1.N, win1_14.index t (0 : Fin 2) = 0 ∧ win1_14.index t (1 : Fin 2) = 0 :=
  (by decide +kernel : ∀ t : Fin grid1.N, _)
theorem blk14 (c : Dev nD) (t : Fin cfg1.N) : iblk1 V c 14 t = V c main_v11 := by
  funext y
  show V c main_v11 (((cfg1.win 14).blk t).view.emb y) = V c main_v11 y
  refine congrArg _ (funext fun a => Fin.ext ?_)
  obtain ⟨f0, f1⟩ := fix14 t
  match a with
  | ⟨0, _⟩ => show win1_14.index t (0 : Fin 2) * 1 + 1 * (y 0).val = (y 0).val; omega
  | ⟨1, _⟩ => show win1_14.index t (1 : Fin 2) * 20 + 1 * (y 1).val = (y 1).val; omega

/-! ## What a point writes back -/

/-- The body's stored value at any index of the block, by its two coordinates. -/
theorem out_at (x0 x1 : Vec Ideal S2000x20 .f32) (x2 : Vec Ideal S2000x1 .f32) (x3 : Vec Ideal S20x20 .f32)
    (x4 : Vec Ideal S1x20 .f32) (x5 : Vec Ideal S20x20 .f32) (x6 : Vec Ideal S1x20 .f32) (x7 : Vec Ideal S20x20 .f32)
    (x8 : Vec Ideal S1x20 .f32) (x9 : Vec Ideal S20x20 .f32) (x10 : Vec Ideal S1x20 .f32) (x11 : Vec Ideal S20x20 .f32)
    (x12 : Vec Ideal S1x20 .f32) (x13 : Vec Ideal S20x20 .f32) (x14 : Vec Ideal S1x20 .f32) (y : S2000x20.Idx) :
    out1_15 (F := Ideal) x0 x1 x2 x3 x4 x5 x6 x7 x8 x9 x10 x11 x12 x13 x14 y
      = stepRow 1 ⟨x3, x4, x5, x6, x7, x8, x9, x10, x11, x12, x13, x14⟩
          (fun k => x0 (ix2 (⟨(y 0).val, (y 0).isLt⟩ : Fin 2000) k)) (fun k => x1 (ix2 (⟨(y 0).val, (y 0).isLt⟩ : Fin 2000) k))
          (x2 (ix2 (⟨(y 0).val, (y 0).isLt⟩ : Fin 2000) (0 : Fin 1))) ⟨(y 1).val, (y 1).isLt⟩ := by
  have e : y = ix2 (⟨(y 0).val, (y 0).isLt⟩ : Fin 2000) (⟨(y 1).val, (y 1).isLt⟩ : Fin 20) := eq_ix2 y
  conv_lhs => rw [e]
  exact Body1.out_apply x0 x1 x2 x3 x4 x5 x6 x7 x8 x9 x10 x11 x12 x13 x14 _ _

/-- WHAT POINT `t` WRITES BACK is block `t` of the update of the entry arrays. -/
theorem flushed_eq (c : Dev nD) (t : Fin cfg1.N) :
    (dat1 V c).flushed 15 t = ((cfg1.win 15).blk t).view.read (Elt Ideal) (G V c) := by
  show (cfg1.win 15).cut (grid1.coords t) ((dat1 V c).after 15 t) = _
  rw [after1_15]
  rw [blk3 V c t, blk4 V c t, blk5 V c t, blk6 V c t, blk7 V c t, blk8 V c t, blk9 V c t, blk10 V c t, blk11 V c t,
    blk12 V c t, blk13 V c t, blk14 V c t]
  obtain ⟨a0, a1, b0, b1, c0, c1, o0, o1⟩ := row_facts t
  funext j
  refine (out_at (iblk1 V c 0 t) (iblk1 V c 1 t) (iblk1 V c 2 t) (V c main_v0) (V c main_v6) (V c main_v1) (V c main_v7)
    (V c main_v2) (V c main_v8) (V c main_v3) (V c main_v9) (V c main_v4) (V c main_v10) (V c main_v5) (V c main_v11) j).trans ?_
  refine stepArr_at 1 (params V c) (V c main_v39) (V c main_v66) (V c main_v45) (((cfg1.win 15).blk t).view.emb j) _ _ _ _
    (fun k => ?_) (fun k => ?_) ?_ ?_
  · show V c main_v39 (((cfg1.win 0).blk t).view.emb (ix2 (⟨(j 0).val, (j 0).isLt⟩ : Fin 2000) k)) = _
    refine congrArg _ (funext fun a => Fin.ext ?_)
    match a with
    | ⟨0, _⟩ => show win1_0.index t (0 : Fin 2) * 2000 + 1 * (j 0).val = win1_15.index t (0 : Fin 2) * 2000 + 1 * (j 0).val; omega
    | ⟨1, _⟩ => show win1_0.index t (1 : Fin 2) * 20 + 1 * k.val = k.val; omega
  · show V c main_v66 (((cfg1.win 1).blk t).view.emb (ix2 (⟨(j 0).val, (j 0).isLt⟩ : Fin 2000) k)) = _
    refine congrArg _ (funext fun a => Fin.ext ?_)
    match a with
    | ⟨0, _⟩ => show win1_1.index t (0 : Fin 2) * 2000 + 1 * (j 0).val = win1_15.index t (0 : Fin 2) * 2000 + 1 * (j 0).val; omega
    | ⟨1, _⟩ => show win1_1.index t (1 : Fin 2) * 20 + 1 * k.val = k.val; omega
  · show V c main_v45 (((cfg1.win 2).blk t).view.emb (ix2 (⟨(j 0).val, (j 0).isLt⟩ : Fin 2000) (0 : Fin 1))) = _
    refine congrArg _ (funext fun a => Fin.ext ?_)
    match a with
    | ⟨0, _⟩ => show win1_2.index t (0 : Fin 2) * 2000 + 1 * (j 0).val = win1_15.index t (0 : Fin 2) * 2000 + 1 * (j 0).val; omega
    | ⟨1, _⟩ => show win1_2.index t (1 : Fin 2) * 1 + 1 * 0 = 0; omega
  · show (j 1).val = win1_15.index t (1 : Fin 2) * 20 + 1 * (j 1).val; omega

/-! ## The blocks cover the array -/

/-- An index of the array is in point `t`'s block iff each coordinate is in the block's range on its axis. -/
theorem mem_blk (t : Fin cfg1.N) (i : S200000x20.Idx) :
    i ∈ ((cfg1.win 15).blk t).view.set ↔ ∀ a : Fin 2, win1_15.index t a * S2000x20.size a ≤ (i a).val
      ∧ (i a).val < win1_15.index t a * S2000x20.size a + S2000x20.size a := by
  show i ∈ ((View.whole main_v67).slice (win1_15.rect t)).set ↔ _
  rw [View.set_slice_whole, Rect.mem_set_unit]
  exact Iff.rfl

/-- Node `n`'s row lies in the block of point `n / 2000`. -/
theorem cover (i : S200000x20.Idx) :
    ∃ t : Fin cfg1.N, (cfg1.win 15).flush t = true ∧ i ∈ ((cfg1.win 15).blk t).view.set := by
  have hi0 : (i 0).val < 200000 := (i 0).isLt
  have hi1 : (i 1).val < 20 := (i 1).isLt
  have hN : (i 0).val / 2000 < cfg1.N := lt_of_lt_of_eq (by omega : (i 0).val / 2000 < 100) N_1.symm
  refine ⟨⟨(i 0).val / 2000, hN⟩, flush1_15 _, ?_⟩
  rw [mem_blk]
  obtain ⟨-, -, -, -, -, -, o0, o1⟩ := row_facts ⟨(i 0).val / 2000, hN⟩
  intro a
  match a with
  | ⟨0, _⟩ =>
    show win1_15.index ⟨(i 0).val / 2000, hN⟩ (0 : Fin 2) * 2000 ≤ (i 0).val
      ∧ (i 0).val < win1_15.index ⟨(i 0).val / 2000, hN⟩ (0 : Fin 2) * 2000 + 2000
    rw [o0]; show (i 0).val / 2000 * 2000 ≤ (i 0).val ∧ (i 0).val < (i 0).val / 2000 * 2000 + 2000; omega
  | ⟨1, _⟩ =>
    show win1_15.index ⟨(i 0).val / 2000, hN⟩ (1 : Fin 2) * 20 ≤ (i 1).val
      ∧ (i 1).val < win1_15.index ⟨(i 0).val / 2000, hN⟩ (1 : Fin 2) * 20 + 20
    rw [o1]; omega

/-- THE OUTPUT ARRAY after the launch is the update of the entry arrays. -/
theorem final (c : Dev nD) : (dat1 V c).arrAt 15 cfg1.N = G V c :=
  (dat1 V c).arrAt_eq_of_cover 15 (G V c) (fun t _ => flushed_eq V c t) cover

end Cert.KernelIdeal.Region1

end
-- ==== Proof.Body0.lean ====
/-
  What one grid point of the first update leaves in its output block, read at a coordinate.

  The body loads a block `x0` of 2000 state rows, the matching block `x1` of message rows and `x2` of the activity
  column, and the twelve parameter arrays `x3 … x14` whole; it stores ONE value through the whole output block. Read
  at row `p`, column `q` that value is the node update `Cert.Gru.stepRow` of row `p` of the two blocks and entry `p` of
  the column, with the old state of an inactive node scaled by 1: the update and reset gates are the
  logistic of their pre-activations (`Cert.Body.gate_apply`), the candidate the hyperbolic tangent of its own with the
  reset state `r ⊙ h` as the state operand, and the rest is pointwise.
-/
import proofs.«162891_j90013924590102_1_alg».proof.Proof.BodyLemmas
import proofs.«162891_j90013924590102_1_alg».proof.Proof.Gen.KernelIdeal.Frame

set_option maxRecDepth 16384

noncomputable section

open scoped BigOperators

namespace Cert.KernelIdeal.Body0

open Idealize.ShloMosaic Idealize.ShloMosaic.ValueIdx Cert.KernelIdeal Cert.KernelIdeal.Gen Cert.Gru Cert.Body

theorem hz : (![0, 0] : Fin 2 → Nat) = fun _ => 0 := funext fun a => by fin_cases a <;> rfl

/-- The update gate of the block at `(p, q)`. -/
theorem zgate_apply (x0 x1 : Vec Ideal S2000x20 .f32) (x3 : Vec Ideal S20x20 .f32) (x4 : Vec Ideal S1x20 .f32)
    (x5 : Vec Ideal S20x20 .f32) (x6 : Vec Ideal S1x20 .f32) (p : Fin 2000) (q : Fin 20) :
    k0_pay4 (F := Ideal) x0 x1 x3 x4 x5 x6 (ix2 p q)
      = Ideal.logistic (gate x3 x4 x5 x6 (fun k => x1 (ix2 p k)) (fun k => x0 (ix2 p k)) q) := by
  unfold k0_pay4 k0_pay2
  dsimp only
  simp only [shapeCast_self]
  exact congrArg Ideal.logistic
    (gate_apply dot_S2000x20_S20x20_S2000x20_1_0_0_1_n_n rfl rfl rfl rfl rfl rfl (some .fp32) x1 x0 x3 x5 x4 x6
      broadcasts_S1x20_S2000x20 p q)

/-- The reset gate's pre-activation short of its last bias, at `(p, q)`. -/
theorem rpart_apply (x0 x1 : Vec Ideal S2000x20 .f32) (x7 : Vec Ideal S20x20 .f32) (x8 : Vec Ideal S1x20 .f32)
    (x9 : Vec Ideal S20x20 .f32) (x10 : Vec Ideal S1x20 .f32) (p : Fin 2000) (q : Fin 20) :
    addf (k0_pay5 (F := Ideal) x0 x1 x7 x8 x9) (broadcastTo S2000x20 x10 broadcasts_S1x20_S2000x20) (ix2 p q)
      = gate x7 x8 x9 x10 (fun k => x1 (ix2 p k)) (fun k => x0 (ix2 p k)) q := by
  unfold k0_pay5 k0_pay2
  dsimp only
  simp only [shapeCast_self]
  exact gate_apply dot_S2000x20_S20x20_S2000x20_1_0_0_1_n_n rfl rfl rfl rfl rfl rfl (some .fp32) x1 x0 x7 x9 x8 x10
    broadcasts_S1x20_S2000x20 p q

/-- The reset state `r ⊙ h` of row `p`, as the candidate's matrix product reads it. -/
theorem reset_apply (x0 x1 : Vec Ideal S2000x20 .f32) (x7 : Vec Ideal S20x20 .f32) (x8 : Vec Ideal S1x20 .f32)
    (x9 : Vec Ideal S20x20 .f32) (x10 : Vec Ideal S1x20 .f32) (p : Fin 2000) (k : Fin 20) :
    mulf (logistic (addf (k0_pay5 (F := Ideal) x0 x1 x7 x8 x9) (broadcastTo S2000x20 x10 broadcasts_S1x20_S2000x20))) x0 (ix2 p k)
      = Ideal.logistic (gate x7 x8 x9 x10 (fun k => x1 (ix2 p k)) (fun k => x0 (ix2 p k)) k) * x0 (ix2 p k) := by
  show Ideal.logistic (addf (k0_pay5 (F := Ideal) x0 x1 x7 x8 x9) (broadcastTo S2000x20 x10 broadcasts_S1x20_S2000x20) (ix2 p k)) * x0 (ix2 p k) = _
  rw [rpart_apply x0 x1 x7 x8 x9 x10 p k]

/-- THE STORED VALUE at `(p, q)` is the node update of row `p`. -/
theorem out_apply (x0 x1 : Vec Ideal S2000x20 .f32) (x2 : Vec Ideal S2000x1 .f32) (x3 : Vec Ideal S20x20 .f32)
    (x4 : Vec Ideal S1x20 .f32) (x5 : Vec Ideal S20x20 .f32) (x6 : Vec Ideal S1x20 .f32) (x7 : Vec Ideal S20x20 .f32)
    (x8 : Vec Ideal S1x20 .f32) (x9 : Vec Ideal S20x20 .f32) (x10 : Vec Ideal S1x20 .f32) (x11 : Vec Ideal S20x20 .f32)
    (x12 : Vec Ideal S1x20 .f32) (x13 : Vec Ideal S20x20 .f32) (x14 : Vec Ideal S1x20 .f32) (p : Fin 2000) (q : Fin 20) :
    out0_15 (F := Ideal) x0 x1 x2 x3 x4 x5 x6 x7 x8 x9 x10 x11 x12 x13 x14 (ix2 p q)
      = stepRow 1 ⟨x3, x4, x5, x6, x7, x8, x9, x10, x11, x12, x13, x14⟩
          (fun k => x0 (ix2 p k)) (fun k => x1 (ix2 p k)) (x2 (ix2 p (0 : Fin 1))) q := by
  unfold out0_15
  rw [View.canon_unit_zero hz]
  simp only [View.ld_unit_zero (S := S2000x20) hz, View.ld_unit_zero (S := S2000x1) hz,
    View.ld_unit_zero (S := S20x20) hz, View.ld_unit_zero (S := S1x20) hz]
  unfold k0_pay1 k0_pay2 k0_pay3
  dsimp only
  simp only [shapeCast_self]
  have hR : (fun k => mulf (logistic (addf (k0_pay5 (F := Ideal) x0 x1 x7 x8 x9) (broadcastTo S2000x20 x10 broadcasts_S1x20_S2000x20))) x0 (ix2 p k))
      = resetState ⟨x3, x4, x5, x6, x7, x8, x9, x10, x11, x12, x13, x14⟩ (fun k => x0 (ix2 p k)) (fun k => x1 (ix2 p k)) :=
    funext fun k => reset_apply x0 x1 x7 x8 x9 x10 p k
  have hC := gate_apply dot_S2000x20_S20x20_S2000x20_1_0_0_1_n_n rfl rfl rfl rfl rfl rfl (some .fp32) x1
    (mulf (logistic (addf (k0_pay5 (F := Ideal) x0 x1 x7 x8 x9) (broadcastTo S2000x20 x10 broadcasts_S1x20_S2000x20))) x0)
    x11 x13 x12 x14 broadcasts_S1x20_S2000x20 p q
  rw [hR] at hC
  have hZ := zgate_apply x0 x1 x3 x4 x5 x6 p q
  have hA := column_apply x2 broadcasts_S2000x1_S2000x20 p q
  have hA' : broadcastTo S2000x20 (subf (broadcast S2000x1 (Scalar.ofBits (F := Ideal) .f32 0x3F800000#32)) x2) broadcasts_S2000x1_S2000x20 (ix2 p q)
      = Ideal.ofBits .f32 0x3F800000#32 - x2 (ix2 p (0 : Fin 1)) :=
    column_apply (subf (broadcast S2000x1 (Scalar.ofBits (F := Ideal) .f32 0x3F800000#32)) x2) broadcasts_S2000x1_S2000x20 p q
  show broadcastTo S2000x20 x2 broadcasts_S2000x1_S2000x20 (ix2 p q)
      * (k0_pay4 (F := Ideal) x0 x1 x3 x4 x5 x6 (ix2 p q) * x0 (ix2 p q)
        + (Ideal.ofBits .f32 0x3F800000#32 - k0_pay4 (F := Ideal) x0 x1 x3 x4 x5 x6 (ix2 p q))
          * Ideal.tanh (addf (addf (addf (matmul dot_S2000x20_S20x20_S2000x20_1_0_0_1_n_n (some .fp32) x1 x11 (constant S2000x20 .f32 0x00000000#32)) (broadcastTo S2000x20 x12 broadcasts_S1x20_S2000x20))
              (matmul dot_S2000x20_S20x20_S2000x20_1_0_0_1_n_n (some .fp32) (mulf (logistic (addf (k0_pay5 (F := Ideal) x0 x1 x7 x8 x9) (broadcastTo S2000x20 x10 broadcasts_S1x20_S2000x20))) x0) x13 (constant S2000x20 .f32 0x00000000#32)))
              (broadcastTo S2000x20 x14 broadcasts_S1x20_S2000x20) (ix2 p q)))
      + broadcastTo S2000x20 (subf (broadcast S2000x1 (Scalar.ofBits (F := Ideal) .f32 0x3F800000#32)) x2) broadcasts_S2000x1_S2000x20 (ix2 p q)
        * x0 (ix2 p q) * Ideal.ofBits .f32 0x3F800000#32
    = _
  rw [hC, hZ, hA, hA', Ideal.ofBits_one_f32]
  rfl

end Cert.KernelIdeal.Body0

end
-- ==== Proof.Region0.lean ====
/-
  From the blocks one launch writes back to the array it leaves: the first node update of all 200000 nodes.

  The launch runs the body at 100 grid points. Point `t` stages rows `2000 t … 2000 t + 1999` of the states, of the
  messages and of the activity column, the twelve parameter arrays whole, and writes back rows `2000 t …` of the
  output. What it writes back is the node update (`Cert.Gru.stepArr`) of the region's entry arrays restricted to those
  rows, because a node's update reads only its own row; the 100 row ranges cover the array, so after the last
  write-back the output array IS the update of the entry arrays. Stated for any entry contents `V`.
-/
import proofs.«162891_j90013924590102_1_alg».proof.Proof.Body0

set_option maxRecDepth 16384

noncomputable section

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gru

variable (V : (c : Dev nD) → (b : Ref sig .tc) → Buf (Elt Ideal) ((c : Thread nD τ).loc b))

/-- The parameter arrays as the region finds them. -/
def params (c : Dev nD) : Params :=
  ⟨V c main_v0, V c main_v6, V c main_v1, V c main_v7, V c main_v2, V c main_v8, V c main_v3, V c main_v9, V c main_v4, V c main_v10, V c main_v5, V c main_v11⟩

/-- The update of the entry arrays: what the output array ends holding. -/
def G (c : Dev nD) : SH.Idx → EReal :=
  stepArr 1 (params V c) (V c main_arg0) (V c main_v38) (V c main_v17)

/-- The printed index maps, decided over the grid: the row blocks move with the point, on the first axis only. -/
theorem row_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0 :=
  (by decide +kernel : ∀ t : Fin grid0.N, _)

/-! ## A parameter window never moves, so its block is its whole array -/

theorem fix3 : ∀ t : Fin cfg0.N, win0_3.index t (0 : Fin 2) = 0 ∧ win0_3.index t (1 : Fin 2) = 0 :=
  (by decide +kernel : ∀ t : Fin grid0.N, _)
theorem blk3 (c : Dev nD) (t : Fin cfg0.N) : iblk0 V c 3 t = V c main_v0 := by
  funext y
  show V c main_v0 (((cfg0.win 3).blk t).view.emb y) = V c main_v0 y
  refine congrArg _ (funext fun a => Fin.ext ?_)
  obtain ⟨f0, f1⟩ := fix3 t
  match a with
  | ⟨0, _⟩ => show win0_3.index t (0 : Fin 2) * 20 + 1 * (y 0).val = (y 0).val; omega
  | ⟨1, _⟩ => show win0_3.index t (1 : Fin 2) * 20 + 1 * (y 1).val = (y 1).val; omega

theorem fix4 : ∀ t : Fin cfg0.N, win0_4.index t (0 : Fin 2) = 0 ∧ win0_4.index t (1 : Fin 2) = 0 :=
  (by decide +kernel : ∀ t : Fin grid0.N, _)
theorem blk4 (c : Dev nD) (t : Fin cfg0.N) : iblk0 V c 4 t = V c main_v6 := by
  funext y
  show V c main_v6 (((cfg0.win 4).blk t).view.emb y) = V c main_v6 y
  refine congrArg _ (funext fun a => Fin.ext ?_)
  obtain ⟨f0, f1⟩ := fix4 t
  match a with
  | ⟨0, _⟩ => show win0_4.index t (0 : Fin 2) * 1 + 1 * (y 0).val = (y 0).val; omega
  | ⟨1, _⟩ => show win0_4.index t (1 : Fin 2) * 20 + 1 * (y 1).val = (y 1).val; omega

theorem fix5 : ∀ t : Fin cfg0.N, win0_5.index t (0 : Fin 2) = 0 ∧ win0_5.index t (1 : Fin 2) = 0 :=
  (by decide +kernel : ∀ t : Fin grid0.N, _)
theorem blk5 (c : Dev nD) (t : Fin cfg0.N) : iblk0 V c 5 t = V c main_v1 := by
  funext y
  show V c main_v1 (((cfg0.win 5).blk t).view.emb y) = V c main_v1 y
  refine congrArg _ (funext fun a => Fin.ext ?_)
  obtain ⟨f0, f1⟩ := fix5 t
  match a with
  | ⟨0, _⟩ => show win0_5.index t (0 : Fin 2) * 20 + 1 * (y 0).val = (y 0).val; omega
  | ⟨1, _⟩ => show win0_5.index t (1 : Fin 2) * 20 + 1 * (y 1).val = (y 1).val; omega

theorem fix6 : ∀ t : Fin cfg0.N, win0_6.index t (0 : Fin 2) = 0 ∧ win0_6.index t (1 : Fin 2) = 0 :=
  (by decide +kernel : ∀ t : Fin grid0.N, _)
theorem blk6 (c : Dev nD) (t : Fin cfg0.N) : iblk0 V c 6 t = V c main_v7 := by
  funext y
  show V c main_v7 (((cfg0.win 6).blk t).view.emb y) = V c main_v7 y
  refine congrArg _ (funext fun a => Fin.ext ?_)
  obtain ⟨f0, f1⟩ := fix6 t
  match a with
  | ⟨0, _⟩ => show win0_6.index t (0 : Fin 2) * 1 + 1 * (y 0).val = (y 0).val; omega
  | ⟨1, _⟩ => show win0_6.index t (1 : Fin 2) * 20 + 1 * (y 1).val = (y 1).val; omega

theorem fix7 : ∀ t : Fin cfg0.N, win0_7.index t (0 : Fin 2) = 0 ∧ win0_7.index t (1 : Fin 2) = 0 :=
  (by decide +kernel : ∀ t : Fin grid0.N, _)
theorem blk7 (c : Dev nD) (t : Fin cfg0.N) : iblk0 V c 7 t = V c main_v2 := by
  funext y
  show V c main_v2 (((cfg0.win 7).blk t).view.emb y) = V c main_v2 y
  refine congrArg _ (funext fun a => Fin.ext ?_)
  obtain ⟨f0, f1⟩ := fix7 t
  match a with
  | ⟨0, _⟩ => show win0_7.index t (0 : Fin 2) * 20 + 1 * (y 0).val = (y 0).val; omega
  | ⟨1, _⟩ => show win0_7.index t (1 : Fin 2) * 20 + 1 * (y 1).val = (y 1).val; omega

theorem fix8 : ∀ t : Fin cfg0.N, win0_8.index t (0 : Fin 2) = 0 ∧ win0_8.index t (1 : Fin 2) = 0 :=
  (by decide +kernel : ∀ t : Fin grid0.N, _)
theorem blk8 (c : Dev nD) (t : Fin cfg0.N) : iblk0 V c 8 t = V c main_v8 := by
  funext y
  show V c main_v8 (((cfg0.win 8).blk t).view.emb y) = V c main_v8 y
  refine congrArg _ (funext fun a => Fin.ext ?_)
  obtain ⟨f0, f1⟩ := fix8 t
  match a with
  | ⟨0, _⟩ => show win0_8.index t (0 : Fin 2) * 1 + 1 * (y 0).val = (y 0).val; omega
  | ⟨1, _⟩ => show win0_8.index t (1 : Fin 2) * 20 + 1 * (y 1).val = (y 1).val; omega

theorem fix9 : ∀ t : Fin cfg0.N, win0_9.index t (0 : Fin 2) = 0 ∧ win0_9.index t (1 : Fin 2) = 0 :=
  (by decide +kernel : ∀ t : Fin grid0.N, _)
theorem blk9 (c : Dev nD) (t : Fin cfg0.N) : iblk0 V c 9 t = V c main_v3 := by
  funext y
  show V c main_v3 (((cfg0.win 9).blk t).view.emb y) = V c main_v3 y
  refine congrArg _ (funext fun a => Fin.ext ?_)
  obtain ⟨f0, f1⟩ := fix9 t
  match a with
  | ⟨0, _⟩ => show win0_9.index t (0 : Fin 2) * 20 + 1 * (y 0).val = (y 0).val; omega
  | ⟨1, _⟩ => show win0_9.index t (1 : Fin 2) * 20 + 1 * (y 1).val = (y 1).val; omega

theorem fix10 : ∀ t : Fin cfg0.N, win0_10.index t (0 : Fin 2) = 0 ∧ win0_10.index t (1 : Fin 2) = 0 :=
  (by decide +kernel : ∀ t : Fin grid0.N, _)
theorem blk10 (c : Dev nD) (t : Fin cfg0.N) : iblk0 V c 10 t = V c main_v9 := by
  funext y
  show V c main_v9 (((cfg0.win 10).blk t).view.emb y) = V c main_v9 y
  refine congrArg _ (funext fun a => Fin.ext ?_)
  obtain ⟨f0, f1⟩ := fix10 t
  match a with
  | ⟨0, _⟩ => show win0_10.index t (0 : Fin 2) * 1 + 1 * (y 0).val = (y 0).val; omega
  | ⟨1, _⟩ => show win0_10.index t (1 : Fin 2) * 20 + 1 * (y 1).val = (y 1).val; omega

theorem fix11 : ∀ t : Fin cfg0.N, win0_11.index t (0 : Fin 2) = 0 ∧ win0_11.index t (1 : Fin 2) = 0 :=
  (by decide +kernel : ∀ t : Fin grid0.N, _)
theorem blk11 (c : Dev nD) (t : Fin cfg0.N) : iblk0 V c 11 t = V c main_v4 := by
  funext y
  show V c main_v4 (((cfg0.win 11).blk t).view.emb y) = V c main_v4 y
  refine congrArg _ (funext fun a => Fin.ext ?_)
  obtain ⟨f0, f1⟩ := fix11 t
  match a with
  | ⟨0, _⟩ => show win0_11.index t (0 : Fin 2) * 20 + 1 * (y 0).val = (y 0).val; omega
  | ⟨1, _⟩ => show win0_11.index t (1 : Fin 2) * 20 + 1 * (y 1).val = (y 1).val; omega

theorem fix12 : ∀ t : Fin cfg0.N, win0_12.index t (0 : Fin 2) = 0 ∧ win0_12.index t (1 : Fin 2) = 0 :=
  (by decide +kernel : ∀ t : Fin grid0.N, _)
theorem blk12 (c : Dev nD) (t : Fin cfg0.N) : iblk0 V c 12 t = V c main_v10 := by
  funext y
  show V c main_v10 (((cfg0.win 12).blk t).view.emb y) = V c main_v10 y
  refine congrArg _ (funext fun a => Fin.ext ?_)
  obtain ⟨f0, f1⟩ := fix12 t
  match a with
  | ⟨0, _⟩ => show win0_12.index t (0 : Fin 2) * 1 + 1 * (y 0).val = (y 0).val; omega
  | ⟨1, _⟩ => show win0_12.index t (1 : Fin 2) * 20 + 1 * (y 1).val = (y 1).val; omega

theorem fix13 : ∀ t : Fin cfg0.N, win0_13.index t (0 : Fin 2) = 0 ∧ win0_13.index t (1 : Fin 2) = 0 :=
  (by decide +kernel : ∀ t : Fin grid0.N, _)
theorem blk13 (c : Dev nD) (t : Fin cfg0.N) : iblk0 V c 13 t = V c main_v5 := by
  funext y
  show V c main_v5 (((cfg0.win 13).blk t).view.emb y) = V c main_v5 y
  refine congrArg _ (funext fun a => Fin.ext ?_)
  obtain ⟨f0, f1⟩ := fix13 t
  match a with
  | ⟨0, _⟩ => show win0_13.index t (0 : Fin 2) * 20 + 1 * (y 0).val = (y 0).val; omega
  | ⟨1, _⟩ => show win0_13.index t (1 : Fin 2) * 20 + 1 * (y 1).val = (y 1).val; omega

theorem fix14 : ∀ t : Fin cfg0.N, win0_14.index t (0 : Fin 2) = 0 ∧ win0_14.index t (1 : Fin 2) = 0 :=
  (by decide +kernel : ∀ t : Fin grid0.N, _)
theorem blk14 (c : Dev nD) (t : Fin cfg0.N) : iblk0 V c 14 t = V c main_v11 := by
  funext y
  show V c main_v11 (((cfg0.win 14).blk t).view.emb y) = V c main_v11 y
  refine congrArg _ (funext fun a => Fin.ext ?_)
  obtain ⟨f0, f1⟩ := fix14 t
  match a with
  | ⟨0, _⟩ => show win0_14.index t (0 : Fin 2) * 1 + 1 * (y 0).val = (y 0).val; omega
  | ⟨1, _⟩ => show win0_14.index t (1 : Fin 2) * 20 + 1 * (y 1).val = (y 1).val; omega

/-! ## What a point writes back -/

/-- The body's stored value at any index of the block, by its two coordinates. -/
theorem out_at (x0 x1 : Vec Ideal S2000x20 .f32) (x2 : Vec Ideal S2000x1 .f32) (x3 : Vec Ideal S20x20 .f32)
    (x4 : Vec Ideal S1x20 .f32) (x5 : Vec Ideal S20x20 .f32) (x6 : Vec Ideal S1x20 .f32) (x7 : Vec Ideal S20x20 .f32)
    (x8 : Vec Ideal S1x20 .f32) (x9 : Vec Ideal S20x20 .f32) (x10 : Vec Ideal S1x20 .f32) (x11 : Vec Ideal S20x20 .f32)
    (x12 : Vec Ideal S1x20 .f32) (x13 : Vec Ideal S20x20 .f32) (x14 : Vec Ideal S1x20 .f32) (y : S2000x20.Idx) :
    out0_15 (F := Ideal) x0 x1 x2 x3 x4 x5 x6 x7 x8 x9 x10 x11 x12 x13 x14 y
      = stepRow 1 ⟨x3, x4, x5, x6, x7, x8, x9, x10, x11, x12, x13, x14⟩
          (fun k => x0 (ix2 (⟨(y 0).val, (y 0).isLt⟩ : Fin 2000) k)) (fun k => x1 (ix2 (⟨(y 0).val, (y 0).isLt⟩ : Fin 2000) k))
          (x2 (ix2 (⟨(y 0).val, (y 0).isLt⟩ : Fin 2000) (0 : Fin 1))) ⟨(y 1).val, (y 1).isLt⟩ := by
  have e : y = ix2 (⟨(y 0).val, (y 0).isLt⟩ : Fin 2000) (⟨(y 1).val, (y 1).isLt⟩ : Fin 20) := eq_ix2 y
  conv_lhs => rw [e]
  exact Body0.out_apply x0 x1 x2 x3 x4 x5 x6 x7 x8 x9 x10 x11 x12 x13 x14 _ _

/-- WHAT POINT `t` WRITES BACK is block `t` of the update of the entry arrays. -/
theorem flushed_eq (c : Dev nD) (t : Fin cfg0.N) :
    (dat0 V c).flushed 15 t = ((cfg0.win 15).blk t).view.read (Elt Ideal) (G V c) := by
  show (cfg0.win 15).cut (grid0.coords t) ((dat0 V c).after 15 t) = _
  rw [after0_15]
  rw [blk3 V c t, blk4 V c t, blk5 V c t, blk6 V c t, blk7 V c t, blk8 V c t, blk9 V c t, blk10 V c t, blk11 V c t,
    blk12 V c t, blk13 V c t, blk14 V c t]
  obtain ⟨a0, a1, b0, b1, c0, c1, o0, o1⟩ := row_facts t
  funext j
  refine (out_at (iblk0 V c 0 t) (iblk0 V c 1 t) (iblk0 V c 2 t) (V c main_v0) (V c main_v6) (V c main_v1) (V c main_v7)
    (V c main_v2) (V c main_v8) (V c main_v3) (V c main_v9) (V c main_v4) (V c main_v10) (V c main_v5) (V c main_v11) j).trans ?_
  refine stepArr_at 1 (params V c) (V c main_arg0) (V c main_v38) (V c main_v17) (((cfg0.win 15).blk t).view.emb j) _ _ _ _
    (fun k => ?_) (fun k => ?_) ?_ ?_
  · show V c main_arg0 (((cfg0.win 0).blk t).view.emb (ix2 (⟨(j 0).val, (j 0).isLt⟩ : Fin 2000) k)) = _
    refine congrArg _ (funext fun a => Fin.ext ?_)
    match a with
    | ⟨0, _⟩ => show win0_0.index t (0 : Fin 2) * 2000 + 1 * (j 0).val = win0_15.index t (0 : Fin 2) * 2000 + 1 * (j 0).val; omega
    | ⟨1, _⟩ => show win0_0.index t (1 : Fin 2) * 20 + 1 * k.val = k.val; omega
  · show V c main_v38 (((cfg0.win 1).blk t).view.emb (ix2 (⟨(j 0).val, (j 0).isLt⟩ : Fin 2000) k)) = _
    refine congrArg _ (funext fun a => Fin.ext ?_)
    match a with
    | ⟨0, _⟩ => show win0_1.index t (0 : Fin 2) * 2000 + 1 * (j 0).val = win0_15.index t (0 : Fin 2) * 2000 + 1 * (j 0).val; omega
    | ⟨1, _⟩ => show win0_1.index t (1 : Fin 2) * 20 + 1 * k.val = k.val; omega
  · show V c main_v17 (((cfg0.win 2).blk t).view.emb (ix2 (⟨(j 0).val, (j 0).isLt⟩ : Fin 2000) (0 : Fin 1))) = _
    refine congrArg _ (funext fun a => Fin.ext ?_)
    match a with
    | ⟨0, _⟩ => show win0_2.index t (0 : Fin 2) * 2000 + 1 * (j 0).val = win0_15.index t (0 : Fin 2) * 2000 + 1 * (j 0).val; omega
    | ⟨1, _⟩ => show win0_2.index t (1 : Fin 2) * 1 + 1 * 0 = 0; omega
  · show (j 1).val = win0_15.index t (1 : Fin 2) * 20 + 1 * (j 1).val; omega

/-! ## The blocks cover the array -/

/-- An index of the array is in point `t`'s block iff each coordinate is in the block's range on its axis. -/
theorem mem_blk (t : Fin cfg0.N) (i : S200000x20.Idx) :
    i ∈ ((cfg0.win 15).blk t).view.set ↔ ∀ a : Fin 2, win0_15.index t a * S2000x20.size a ≤ (i a).val
      ∧ (i a).val < win0_15.index t a * S2000x20.size a + S2000x20.size a := by
  show i ∈ ((View.whole main_v39).slice (win0_15.rect t)).set ↔ _
  rw [View.set_slice_whole, Rect.mem_set_unit]
  exact Iff.rfl

/-- Node `n`'s row lies in the block of point `n / 2000`. -/
theorem cover (i : S200000x20.Idx) :
    ∃ t : Fin cfg0.N, (cfg0.win 15).flush t = true ∧ i ∈ ((cfg0.win 15).blk t).view.set := by
  have hi0 : (i 0).val < 200000 := (i 0).isLt
  have hi1 : (i 1).val < 20 := (i 1).isLt
  have hN : (i 0).val / 2000 < cfg0.N := lt_of_lt_of_eq (by omega : (i 0).val / 2000 < 100) N_0.symm
  refine ⟨⟨(i 0).val / 2000, hN⟩, flush0_15 _, ?_⟩
  rw [mem_blk]
  obtain ⟨-, -, -, -, -, -, o0, o1⟩ := row_facts ⟨(i 0).val / 2000, hN⟩
  intro a
  match a with
  | ⟨0, _⟩ =>
    show win0_15.index ⟨(i 0).val / 2000, hN⟩ (0 : Fin 2) * 2000 ≤ (i 0).val
      ∧ (i 0).val < win0_15.index ⟨(i 0).val / 2000, hN⟩ (0 : Fin 2) * 2000 + 2000
    rw [o0]; show (i 0).val / 2000 * 2000 ≤ (i 0).val ∧ (i 0).val < (i 0).val / 2000 * 2000 + 2000; omega
  | ⟨1, _⟩ =>
    show win0_15.index ⟨(i 0).val / 2000, hN⟩ (1 : Fin 2) * 20 ≤ (i 1).val
      ∧ (i 1).val < win0_15.index ⟨(i 0).val / 2000, hN⟩ (1 : Fin 2) * 20 + 20
    rw [o1]; omega

/-- THE OUTPUT ARRAY after the launch is the update of the entry arrays. -/
theorem final (c : Dev nD) : (dat0 V c).arrAt 15 cfg0.N = G V c :=
  (dat0 V c).arrAt_eq_of_cover 15 (G V c) (fun t _ => flushed_eq V c t) cover

end Cert.KernelIdeal.Region0

end
-- ==== Proof.Bridge0.lean ====
/-
  Iteration 1 of the kernel against the reference: the contents the first launch is entered with, and the array
  it leaves, in the reference's terms.

  At the launch's entry the twelve parameter arrays are the reference's transposed matrices and bias rows, the state
  array is the argument, the message array is the reference's (`Cert.RefTerms.msgKer_eq`) and the
  activity column is the reference's. The launch leaves the node update of those arrays (`Region0.final`), which is,
  node by node and column by column, the reference's state after this iteration (`Cert.RefGru.gruRef_apply`).
-/
import proofs.«162891_j90013924590102_1_alg».proof.Proof.Region0
import proofs.«162891_j90013924590102_1_alg».proof.Proof.Walk
import proofs.«162891_j90013924590102_1_alg».proof.Proof.RefResult
import proofs.«162891_j90013924590102_1_alg».proof.Proof.RefGru

set_option maxRecDepth 16384

noncomputable section

namespace Cert.Bridge0

open Idealize.ShloMosaic Idealize.ShloMosaic.TcCoe Idealize.ShloMosaic.ValueIdx Idealize.SL.Sem
open Cert.KernelIdeal Cert.KernelIdeal.Gen Cert.KernelIdeal.Walk Cert.Gru Cert.RefTerms

variable (m : (ℓ : Loc nD τ sig) → Buf (Elt Ideal) ℓ) (ρ : Dev nD → PrngReg) (c : Dev nD)

/-! ## The parameter arrays at the launch's entry -/

theorem P_main_v0 : W1 m ρ c (Proc.devRef .tc main_v0) = wT (m ((c : Thread nD τ).loc main_arg1)) := by
  show StableHlo.after hostOps0 (W0 m ρ c) (Proc.devRef .tc main_v0) = _
  after_results
  all_goals rfl

theorem P_main_v6 : W1 m ρ c (Proc.devRef .tc main_v6) = bRow (m ((c : Thread nD τ).loc main_arg2)) := by
  show StableHlo.after hostOps0 (W0 m ρ c) (Proc.devRef .tc main_v6) = _
  after_results
  exact Cert.GatherCol.bias_row_eq (a := 20) (by decide) _ shapeCasts_S20_S1x20 Cert.ReferenceIdeal.Gen.bcast_S20_S1x20_1

theorem P_main_v1 : W1 m ρ c (Proc.devRef .tc main_v1) = wT (m ((c : Thread nD τ).loc main_arg3)) := by
  show StableHlo.after hostOps0 (W0 m ρ c) (Proc.devRef .tc main_v1) = _
  after_results
  all_goals rfl

theorem P_main_v7 : W1 m ρ c (Proc.devRef .tc main_v7) = bRow (m ((c : Thread nD τ).loc main_arg4)) := by
  show StableHlo.after hostOps0 (W0 m ρ c) (Proc.devRef .tc main_v7) = _
  after_results
  exact Cert.GatherCol.bias_row_eq (a := 20) (by decide) _ shapeCasts_S20_S1x20 Cert.ReferenceIdeal.Gen.bcast_S20_S1x20_1

theorem P_main_v2 : W1 m ρ c (Proc.devRef .tc main_v2) = wT (m ((c : Thread nD τ).loc main_arg5)) := by
  show StableHlo.after hostOps0 (W0 m ρ c) (Proc.devRef .tc main_v2) = _
  after_results
  all_goals rfl

theorem P_main_v8 : W1 m ρ c (Proc.devRef .tc main_v8) = bRow (m ((c : Thread nD τ).loc main_arg6)) := by
  show StableHlo.after hostOps0 (W0 m ρ c) (Proc.devRef .tc main_v8) = _
  after_results
  exact Cert.GatherCol.bias_row_eq (a := 20) (by decide) _ shapeCasts_S20_S1x20 Cert.ReferenceIdeal.Gen.bcast_S20_S1x20_1

theorem P_main_v3 : W1 m ρ c (Proc.devRef .tc main_v3) = wT (m ((c : Thread nD τ).loc main_arg7)) := by
  show StableHlo.after hostOps0 (W0 m ρ c) (Proc.devRef .tc main_v3) = _
  after_results
  all_goals rfl

theorem P_main_v9 : W1 m ρ c (Proc.devRef .tc main_v9) = bRow (m ((c : Thread nD τ).loc main_arg8)) := by
  show StableHlo.after hostOps0 (W0 m ρ c) (Proc.devRef .tc main_v9) = _
  after_results
  exact Cert.GatherCol.bias_row_eq (a := 20) (by decide) _ shapeCasts_S20_S1x20 Cert.ReferenceIdeal.Gen.bcast_S20_S1x20_1

theorem P_main_v4 : W1 m ρ c (Proc.devRef .tc main_v4) = wT (m ((c : Thread nD τ).loc main_arg9)) := by
  show StableHlo.after hostOps0 (W0 m ρ c) (Proc.devRef .tc main_v4) = _
  after_results
  all_goals rfl

theorem P_main_v10 : W1 m ρ c (Proc.devRef .tc main_v10) = bRow (m ((c : Thread nD τ).loc main_arg10)) := by
  show StableHlo.after hostOps0 (W0 m ρ c) (Proc.devRef .tc main_v10) = _
  after_results
  exact Cert.GatherCol.bias_row_eq (a := 20) (by decide) _ shapeCasts_S20_S1x20 Cert.ReferenceIdeal.Gen.bcast_S20_S1x20_1

theorem P_main_v5 : W1 m ρ c (Proc.devRef .tc main_v5) = wT (m ((c : Thread nD τ).loc main_arg11)) := by
  show StableHlo.after hostOps0 (W0 m ρ c) (Proc.devRef .tc main_v5) = _
  after_results
  all_goals rfl

theorem P_main_v11 : W1 m ρ c (Proc.devRef .tc main_v11) = bRow (m ((c : Thread nD τ).loc main_arg12)) := by
  show StableHlo.after hostOps0 (W0 m ρ c) (Proc.devRef .tc main_v11) = _
  after_results
  exact Cert.GatherCol.bias_row_eq (a := 20) (by decide) _ shapeCasts_S20_S1x20 Cert.ReferenceIdeal.Gen.bcast_S20_S1x20_1

/-! ## The state, the messages and the activity at the launch's entry -/

theorem E_h : W1 m ρ c (Proc.devRef .tc main_arg0) = (m ((c : Thread nD τ).loc main_arg0)) := W1_main_arg0 m ρ c

set_option maxHeartbeats 4000000 in
theorem E_x : W1 m ρ c (Proc.devRef .tc main_v38) = msgRef 0#32 (m ((c : Thread nD τ).loc main_arg0)) (m ((c : Thread nD τ).loc main_arg13)) (m ((c : Thread nD τ).loc main_arg14)) (m ((c : Thread nD τ).loc main_arg15)) := by
  show StableHlo.after hostOps0 (W0 m ρ c) (Proc.devRef .tc main_v38) = _
  after_results_simp
  exact msgKer_eq 0#32 (m ((c : Thread nD τ).loc main_arg0)) (m ((c : Thread nD τ).loc main_arg13)) (m ((c : Thread nD τ).loc main_arg14)) (m ((c : Thread nD τ).loc main_arg15))

set_option maxHeartbeats 4000000 in
theorem E_a : W1 m ρ c (Proc.devRef .tc main_v17) = actCol 0#32 (m ((c : Thread nD τ).loc main_arg13)) := by
  show StableHlo.after hostOps0 (W0 m ρ c) (Proc.devRef .tc main_v17) = _
  after_results_simp
  all_goals rfl

/-! ## The array the launch leaves -/

/-- The first launch's output array is the reference's state after iteration 1. -/
theorem H : W2 m ρ c (Proc.devRef .tc main_v39) = iter1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W2_arr m ρ c 15).trans ((Cert.KernelIdeal.Region0.final (V1 m ρ) c).trans ?_)
  show stepArr 1 ⟨W1 m ρ c (Proc.devRef .tc main_v0), W1 m ρ c (Proc.devRef .tc main_v6), W1 m ρ c (Proc.devRef .tc main_v1), W1 m ρ c (Proc.devRef .tc main_v7), W1 m ρ c (Proc.devRef .tc main_v2), W1 m ρ c (Proc.devRef .tc main_v8), W1 m ρ c (Proc.devRef .tc main_v3), W1 m ρ c (Proc.devRef .tc main_v9), W1 m ρ c (Proc.devRef .tc main_v4), W1 m ρ c (Proc.devRef .tc main_v10), W1 m ρ c (Proc.devRef .tc main_v5), W1 m ρ c (Proc.devRef .tc main_v11)⟩
    (W1 m ρ c (Proc.devRef .tc main_arg0)) (W1 m ρ c (Proc.devRef .tc main_v38)) (W1 m ρ c (Proc.devRef .tc main_v17)) = _
  rw [P_main_v0 m ρ c, P_main_v6 m ρ c, P_main_v1 m ρ c, P_main_v7 m ρ c, P_main_v2 m ρ c, P_main_v8 m ρ c, P_main_v3 m ρ c, P_main_v9 m ρ c, P_main_v4 m ρ c, P_main_v10 m ρ c, P_main_v5 m ρ c, P_main_v11 m ρ c, E_h m ρ c, E_x m ρ c, E_a m ρ c]
  funext j
  obtain ⟨n, q, rfl⟩ : ∃ (n : Fin 200000) (q : Fin 20), j = ix2 n q := ⟨j 0, j 1, eq_ix2 j⟩
  rw [stepArr_apply, actCol_apply]
  exact (Cert.RefGru.gruRef_apply (act 0#32 (m ((c : Thread nD τ).loc main_arg13))) (m ((c : Thread nD τ).loc main_arg0)) (msgRef 0#32 (m ((c : Thread nD τ).loc main_arg0)) (m ((c : Thread nD τ).loc main_arg13)) (m ((c : Thread nD τ).loc main_arg14)) (m ((c : Thread nD τ).loc main_arg15))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) n q).symm

end Cert.Bridge0

end
-- ==== Proof.Bridge1.lean ====
/-
  Iteration 2 of the kernel against the reference: the contents the second launch is entered with, and the array
  it leaves, in the reference's terms.

  At the launch's entry the twelve parameter arrays are the reference's transposed matrices and bias rows, the state
  array is the reference's state after the previous iteration, the message array is the reference's (`Cert.RefTerms.msgKer_eq`) and the
  activity column is the reference's. The launch leaves the node update of those arrays (`Region1.final`), which is,
  node by node and column by column, the reference's state after this iteration (`Cert.RefGru.gruRef_apply`).
-/
import proofs.«162891_j90013924590102_1_alg».proof.Proof.Region1
import proofs.«162891_j90013924590102_1_alg».proof.Proof.Walk
import proofs.«162891_j90013924590102_1_alg».proof.Proof.RefResult
import proofs.«162891_j90013924590102_1_alg».proof.Proof.RefGru
import proofs.«162891_j90013924590102_1_alg».proof.Proof.Bridge0

set_option maxRecDepth 16384

noncomputable section

namespace Cert.Bridge1

open Idealize.ShloMosaic Idealize.ShloMosaic.TcCoe Idealize.ShloMosaic.ValueIdx Idealize.SL.Sem
open Cert.KernelIdeal Cert.KernelIdeal.Gen Cert.KernelIdeal.Walk Cert.Gru Cert.RefTerms

variable (m : (ℓ : Loc nD τ sig) → Buf (Elt Ideal) ℓ) (ρ : Dev nD → PrngReg) (c : Dev nD)

/-! ## The parameter arrays at the launch's entry -/

theorem P_main_v0 : W3 m ρ c (Proc.devRef .tc main_v0) = wT (m ((c : Thread nD τ).loc main_arg1)) :=
  (W3_main_v0 m ρ c).trans ((W2_main_v0 m ρ c).trans (Cert.Bridge0.P_main_v0 m ρ c))

theorem P_main_v6 : W3 m ρ c (Proc.devRef .tc main_v6) = bRow (m ((c : Thread nD τ).loc main_arg2)) :=
  (W3_main_v6 m ρ c).trans ((W2_main_v6 m ρ c).trans (Cert.Bridge0.P_main_v6 m ρ c))

theorem P_main_v1 : W3 m ρ c (Proc.devRef .tc main_v1) = wT (m ((c : Thread nD τ).loc main_arg3)) :=
  (W3_main_v1 m ρ c).trans ((W2_main_v1 m ρ c).trans (Cert.Bridge0.P_main_v1 m ρ c))

theorem P_main_v7 : W3 m ρ c (Proc.devRef .tc main_v7) = bRow (m ((c : Thread nD τ).loc main_arg4)) :=
  (W3_main_v7 m ρ c).trans ((W2_main_v7 m ρ c).trans (Cert.Bridge0.P_main_v7 m ρ c))

theorem P_main_v2 : W3 m ρ c (Proc.devRef .tc main_v2) = wT (m ((c : Thread nD τ).loc main_arg5)) :=
  (W3_main_v2 m ρ c).trans ((W2_main_v2 m ρ c).trans (Cert.Bridge0.P_main_v2 m ρ c))

theorem P_main_v8 : W3 m ρ c (Proc.devRef .tc main_v8) = bRow (m ((c : Thread nD τ).loc main_arg6)) :=
  (W3_main_v8 m ρ c).trans ((W2_main_v8 m ρ c).trans (Cert.Bridge0.P_main_v8 m ρ c))

theorem P_main_v3 : W3 m ρ c (Proc.devRef .tc main_v3) = wT (m ((c : Thread nD τ).loc main_arg7)) :=
  (W3_main_v3 m ρ c).trans ((W2_main_v3 m ρ c).trans (Cert.Bridge0.P_main_v3 m ρ c))

theorem P_main_v9 : W3 m ρ c (Proc.devRef .tc main_v9) = bRow (m ((c : Thread nD τ).loc main_arg8)) :=
  (W3_main_v9 m ρ c).trans ((W2_main_v9 m ρ c).trans (Cert.Bridge0.P_main_v9 m ρ c))

theorem P_main_v4 : W3 m ρ c (Proc.devRef .tc main_v4) = wT (m ((c : Thread nD τ).loc main_arg9)) :=
  (W3_main_v4 m ρ c).trans ((W2_main_v4 m ρ c).trans (Cert.Bridge0.P_main_v4 m ρ c))

theorem P_main_v10 : W3 m ρ c (Proc.devRef .tc main_v10) = bRow (m ((c : Thread nD τ).loc main_arg10)) :=
  (W3_main_v10 m ρ c).trans ((W2_main_v10 m ρ c).trans (Cert.Bridge0.P_main_v10 m ρ c))

theorem P_main_v5 : W3 m ρ c (Proc.devRef .tc main_v5) = wT (m ((c : Thread nD τ).loc main_arg11)) :=
  (W3_main_v5 m ρ c).trans ((W2_main_v5 m ρ c).trans (Cert.Bridge0.P_main_v5 m ρ c))

theorem P_main_v11 : W3 m ρ c (Proc.devRef .tc main_v11) = bRow (m ((c : Thread nD τ).loc main_arg12)) :=
  (W3_main_v11 m ρ c).trans ((W2_main_v11 m ρ c).trans (Cert.Bridge0.P_main_v11 m ρ c))

/-! ## The integer arguments at the boundary the stretch starts from -/

theorem S_main_arg13 : W2 m ρ c (Proc.devRef .tc main_arg13) = m ((c : Thread nD τ).loc main_arg13) :=
  (W2_main_arg13 m ρ c).trans (W1_main_arg13 m ρ c)

theorem S_main_arg14 : W2 m ρ c (Proc.devRef .tc main_arg14) = m ((c : Thread nD τ).loc main_arg14) :=
  (W2_main_arg14 m ρ c).trans (W1_main_arg14 m ρ c)

theorem S_main_arg15 : W2 m ρ c (Proc.devRef .tc main_arg15) = m ((c : Thread nD τ).loc main_arg15) :=
  (W2_main_arg15 m ρ c).trans (W1_main_arg15 m ρ c)

/-! ## The state, the messages and the activity at the launch's entry -/

theorem E_h : W3 m ρ c (Proc.devRef .tc main_v39) = (iter1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) :=
  (W3_main_v39 m ρ c).trans (Cert.Bridge0.H m ρ c)

set_option maxHeartbeats 4000000 in
theorem E_x : W3 m ρ c (Proc.devRef .tc main_v66) = msgRef 1#32 (iter1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg13)) (m ((c : Thread nD τ).loc main_arg14)) (m ((c : Thread nD τ).loc main_arg15)) := by
  show StableHlo.after hostOps1 (W2 m ρ c) (Proc.devRef .tc main_v66) = _
  after_results_simp
  rw [Cert.Bridge0.H m ρ c, S_main_arg13 m ρ c, S_main_arg14 m ρ c, S_main_arg15 m ρ c]
  exact msgKer_eq 1#32 (iter1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg13)) (m ((c : Thread nD τ).loc main_arg14)) (m ((c : Thread nD τ).loc main_arg15))

set_option maxHeartbeats 4000000 in
theorem E_a : W3 m ρ c (Proc.devRef .tc main_v45) = actCol 1#32 (m ((c : Thread nD τ).loc main_arg13)) := by
  show StableHlo.after hostOps1 (W2 m ρ c) (Proc.devRef .tc main_v45) = _
  after_results_simp
  rw [S_main_arg13 m ρ c]
  all_goals rfl

/-! ## The array the launch leaves -/

/-- The second launch's output array is the reference's state after iteration 2. -/
theorem H : W4 m ρ c (Proc.devRef .tc main_v67) = iter2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W4_arr m ρ c 15).trans ((Cert.KernelIdeal.Region1.final (V3 m ρ) c).trans ?_)
  show stepArr 1 ⟨W3 m ρ c (Proc.devRef .tc main_v0), W3 m ρ c (Proc.devRef .tc main_v6), W3 m ρ c (Proc.devRef .tc main_v1), W3 m ρ c (Proc.devRef .tc main_v7), W3 m ρ c (Proc.devRef .tc main_v2), W3 m ρ c (Proc.devRef .tc main_v8), W3 m ρ c (Proc.devRef .tc main_v3), W3 m ρ c (Proc.devRef .tc main_v9), W3 m ρ c (Proc.devRef .tc main_v4), W3 m ρ c (Proc.devRef .tc main_v10), W3 m ρ c (Proc.devRef .tc main_v5), W3 m ρ c (Proc.devRef .tc main_v11)⟩
    (W3 m ρ c (Proc.devRef .tc main_v39)) (W3 m ρ c (Proc.devRef .tc main_v66)) (W3 m ρ c (Proc.devRef .tc main_v45)) = _
  rw [P_main_v0 m ρ c, P_main_v6 m ρ c, P_main_v1 m ρ c, P_main_v7 m ρ c, P_main_v2 m ρ c, P_main_v8 m ρ c, P_main_v3 m ρ c, P_main_v9 m ρ c, P_main_v4 m ρ c, P_main_v10 m ρ c, P_main_v5 m ρ c, P_main_v11 m ρ c, E_h m ρ c, E_x m ρ c, E_a m ρ c]
  funext j
  obtain ⟨n, q, rfl⟩ : ∃ (n : Fin 200000) (q : Fin 20), j = ix2 n q := ⟨j 0, j 1, eq_ix2 j⟩
  rw [stepArr_apply, actCol_apply]
  exact (Cert.RefGru.gruRef_apply (act 1#32 (m ((c : Thread nD τ).loc main_arg13))) (iter1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (msgRef 1#32 (iter1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg13)) (m ((c : Thread nD τ).loc main_arg14)) (m ((c : Thread nD τ).loc main_arg15))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) n q).symm

end Cert.Bridge1

end
-- ==== Proof.Bridge2.lean ====
/-
  Iteration 3 of the kernel against the reference: the contents the third launch is entered with, and the array
  it leaves, in the reference's terms.

  At the launch's entry the twelve parameter arrays are the reference's transposed matrices and bias rows, the state
  array is the reference's state after the previous iteration, the message array is the reference's (`Cert.RefTerms.msgKer_eq`) and the
  activity column is the reference's. The launch leaves the node update of those arrays (`Region2.final`), which is,
  node by node and column by column, the reference's state after this iteration with the inactive nodes zeroed (`Cert.RefGru.zeroRef_gruRef_apply`).
-/
import proofs.«162891_j90013924590102_1_alg».proof.Proof.Region2
import proofs.«162891_j90013924590102_1_alg».proof.Proof.Walk
import proofs.«162891_j90013924590102_1_alg».proof.Proof.RefResult
import proofs.«162891_j90013924590102_1_alg».proof.Proof.RefGru
import proofs.«162891_j90013924590102_1_alg».proof.Proof.Bridge1

set_option maxRecDepth 16384

noncomputable section

namespace Cert.Bridge2

open Idealize.ShloMosaic Idealize.ShloMosaic.TcCoe Idealize.ShloMosaic.ValueIdx Idealize.SL.Sem
open Cert.KernelIdeal Cert.KernelIdeal.Gen Cert.KernelIdeal.Walk Cert.Gru Cert.RefTerms

variable (m : (ℓ : Loc nD τ sig) → Buf (Elt Ideal) ℓ) (ρ : Dev nD → PrngReg) (c : Dev nD)

/-! ## The parameter arrays at the launch's entry -/

theorem P_main_v0 : W5 m ρ c (Proc.devRef .tc main_v0) = wT (m ((c : Thread nD τ).loc main_arg1)) :=
  (W5_main_v0 m ρ c).trans ((W4_main_v0 m ρ c).trans (Cert.Bridge1.P_main_v0 m ρ c))

theorem P_main_v6 : W5 m ρ c (Proc.devRef .tc main_v6) = bRow (m ((c : Thread nD τ).loc main_arg2)) :=
  (W5_main_v6 m ρ c).trans ((W4_main_v6 m ρ c).trans (Cert.Bridge1.P_main_v6 m ρ c))

theorem P_main_v1 : W5 m ρ c (Proc.devRef .tc main_v1) = wT (m ((c : Thread nD τ).loc main_arg3)) :=
  (W5_main_v1 m ρ c).trans ((W4_main_v1 m ρ c).trans (Cert.Bridge1.P_main_v1 m ρ c))

theorem P_main_v7 : W5 m ρ c (Proc.devRef .tc main_v7) = bRow (m ((c : Thread nD τ).loc main_arg4)) :=
  (W5_main_v7 m ρ c).trans ((W4_main_v7 m ρ c).trans (Cert.Bridge1.P_main_v7 m ρ c))

theorem P_main_v2 : W5 m ρ c (Proc.devRef .tc main_v2) = wT (m ((c : Thread nD τ).loc main_arg5)) :=
  (W5_main_v2 m ρ c).trans ((W4_main_v2 m ρ c).trans (Cert.Bridge1.P_main_v2 m ρ c))

theorem P_main_v8 : W5 m ρ c (Proc.devRef .tc main_v8) = bRow (m ((c : Thread nD τ).loc main_arg6)) :=
  (W5_main_v8 m ρ c).trans ((W4_main_v8 m ρ c).trans (Cert.Bridge1.P_main_v8 m ρ c))

theorem P_main_v3 : W5 m ρ c (Proc.devRef .tc main_v3) = wT (m ((c : Thread nD τ).loc main_arg7)) :=
  (W5_main_v3 m ρ c).trans ((W4_main_v3 m ρ c).trans (Cert.Bridge1.P_main_v3 m ρ c))

theorem P_main_v9 : W5 m ρ c (Proc.devRef .tc main_v9) = bRow (m ((c : Thread nD τ).loc main_arg8)) :=
  (W5_main_v9 m ρ c).trans ((W4_main_v9 m ρ c).trans (Cert.Bridge1.P_main_v9 m ρ c))

theorem P_main_v4 : W5 m ρ c (Proc.devRef .tc main_v4) = wT (m ((c : Thread nD τ).loc main_arg9)) :=
  (W5_main_v4 m ρ c).trans ((W4_main_v4 m ρ c).trans (Cert.Bridge1.P_main_v4 m ρ c))

theorem P_main_v10 : W5 m ρ c (Proc.devRef .tc main_v10) = bRow (m ((c : Thread nD τ).loc main_arg10)) :=
  (W5_main_v10 m ρ c).trans ((W4_main_v10 m ρ c).trans (Cert.Bridge1.P_main_v10 m ρ c))

theorem P_main_v5 : W5 m ρ c (Proc.devRef .tc main_v5) = wT (m ((c : Thread nD τ).loc main_arg11)) :=
  (W5_main_v5 m ρ c).trans ((W4_main_v5 m ρ c).trans (Cert.Bridge1.P_main_v5 m ρ c))

theorem P_main_v11 : W5 m ρ c (Proc.devRef .tc main_v11) = bRow (m ((c : Thread nD τ).loc main_arg12)) :=
  (W5_main_v11 m ρ c).trans ((W4_main_v11 m ρ c).trans (Cert.Bridge1.P_main_v11 m ρ c))

/-! ## The integer arguments at the boundary the stretch starts from -/

theorem S_main_arg13 : W4 m ρ c (Proc.devRef .tc main_arg13) = m ((c : Thread nD τ).loc main_arg13) :=
  (W4_main_arg13 m ρ c).trans ((W3_main_arg13 m ρ c).trans ((W2_main_arg13 m ρ c).trans (W1_main_arg13 m ρ c)))

theorem S_main_arg14 : W4 m ρ c (Proc.devRef .tc main_arg14) = m ((c : Thread nD τ).loc main_arg14) :=
  (W4_main_arg14 m ρ c).trans ((W3_main_arg14 m ρ c).trans ((W2_main_arg14 m ρ c).trans (W1_main_arg14 m ρ c)))

theorem S_main_arg15 : W4 m ρ c (Proc.devRef .tc main_arg15) = m ((c : Thread nD τ).loc main_arg15) :=
  (W4_main_arg15 m ρ c).trans ((W3_main_arg15 m ρ c).trans ((W2_main_arg15 m ρ c).trans (W1_main_arg15 m ρ c)))

/-! ## The state, the messages and the activity at the launch's entry -/

theorem E_h : W5 m ρ c (Proc.devRef .tc main_v67) = (iter2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) :=
  (W5_main_v67 m ρ c).trans (Cert.Bridge1.H m ρ c)

set_option maxHeartbeats 4000000 in
theorem E_x : W5 m ρ c (Proc.devRef .tc main_v94) = msgRef 2#32 (iter2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg13)) (m ((c : Thread nD τ).loc main_arg14)) (m ((c : Thread nD τ).loc main_arg15)) := by
  show StableHlo.after hostOps2 (W4 m ρ c) (Proc.devRef .tc main_v94) = _
  after_results_simp
  rw [Cert.Bridge1.H m ρ c, S_main_arg13 m ρ c, S_main_arg14 m ρ c, S_main_arg15 m ρ c]
  exact msgKer_eq 2#32 (iter2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg13)) (m ((c : Thread nD τ).loc main_arg14)) (m ((c : Thread nD τ).loc main_arg15))

set_option maxHeartbeats 4000000 in
theorem E_a : W5 m ρ c (Proc.devRef .tc main_v73) = actCol 2#32 (m ((c : Thread nD τ).loc main_arg13)) := by
  show StableHlo.after hostOps2 (W4 m ρ c) (Proc.devRef .tc main_v73) = _
  after_results_simp
  rw [S_main_arg13 m ρ c]
  all_goals rfl

/-! ## The array the launch leaves -/

/-- The third launch's output array is the reference's state after iteration 3, inactive nodes zeroed: the result. -/
theorem H : W6 m ρ c (Proc.devRef .tc main_v95) = resultRef (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W6_arr m ρ c 15).trans ((Cert.KernelIdeal.Region2.final (V5 m ρ) c).trans ?_)
  show stepArr 0 ⟨W5 m ρ c (Proc.devRef .tc main_v0), W5 m ρ c (Proc.devRef .tc main_v6), W5 m ρ c (Proc.devRef .tc main_v1), W5 m ρ c (Proc.devRef .tc main_v7), W5 m ρ c (Proc.devRef .tc main_v2), W5 m ρ c (Proc.devRef .tc main_v8), W5 m ρ c (Proc.devRef .tc main_v3), W5 m ρ c (Proc.devRef .tc main_v9), W5 m ρ c (Proc.devRef .tc main_v4), W5 m ρ c (Proc.devRef .tc main_v10), W5 m ρ c (Proc.devRef .tc main_v5), W5 m ρ c (Proc.devRef .tc main_v11)⟩
    (W5 m ρ c (Proc.devRef .tc main_v67)) (W5 m ρ c (Proc.devRef .tc main_v94)) (W5 m ρ c (Proc.devRef .tc main_v73)) = _
  rw [P_main_v0 m ρ c, P_main_v6 m ρ c, P_main_v1 m ρ c, P_main_v7 m ρ c, P_main_v2 m ρ c, P_main_v8 m ρ c, P_main_v3 m ρ c, P_main_v9 m ρ c, P_main_v4 m ρ c, P_main_v10 m ρ c, P_main_v5 m ρ c, P_main_v11 m ρ c, E_h m ρ c, E_x m ρ c, E_a m ρ c]
  funext j
  obtain ⟨n, q, rfl⟩ : ∃ (n : Fin 200000) (q : Fin 20), j = ix2 n q := ⟨j 0, j 1, eq_ix2 j⟩
  rw [stepArr_apply, actCol_apply]
  exact (Cert.RefGru.zeroRef_gruRef_apply (act 2#32 (m ((c : Thread nD τ).loc main_arg13))) (iter2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (msgRef 2#32 (iter2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg13)) (m ((c : Thread nD τ).loc main_arg14)) (m ((c : Thread nD τ).loc main_arg15))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) n q).symm

end Cert.Bridge2

end
-- ==== Proof.RefOps.lean ====
/-
  The reference program as a list of host operations, in three stretches, and its raw run.

  @main of the reference is a straight line of 290 host operations: three iterations of the graph update (95, 95 and
  100 operations; the last iteration also zeroes the inactive nodes). Every weakly fair execution terminates and
  leaves each buffer at the fold of the operations' results over the launch contents; folding a concatenation is
  folding its parts in turn, so the final contents are reached through the contents after the first and after the
  second iteration.
-/
import proofs.«162891_j90013924590102_1_alg».proof.Proof.Gen.ReferenceIdeal
import Idealize.ShloMosaic.Lib.StableHlo.Run

noncomputable section

namespace Cert.RefOps

open Cert.ReferenceIdeal Cert.ReferenceIdeal.Gen Idealize.ShloMosaic Idealize.ShloMosaic.TcCoe Idealize.SL.Sem Idealize.ShloMosaic.StableHlo

variable {F : FTy → Type} [FloatOps F]

/-- The first iteration's 95 operations. -/
abbrev opsA : List (HloOp τ sig (Elt F)) :=
  [ nullary main_c (constantI S_ 32 0#32),
    unary main_c main_v0 (broadcastInDim S200000 ![] bcast_S_S200000 : (⟨S_, .i32⟩ : BufTy).Contents (Elt F) → (⟨S200000, .i32⟩ : BufTy).Contents (Elt F)),
    binary main_arg13 main_v0 main_v1 (addi : (⟨S200000, .i32⟩ : BufTy).Contents (Elt F) → (⟨S200000, .i32⟩ : BufTy).Contents (Elt F) → (⟨S200000, .i32⟩ : BufTy).Contents (Elt F)),
    nullary main_c_0 (constantI S_ 32 3#32),
    unary main_c_0 main_v2 (broadcastInDim S200000 ![] bcast_S_S200000 : (⟨S_, .i32⟩ : BufTy).Contents (Elt F) → (⟨S200000, .i32⟩ : BufTy).Contents (Elt F)),
    binary main_v1 main_v2 main_v3 (cmpi .sle : (⟨S200000, .i32⟩ : BufTy).Contents (Elt F) → (⟨S200000, .i32⟩ : BufTy).Contents (Elt F) → (⟨S200000, .i1⟩ : BufTy).Contents (Elt F)),
    unary main_v3 main_v4 (uitofp .f32 : (⟨S200000, .i1⟩ : BufTy).Contents (Elt F) → (⟨S200000, .f32⟩ : BufTy).Contents (Elt F)),
    nullary main_c_1 (constantI S_ 32 0#32),
    unary main_c_1 main_v5 (broadcastInDim S6400000 ![] bcast_S_S6400000 : (⟨S_, .i32⟩ : BufTy).Contents (Elt F) → (⟨S6400000, .i32⟩ : BufTy).Contents (Elt F)),
    binary main_arg14 main_v5 main_v6 (cmpi .slt : (⟨S6400000, .i32⟩ : BufTy).Contents (Elt F) → (⟨S6400000, .i32⟩ : BufTy).Contents (Elt F) → (⟨S6400000, .i1⟩ : BufTy).Contents (Elt F)),
    nullary main_c_2 (constantI S_ 32 200000#32),
    unary main_c_2 main_v7 (broadcastInDim S6400000 ![] bcast_S_S6400000 : (⟨S_, .i32⟩ : BufTy).Contents (Elt F) → (⟨S6400000, .i32⟩ : BufTy).Contents (Elt F)),
    binary main_arg14 main_v7 main_v8 (addi : (⟨S6400000, .i32⟩ : BufTy).Contents (Elt F) → (⟨S6400000, .i32⟩ : BufTy).Contents (Elt F) → (⟨S6400000, .i32⟩ : BufTy).Contents (Elt F)),
    ternary main_v6 main_v8 main_arg14 main_v9 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v9 main_v10 (broadcastInDim S6400000x1 ![0] bcast_S6400000_S6400000x1_0 : (⟨S6400000, .i32⟩ : BufTy).Contents (Elt F) → (⟨S6400000x1, .i32⟩ : BufTy).Contents (Elt F)),
    binary main_arg0 main_v10 main_v11 ((fun x i => Host.gather gather_S200000x20_S6400000x1_S6400000x20_1_0_n_n_0_1_120 x i) : (⟨S200000x20, .f32⟩ : BufTy).Contents (Elt F) → (⟨S6400000x1, .i32⟩ : BufTy).Contents (Elt F) → (⟨S6400000x20, .f32⟩ : BufTy).Contents (Elt F)),
    nullary main_c_3 (constantI S_ 32 0#32),
    unary main_c_3 main_v12 (broadcastInDim S6400000 ![] bcast_S_S6400000 : (⟨S_, .i32⟩ : BufTy).Contents (Elt F) → (⟨S6400000, .i32⟩ : BufTy).Contents (Elt F)),
    binary main_arg14 main_v12 main_v13 (cmpi .slt : (⟨S6400000, .i32⟩ : BufTy).Contents (Elt F) → (⟨S6400000, .i32⟩ : BufTy).Contents (Elt F) → (⟨S6400000, .i1⟩ : BufTy).Contents (Elt F)),
    nullary main_c_4 (constantI S_ 32 200000#32),
    unary main_c_4 main_v14 (broadcastInDim S6400000 ![] bcast_S_S6400000 : (⟨S_, .i32⟩ : BufTy).Contents (Elt F) → (⟨S6400000, .i32⟩ : BufTy).Contents (Elt F)),
    binary main_arg14 main_v14 main_v15 (addi : (⟨S6400000, .i32⟩ : BufTy).Contents (Elt F) → (⟨S6400000, .i32⟩ : BufTy).Contents (Elt F) → (⟨S6400000, .i32⟩ : BufTy).Contents (Elt F)),
    ternary main_v13 main_v15 main_arg14 main_v16 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v16 main_v17 (broadcastInDim S6400000x1 ![0] bcast_S6400000_S6400000x1_0 : (⟨S6400000, .i32⟩ : BufTy).Contents (Elt F) → (⟨S6400000x1, .i32⟩ : BufTy).Contents (Elt F)),
    binary main_v4 main_v17 main_v18 ((fun x i => Host.gather gather_S200000_S6400000x1_S6400000_n_0_n_n_0_1_1 x i) : (⟨S200000, .f32⟩ : BufTy).Contents (Elt F) → (⟨S6400000x1, .i32⟩ : BufTy).Contents (Elt F) → (⟨S6400000, .f32⟩ : BufTy).Contents (Elt F)),
    unary main_v18 main_v19 (broadcastInDim S6400000x1 ![0] bcast_S6400000_S6400000x1_0 : (⟨S6400000, .f32⟩ : BufTy).Contents (Elt F) → (⟨S6400000x1, .f32⟩ : BufTy).Contents (Elt F)),
    unary main_v19 main_v20 (broadcastInDim S6400000x20 ![0, 1] bcast_S6400000x1_S6400000x20_0_1 : (⟨S6400000x1, .f32⟩ : BufTy).Contents (Elt F) → (⟨S6400000x20, .f32⟩ : BufTy).Contents (Elt F)),
    binary main_v11 main_v20 main_v21 (mulf : (⟨S6400000x20, .f32⟩ : BufTy).Contents (Elt F) → (⟨S6400000x20, .f32⟩ : BufTy).Contents (Elt F) → (⟨S6400000x20, .f32⟩ : BufTy).Contents (Elt F)),
    nullary main_cst (constant S_ .f32 0x00000000#32),
    unary main_cst main_v22 (broadcastInDim S200000x20 ![] bcast_S_S200000x20 : (⟨S_, .f32⟩ : BufTy).Contents (Elt F) → (⟨S200000x20, .f32⟩ : BufTy).Contents (Elt F)),
    unary main_arg15 main_v23 (broadcastInDim S6400000x1 ![0] bcast_S6400000_S6400000x1_0 : (⟨S6400000, .i32⟩ : BufTy).Contents (Elt F) → (⟨S6400000x1, .i32⟩ : BufTy).Contents (Elt F)),
    ternary main_v22 main_v23 main_v21 main_v24 ((fun x i u => Host.scatterAdd scatter_S200000x20_S6400000x1_S6400000x20_1_0_0_1 x i u) : (⟨S200000x20, .f32⟩ : BufTy).Contents (Elt F) → (⟨S6400000x1, .i32⟩ : BufTy).Contents (Elt F) → (⟨S6400000x20, .f32⟩ : BufTy).Contents (Elt F) → (⟨S200000x20, .f32⟩ : BufTy).Contents (Elt F)),
    unary main_v4 main_v25 (broadcastInDim S200000x1 ![0] bcast_S200000_S200000x1_0 : (⟨S200000, .f32⟩ : BufTy).Contents (Elt F) → (⟨S200000x1, .f32⟩ : BufTy).Contents (Elt F)),
    unary main_v25 main_v26 (broadcastInDim S200000x20 ![0, 1] bcast_S200000x1_S200000x20_0_1 : (⟨S200000x1, .f32⟩ : BufTy).Contents (Elt F) → (⟨S200000x20, .f32⟩ : BufTy).Contents (Elt F)),
    binary main_v24 main_v26 main_v27 (mulf : (⟨S200000x20, .f32⟩ : BufTy).Contents (Elt F) → (⟨S200000x20, .f32⟩ : BufTy).Contents (Elt F) → (⟨S200000x20, .f32⟩ : BufTy).Contents (Elt F)),
    unary main_arg1 main_v28 ((transpose S20x20 [1, 0] · transposes_S20x20_S20x20_1_0) : (⟨S20x20, .f32⟩ : BufTy).Contents (Elt F) → (⟨S20x20, .f32⟩ : BufTy).Contents (Elt F)),
    binary main_v27 main_v28 main_v29 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg2 main_v30 (broadcastInDim S1x20 ![1] bcast_S20_S1x20_1 : (⟨S20, .f32⟩ : BufTy).Contents (Elt F) → (⟨S1x20, .f32⟩ : BufTy).Contents (Elt F)),
    unary main_v30 main_v31 (broadcastInDim S200000x20 ![0, 1] bcast_S1x20_S200000x20_0_1 : (⟨S1x20, .f32⟩ : BufTy).Contents (Elt F) → (⟨S200000x20, .f32⟩ : BufTy).Contents (Elt F)),
    binary main_v29 main_v31 main_v32 (addf : (⟨S200000x20, .f32⟩ : BufTy).Contents (Elt F) → (⟨S200000x20, .f32⟩ : BufTy).Contents (Elt F) → (⟨S200000x20, .f32⟩ : BufTy).Contents (Elt F)),
    unary main_arg3 main_v33 ((transpose S20x20 [1, 0] · transposes_S20x20_S20x20_1_0) : (⟨S20x20, .f32⟩ : BufTy).Contents (Elt F) → (⟨S20x20, .f32⟩ : BufTy).Contents (Elt F)),
    binary main_arg0 main_v33 main_v34 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg4 main_v35 (broadcastInDim S1x20 ![1] bcast_S20_S1x20_1 : (⟨S20, .f32⟩ : BufTy).Contents (Elt F) → (⟨S1x20, .f32⟩ : BufTy).Contents (Elt F)),
    unary main_v35 main_v36 (broadcastInDim S200000x20 ![0, 1] bcast_S1x20_S200000x20_0_1 : (⟨S1x20, .f32⟩ : BufTy).Contents (Elt F) → (⟨S200000x20, .f32⟩ : BufTy).Contents (Elt F)),
    binary main_v34 main_v36 main_v37 (addf : (⟨S200000x20, .f32⟩ : BufTy).Contents (Elt F) → (⟨S200000x20, .f32⟩ : BufTy).Contents (Elt F) → (⟨S200000x20, .f32⟩ : BufTy).Contents (Elt F)),
    binary main_v32 main_v37 main_v38 (addf : (⟨S200000x20, .f32⟩ : BufTy).Contents (Elt F) → (⟨S200000x20, .f32⟩ : BufTy).Contents (Elt F) → (⟨S200000x20, .f32⟩ : BufTy).Contents (Elt F)),
    unary main_v38 main_v39 (Host.negf : (⟨S200000x20, .f32⟩ : BufTy).Contents (Elt F) → (⟨S200000x20, .f32⟩ : BufTy).Contents (Elt F)),
    unary main_v39 main_v40 (Host.exp : (⟨S200000x20, .f32⟩ : BufTy).Contents (Elt F) → (⟨S200000x20, .f32⟩ : BufTy).Contents (Elt F)),
    nullary main_cst_5 (constant S_ .f32 0x3F800000#32),
    unary main_cst_5 main_v41 (broadcastInDim S200000x20 ![] bcast_S_S200000x20 : (⟨S_, .f32⟩ : BufTy).Contents (Elt F) → (⟨S200000x20, .f32⟩ : BufTy).Contents (Elt F)),
    binary main_v41 main_v40 main_v42 (addf : (⟨S200000x20, .f32⟩ : BufTy).Contents (Elt F) → (⟨S200000x20, .f32⟩ : BufTy).Contents (Elt F) → (⟨S200000x20, .f32⟩ : BufTy).Contents (Elt F)),
    nullary main_cst_6 (constant S_ .f32 0x3F800000#32),
    unary main_cst_6 main_v43 (broadcastInDim S200000x20 ![] bcast_S_S200000x20 : (⟨S_, .f32⟩ : BufTy).Contents (Elt F) → (⟨S200000x20, .f32⟩ : BufTy).Contents (Elt F)),
    binary main_v43 main_v42 main_v44 (Host.divf : (⟨S200000x20, .f32⟩ : BufTy).Contents (Elt F) → (⟨S200000x20, .f32⟩ : BufTy).Contents (Elt F) → (⟨S200000x20, .f32⟩ : BufTy).Contents (Elt F)),
    unary main_arg5 main_v45 ((transpose S20x20 [1, 0] · transposes_S20x20_S20x20_1_0) : (⟨S20x20, .f32⟩ : BufTy).Contents (Elt F) → (⟨S20x20, .f32⟩ : BufTy).Contents (Elt F)),
    binary main_v27 main_v45 main_v46 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg6 main_v47 (broadcastInDim S1x20 ![1] bcast_S20_S1x20_1 : (⟨S20, .f32⟩ : BufTy).Contents (Elt F) → (⟨S1x20, .f32⟩ : BufTy).Contents (Elt F)),
    unary main_v47 main_v48 (broadcastInDim S200000x20 ![0, 1] bcast_S1x20_S200000x20_0_1 : (⟨S1x20, .f32⟩ : BufTy).Contents (Elt F) → (⟨S200000x20, .f32⟩ : BufTy).Contents (Elt F)),
    binary main_v46 main_v48 main_v49 (addf : (⟨S200000x20, .f32⟩ : BufTy).Contents (Elt F) → (⟨S200000x20, .f32⟩ : BufTy).Contents (Elt F) → (⟨S200000x20, .f32⟩ : BufTy).Contents (Elt F)),
    unary main_arg7 main_v50 ((transpose S20x20 [1, 0] · transposes_S20x20_S20x20_1_0) : (⟨S20x20, .f32⟩ : BufTy).Contents (Elt F) → (⟨S20x20, .f32⟩ : BufTy).Contents (Elt F)),
    binary main_arg0 main_v50 main_v51 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg8 main_v52 (broadcastInDim S1x20 ![1] bcast_S20_S1x20_1 : (⟨S20, .f32⟩ : BufTy).Contents (Elt F) → (⟨S1x20, .f32⟩ : BufTy).Contents (Elt F)),
    unary main_v52 main_v53 (broadcastInDim S200000x20 ![0, 1] bcast_S1x20_S200000x20_0_1 : (⟨S1x20, .f32⟩ : BufTy).Contents (Elt F) → (⟨S200000x20, .f32⟩ : BufTy).Contents (Elt F)),
    binary main_v51 main_v53 main_v54 (addf : (⟨S200000x20, .f32⟩ : BufTy).Contents (Elt F) → (⟨S200000x20, .f32⟩ : BufTy).Contents (Elt F) → (⟨S200000x20, .f32⟩ : BufTy).Contents (Elt F)),
    binary main_v49 main_v54 main_v55 (addf : (⟨S200000x20, .f32⟩ : BufTy).Contents (Elt F) → (⟨S200000x20, .f32⟩ : BufTy).Contents (Elt F) → (⟨S200000x20, .f32⟩ : BufTy).Contents (Elt F)),
    unary main_v55 main_v56 (Host.negf : (⟨S200000x20, .f32⟩ : BufTy).Contents (Elt F) → (⟨S200000x20, .f32⟩ : BufTy).Contents (Elt F)),
    unary main_v56 main_v57 (Host.exp : (⟨S200000x20, .f32⟩ : BufTy).Contents (Elt F) → (⟨S200000x20, .f32⟩ : BufTy).Contents (Elt F)),
    nullary main_cst_7 (constant S_ .f32 0x3F800000#32),
    unary main_cst_7 main_v58 (broadcastInDim S200000x20 ![] bcast_S_S200000x20 : (⟨S_, .f32⟩ : BufTy).Contents (Elt F) → (⟨S200000x20, .f32⟩ : BufTy).Contents (Elt F)),
    binary main_v58 main_v57 main_v59 (addf : (⟨S200000x20, .f32⟩ : BufTy).Contents (Elt F) → (⟨S200000x20, .f32⟩ : BufTy).Contents (Elt F) → (⟨S200000x20, .f32⟩ : BufTy).Contents (Elt F)),
    nullary main_cst_8 (constant S_ .f32 0x3F800000#32),
    unary main_cst_8 main_v60 (broadcastInDim S200000x20 ![] bcast_S_S200000x20 : (⟨S_, .f32⟩ : BufTy).Contents (Elt F) → (⟨S200000x20, .f32⟩ : BufTy).Contents (Elt F)),
    binary main_v60 main_v59 main_v61 (Host.divf : (⟨S200000x20, .f32⟩ : BufTy).Contents (Elt F) → (⟨S200000x20, .f32⟩ : BufTy).Contents (Elt F) → (⟨S200000x20, .f32⟩ : BufTy).Contents (Elt F)),
    unary main_arg9 main_v62 ((transpose S20x20 [1, 0] · transposes_S20x20_S20x20_1_0) : (⟨S20x20, .f32⟩ : BufTy).Contents (Elt F) → (⟨S20x20, .f32⟩ : BufTy).Contents (Elt F)),
    binary main_v27 main_v62 main_v63 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg10 main_v64 (broadcastInDim S1x20 ![1] bcast_S20_S1x20_1 : (⟨S20, .f32⟩ : BufTy).Contents (Elt F) → (⟨S1x20, .f32⟩ : BufTy).Contents (Elt F)),
    unary main_v64 main_v65 (broadcastInDim S200000x20 ![0, 1] bcast_S1x20_S200000x20_0_1 : (⟨S1x20, .f32⟩ : BufTy).Contents (Elt F) → (⟨S200000x20, .f32⟩ : BufTy).Contents (Elt F)),
    binary main_v63 main_v65 main_v66 (addf : (⟨S200000x20, .f32⟩ : BufTy).Contents (Elt F) → (⟨S200000x20, .f32⟩ : BufTy).Contents (Elt F) → (⟨S200000x20, .f32⟩ : BufTy).Contents (Elt F)),
    binary main_v61 main_arg0 main_v67 (mulf : (⟨S200000x20, .f32⟩ : BufTy).Contents (Elt F) → (⟨S200000x20, .f32⟩ : BufTy).Contents (Elt F) → (⟨S200000x20, .f32⟩ : BufTy).Contents (Elt F)),
    unary main_arg11 main_v68 ((transpose S20x20 [1, 0] · transposes_S20x20_S20x20_1_0) : (⟨S20x20, .f32⟩ : BufTy).Contents (Elt F) → (⟨S20x20, .f32⟩ : BufTy).Contents (Elt F)),
    binary main_v67 main_v68 main_v69 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg12 main_v70 (broadcastInDim S1x20 ![1] bcast_S20_S1x20_1 : (⟨S20, .f32⟩ : BufTy).Contents (Elt F) → (⟨S1x20, .f32⟩ : BufTy).Contents (Elt F)),
    unary main_v70 main_v71 (broadcastInDim S200000x20 ![0, 1] bcast_S1x20_S200000x20_0_1 : (⟨S1x20, .f32⟩ : BufTy).Contents (Elt F) → (⟨S200000x20, .f32⟩ : BufTy).Contents (Elt F)),
    binary main_v69 main_v71 main_v72 (addf : (⟨S200000x20, .f32⟩ : BufTy).Contents (Elt F) → (⟨S200000x20, .f32⟩ : BufTy).Contents (Elt F) → (⟨S200000x20, .f32⟩ : BufTy).Contents (Elt F)),
    binary main_v66 main_v72 main_v73 (addf : (⟨S200000x20, .f32⟩ : BufTy).Contents (Elt F) → (⟨S200000x20, .f32⟩ : BufTy).Contents (Elt F) → (⟨S200000x20, .f32⟩ : BufTy).Contents (Elt F)),
    unary main_v73 main_v74 (Host.tanh : (⟨S200000x20, .f32⟩ : BufTy).Contents (Elt F) → (⟨S200000x20, .f32⟩ : BufTy).Contents (Elt F)),
    binary main_v44 main_arg0 main_v75 (mulf : (⟨S200000x20, .f32⟩ : BufTy).Contents (Elt F) → (⟨S200000x20, .f32⟩ : BufTy).Contents (Elt F) → (⟨S200000x20, .f32⟩ : BufTy).Contents (Elt F)),
    nullary main_cst_9 (constant S_ .f32 0x3F800000#32),
    unary main_cst_9 main_v76 (broadcastInDim S200000x20 ![] bcast_S_S200000x20 : (⟨S_, .f32⟩ : BufTy).Contents (Elt F) → (⟨S200000x20, .f32⟩ : BufTy).Contents (Elt F)),
    binary main_v76 main_v44 main_v77 (subf : (⟨S200000x20, .f32⟩ : BufTy).Contents (Elt F) → (⟨S200000x20, .f32⟩ : BufTy).Contents (Elt F) → (⟨S200000x20, .f32⟩ : BufTy).Contents (Elt F)),
    binary main_v77 main_v74 main_v78 (mulf : (⟨S200000x20, .f32⟩ : BufTy).Contents (Elt F) → (⟨S200000x20, .f32⟩ : BufTy).Contents (Elt F) → (⟨S200000x20, .f32⟩ : BufTy).Contents (Elt F)),
    binary main_v75 main_v78 main_v79 (addf : (⟨S200000x20, .f32⟩ : BufTy).Contents (Elt F) → (⟨S200000x20, .f32⟩ : BufTy).Contents (Elt F) → (⟨S200000x20, .f32⟩ : BufTy).Contents (Elt F)),
    unary main_v3 main_v80 (broadcastInDim S200000x1 ![0] bcast_S200000_S200000x1_0 : (⟨S200000, .i1⟩ : BufTy).Contents (Elt F) → (⟨S200000x1, .i1⟩ : BufTy).Contents (Elt F)),
    TRef.unary (TRef.of (T := ⟨S200000x1, .i1⟩) main_v80) (TRef.of (T := ⟨S200000x20, .i1⟩) main_call0_v0) (broadcastInDim S200000x20 ![0, 1] bcast_S200000x1_S200000x20_0_1),
    TRef.ternary (TRef.of (T := ⟨S200000x20, .i1⟩) main_call0_v0) (TRef.of (T := ⟨S200000x20, .f32⟩) main_v79) (TRef.of (T := ⟨S200000x20, .f32⟩) main_arg0) (TRef.of (T := ⟨S200000x20, .f32⟩) main_v81) select ]

/-- The second iteration's 95 operations. -/
abbrev opsB : List (HloOp τ sig (Elt F)) :=
  [ nullary main_c_10 (constantI S_ 32 1#32),
    unary main_c_10 main_v82 (broadcastInDim S200000 ![] bcast_S_S200000 : (⟨S_, .i32⟩ : BufTy).Contents (Elt F) → (⟨S200000, .i32⟩ : BufTy).Contents (Elt F)),
    binary main_arg13 main_v82 main_v83 (addi : (⟨S200000, .i32⟩ : BufTy).Contents (Elt F) → (⟨S200000, .i32⟩ : BufTy).Contents (Elt F) → (⟨S200000, .i32⟩ : BufTy).Contents (Elt F)),
    nullary main_c_11 (constantI S_ 32 3#32),
    unary main_c_11 main_v84 (broadcastInDim S200000 ![] bcast_S_S200000 : (⟨S_, .i32⟩ : BufTy).Contents (Elt F) → (⟨S200000, .i32⟩ : BufTy).Contents (Elt F)),
    binary main_v83 main_v84 main_v85 (cmpi .sle : (⟨S200000, .i32⟩ : BufTy).Contents (Elt F) → (⟨S200000, .i32⟩ : BufTy).Contents (Elt F) → (⟨S200000, .i1⟩ : BufTy).Contents (Elt F)),
    unary main_v85 main_v86 (uitofp .f32 : (⟨S200000, .i1⟩ : BufTy).Contents (Elt F) → (⟨S200000, .f32⟩ : BufTy).Contents (Elt F)),
    nullary main_c_12 (constantI S_ 32 0#32),
    unary main_c_12 main_v87 (broadcastInDim S6400000 ![] bcast_S_S6400000 : (⟨S_, .i32⟩ : BufTy).Contents (Elt F) → (⟨S6400000, .i32⟩ : BufTy).Contents (Elt F)),
    binary main_arg14 main_v87 main_v88 (cmpi .slt : (⟨S6400000, .i32⟩ : BufTy).Contents (Elt F) → (⟨S6400000, .i32⟩ : BufTy).Contents (Elt F) → (⟨S6400000, .i1⟩ : BufTy).Contents (Elt F)),
    nullary main_c_13 (constantI S_ 32 200000#32),
    unary main_c_13 main_v89 (broadcastInDim S6400000 ![] bcast_S_S6400000 : (⟨S_, .i32⟩ : BufTy).Contents (Elt F) → (⟨S6400000, .i32⟩ : BufTy).Contents (Elt F)),
    binary main_arg14 main_v89 main_v90 (addi : (⟨S6400000, .i32⟩ : BufTy).Contents (Elt F) → (⟨S6400000, .i32⟩ : BufTy).Contents (Elt F) → (⟨S6400000, .i32⟩ : BufTy).Contents (Elt F)),
    ternary main_v88 main_v90 main_arg14 main_v91 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v91 main_v92 (broadcastInDim S6400000x1 ![0] bcast_S6400000_S6400000x1_0 : (⟨S6400000, .i32⟩ : BufTy).Contents (Elt F) → (⟨S6400000x1, .i32⟩ : BufTy).Contents (Elt F)),
    binary main_v81 main_v92 main_v93 ((fun x i => Host.gather gather_S200000x20_S6400000x1_S6400000x20_1_0_n_n_0_1_120 x i) : (⟨S200000x20, .f32⟩ : BufTy).Contents (Elt F) → (⟨S6400000x1, .i32⟩ : BufTy).Contents (Elt F) → (⟨S6400000x20, .f32⟩ : BufTy).Contents (Elt F)),
    nullary main_c_14 (constantI S_ 32 0#32),
    unary main_c_14 main_v94 (broadcastInDim S6400000 ![] bcast_S_S6400000 : (⟨S_, .i32⟩ : BufTy).Contents (Elt F) → (⟨S6400000, .i32⟩ : BufTy).Contents (Elt F)),
    binary main_arg14 main_v94 main_v95 (cmpi .slt : (⟨S6400000, .i32⟩ : BufTy).Contents (Elt F) → (⟨S6400000, .i32⟩ : BufTy).Contents (Elt F) → (⟨S6400000, .i1⟩ : BufTy).Contents (Elt F)),
    nullary main_c_15 (constantI S_ 32 200000#32),
    unary main_c_15 main_v96 (broadcastInDim S6400000 ![] bcast_S_S6400000 : (⟨S_, .i32⟩ : BufTy).Contents (Elt F) → (⟨S6400000, .i32⟩ : BufTy).Contents (Elt F)),
    binary main_arg14 main_v96 main_v97 (addi : (⟨S6400000, .i32⟩ : BufTy).Contents (Elt F) → (⟨S6400000, .i32⟩ : BufTy).Contents (Elt F) → (⟨S6400000, .i32⟩ : BufTy).Contents (Elt F)),
    ternary main_v95 main_v97 main_arg14 main_v98 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v98 main_v99 (broadcastInDim S6400000x1 ![0] bcast_S6400000_S6400000x1_0 : (⟨S6400000, .i32⟩ : BufTy).Contents (Elt F) → (⟨S6400000x1, .i32⟩ : BufTy).Contents (Elt F)),
    binary main_v86 main_v99 main_v100 ((fun x i => Host.gather gather_S200000_S6400000x1_S6400000_n_0_n_n_0_1_1 x i) : (⟨S200000, .f32⟩ : BufTy).Contents (Elt F) → (⟨S6400000x1, .i32⟩ : BufTy).Contents (Elt F) → (⟨S6400000, .f32⟩ : BufTy).Contents (Elt F)),
    unary main_v100 main_v101 (broadcastInDim S6400000x1 ![0] bcast_S6400000_S6400000x1_0 : (⟨S6400000, .f32⟩ : BufTy).Contents (Elt F) → (⟨S6400000x1, .f32⟩ : BufTy).Contents (Elt F)),
    unary main_v101 main_v102 (broadcastInDim S6400000x20 ![0, 1] bcast_S6400000x1_S6400000x20_0_1 : (⟨S6400000x1, .f32⟩ : BufTy).Contents (Elt F) → (⟨S6400000x20, .f32⟩ : BufTy).Contents (Elt F)),
    binary main_v93 main_v102 main_v103 (mulf : (⟨S6400000x20, .f32⟩ : BufTy).Contents (Elt F) → (⟨S6400000x20, .f32⟩ : BufTy).Contents (Elt F) → (⟨S6400000x20, .f32⟩ : BufTy).Contents (Elt F)),
    nullary main_cst_16 (constant S_ .f32 0x00000000#32),
    unary main_cst_16 main_v104 (broadcastInDim S200000x20 ![] bcast_S_S200000x20 : (⟨S_, .f32⟩ : BufTy).Contents (Elt F) → (⟨S200000x20, .f32⟩ : BufTy).Contents (Elt F)),
    unary main_arg15 main_v105 (broadcastInDim S6400000x1 ![0] bcast_S6400000_S6400000x1_0 : (⟨S6400000, .i32⟩ : BufTy).Contents (Elt F) → (⟨S6400000x1, .i32⟩ : BufTy).Contents (Elt F)),
    ternary main_v104 main_v105 main_v103 main_v106 ((fun x i u => Host.scatterAdd scatter_S200000x20_S6400000x1_S6400000x20_1_0_0_1 x i u) : (⟨S200000x20, .f32⟩ : BufTy).Contents (Elt F) → (⟨S6400000x1, .i32⟩ : BufTy).Contents (Elt F) → (⟨S6400000x20, .f32⟩ : BufTy).Contents (Elt F) → (⟨S200000x20, .f32⟩ : BufTy).Contents (Elt F)),
    unary main_v86 main_v107 (broadcastInDim S200000x1 ![0] bcast_S200000_S200000x1_0 : (⟨S200000, .f32⟩ : BufTy).Contents (Elt F) → (⟨S200000x1, .f32⟩ : BufTy).Contents (Elt F)),
    unary main_v107 main_v108 (broadcastInDim S200000x20 ![0, 1] bcast_S200000x1_S200000x20_0_1 : (⟨S200000x1, .f32⟩ : BufTy).Contents (Elt F) → (⟨S200000x20, .f32⟩ : BufTy).Contents (Elt F)),
    binary main_v106 main_v108 main_v109 (mulf : (⟨S200000x20, .f32⟩ : BufTy).Contents (Elt F) → (⟨S200000x20, .f32⟩ : BufTy).Contents (Elt F) → (⟨S200000x20, .f32⟩ : BufTy).Contents (Elt F)),
    unary main_arg1 main_v110 ((transpose S20x20 [1, 0] · transposes_S20x20_S20x20_1_0) : (⟨S20x20, .f32⟩ : BufTy).Contents (Elt F) → (⟨S20x20, .f32⟩ : BufTy).Contents (Elt F)),
    binary main_v109 main_v110 main_v111 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg2 main_v112 (broadcastInDim S1x20 ![1] bcast_S20_S1x20_1 : (⟨S20, .f32⟩ : BufTy).Contents (Elt F) → (⟨S1x20, .f32⟩ : BufTy).Contents (Elt F)),
    unary main_v112 main_v113 (broadcastInDim S200000x20 ![0, 1] bcast_S1x20_S200000x20_0_1 : (⟨S1x20, .f32⟩ : BufTy).Contents (Elt F) → (⟨S200000x20, .f32⟩ : BufTy).Contents (Elt F)),
    binary main_v111 main_v113 main_v114 (addf : (⟨S200000x20, .f32⟩ : BufTy).Contents (Elt F) → (⟨S200000x20, .f32⟩ : BufTy).Contents (Elt F) → (⟨S200000x20, .f32⟩ : BufTy).Contents (Elt F)),
    unary main_arg3 main_v115 ((transpose S20x20 [1, 0] · transposes_S20x20_S20x20_1_0) : (⟨S20x20, .f32⟩ : BufTy).Contents (Elt F) → (⟨S20x20, .f32⟩ : BufTy).Contents (Elt F)),
    binary main_v81 main_v115 main_v116 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg4 main_v117 (broadcastInDim S1x20 ![1] bcast_S20_S1x20_1 : (⟨S20, .f32⟩ : BufTy).Contents (Elt F) → (⟨S1x20, .f32⟩ : BufTy).Contents (Elt F)),
    unary main_v117 main_v118 (broadcastInDim S200000x20 ![0, 1] bcast_S1x20_S200000x20_0_1 : (⟨S1x20, .f32⟩ : BufTy).Contents (Elt F) → (⟨S200000x20, .f32⟩ : BufTy).Contents (Elt F)),
    binary main_v116 main_v118 main_v119 (addf : (⟨S200000x20, .f32⟩ : BufTy).Contents (Elt F) → (⟨S200000x20, .f32⟩ : BufTy).Contents (Elt F) → (⟨S200000x20, .f32⟩ : BufTy).Contents (Elt F)),
    binary main_v114 main_v119 main_v120 (addf : (⟨S200000x20, .f32⟩ : BufTy).Contents (Elt F) → (⟨S200000x20, .f32⟩ : BufTy).Contents (Elt F) → (⟨S200000x20, .f32⟩ : BufTy).Contents (Elt F)),
    unary main_v120 main_v121 (Host.negf : (⟨S200000x20, .f32⟩ : BufTy).Contents (Elt F) → (⟨S200000x20, .f32⟩ : BufTy).Contents (Elt F)),
    unary main_v121 main_v122 (Host.exp : (⟨S200000x20, .f32⟩ : BufTy).Contents (Elt F) → (⟨S200000x20, .f32⟩ : BufTy).Contents (Elt F)),
    nullary main_cst_17 (constant S_ .f32 0x3F800000#32),
    unary main_cst_17 main_v123 (broadcastInDim S200000x20 ![] bcast_S_S200000x20 : (⟨S_, .f32⟩ : BufTy).Contents (Elt F) → (⟨S200000x20, .f32⟩ : BufTy).Contents (Elt F)),
    binary main_v123 main_v122 main_v124 (addf : (⟨S200000x20, .f32⟩ : BufTy).Contents (Elt F) → (⟨S200000x20, .f32⟩ : BufTy).Contents (Elt F) → (⟨S200000x20, .f32⟩ : BufTy).Contents (Elt F)),
    nullary main_cst_18 (constant S_ .f32 0x3F800000#32),
    unary main_cst_18 main_v125 (broadcastInDim S200000x20 ![] bcast_S_S200000x20 : (⟨S_, .f32⟩ : BufTy).Contents (Elt F) → (⟨S200000x20, .f32⟩ : BufTy).Contents (Elt F)),
    binary main_v125 main_v124 main_v126 (Host.divf : (⟨S200000x20, .f32⟩ : BufTy).Contents (Elt F) → (⟨S200000x20, .f32⟩ : BufTy).Contents (Elt F) → (⟨S200000x20, .f32⟩ : BufTy).Contents (Elt F)),
    unary main_arg5 main_v127 ((transpose S20x20 [1, 0] · transposes_S20x20_S20x20_1_0) : (⟨S20x20, .f32⟩ : BufTy).Contents (Elt F) → (⟨S20x20, .f32⟩ : BufTy).Contents (Elt F)),
    binary main_v109 main_v127 main_v128 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg6 main_v129 (broadcastInDim S1x20 ![1] bcast_S20_S1x20_1 : (⟨S20, .f32⟩ : BufTy).Contents (Elt F) → (⟨S1x20, .f32⟩ : BufTy).Contents (Elt F)),
    unary main_v129 main_v130 (broadcastInDim S200000x20 ![0, 1] bcast_S1x20_S200000x20_0_1 : (⟨S1x20, .f32⟩ : BufTy).Contents (Elt F) → (⟨S200000x20, .f32⟩ : BufTy).Contents (Elt F)),
    binary main_v128 main_v130 main_v131 (addf : (⟨S200000x20, .f32⟩ : BufTy).Contents (Elt F) → (⟨S200000x20, .f32⟩ : BufTy).Contents (Elt F) → (⟨S200000x20, .f32⟩ : BufTy).Contents (Elt F)),
    unary main_arg7 main_v132 ((transpose S20x20 [1, 0] · transposes_S20x20_S20x20_1_0) : (⟨S20x20, .f32⟩ : BufTy).Contents (Elt F) → (⟨S20x20, .f32⟩ : BufTy).Contents (Elt F)),
    binary main_v81 main_v132 main_v133 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg8 main_v134 (broadcastInDim S1x20 ![1] bcast_S20_S1x20_1 : (⟨S20, .f32⟩ : BufTy).Contents (Elt F) → (⟨S1x20, .f32⟩ : BufTy).Contents (Elt F)),
    unary main_v134 main_v135 (broadcastInDim S200000x20 ![0, 1] bcast_S1x20_S200000x20_0_1 : (⟨S1x20, .f32⟩ : BufTy).Contents (Elt F) → (⟨S200000x20, .f32⟩ : BufTy).Contents (Elt F)),
    binary main_v133 main_v135 main_v136 (addf : (⟨S200000x20, .f32⟩ : BufTy).Contents (Elt F) → (⟨S200000x20, .f32⟩ : BufTy).Contents (Elt F) → (⟨S200000x20, .f32⟩ : BufTy).Contents (Elt F)),
    binary main_v131 main_v136 main_v137 (addf : (⟨S200000x20, .f32⟩ : BufTy).Contents (Elt F) → (⟨S200000x20, .f32⟩ : BufTy).Contents (Elt F) → (⟨S200000x20, .f32⟩ : BufTy).Contents (Elt F)),
    unary main_v137 main_v138 (Host.negf : (⟨S200000x20, .f32⟩ : BufTy).Contents (Elt F) → (⟨S200000x20, .f32⟩ : BufTy).Contents (Elt F)),
    unary main_v138 main_v139 (Host.exp : (⟨S200000x20, .f32⟩ : BufTy).Contents (Elt F) → (⟨S200000x20, .f32⟩ : BufTy).Contents (Elt F)),
    nullary main_cst_19 (constant S_ .f32 0x3F800000#32),
    unary main_cst_19 main_v140 (broadcastInDim S200000x20 ![] bcast_S_S200000x20 : (⟨S_, .f32⟩ : BufTy).Contents (Elt F) → (⟨S200000x20, .f32⟩ : BufTy).Contents (Elt F)),
    binary main_v140 main_v139 main_v141 (addf : (⟨S200000x20, .f32⟩ : BufTy).Contents (Elt F) → (⟨S200000x20, .f32⟩ : BufTy).Contents (Elt F) → (⟨S200000x20, .f32⟩ : BufTy).Contents (Elt F)),
    nullary main_cst_20 (constant S_ .f32 0x3F800000#32),
    unary main_cst_20 main_v142 (broadcastInDim S200000x20 ![] bcast_S_S200000x20 : (⟨S_, .f32⟩ : BufTy).Contents (Elt F) → (⟨S200000x20, .f32⟩ : BufTy).Contents (Elt F)),
    binary main_v142 main_v141 main_v143 (Host.divf : (⟨S200000x20, .f32⟩ : BufTy).Contents (Elt F) → (⟨S200000x20, .f32⟩ : BufTy).Contents (Elt F) → (⟨S200000x20, .f32⟩ : BufTy).Contents (Elt F)),
    unary main_arg9 main_v144 ((transpose S20x20 [1, 0] · transposes_S20x20_S20x20_1_0) : (⟨S20x20, .f32⟩ : BufTy).Contents (Elt F) → (⟨S20x20, .f32⟩ : BufTy).Contents (Elt F)),
    binary main_v109 main_v144 main_v145 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg10 main_v146 (broadcastInDim S1x20 ![1] bcast_S20_S1x20_1 : (⟨S20, .f32⟩ : BufTy).Contents (Elt F) → (⟨S1x20, .f32⟩ : BufTy).Contents (Elt F)),
    unary main_v146 main_v147 (broadcastInDim S200000x20 ![0, 1] bcast_S1x20_S200000x20_0_1 : (⟨S1x20, .f32⟩ : BufTy).Contents (Elt F) → (⟨S200000x20, .f32⟩ : BufTy).Contents (Elt F)),
    binary main_v145 main_v147 main_v148 (addf : (⟨S200000x20, .f32⟩ : BufTy).Contents (Elt F) → (⟨S200000x20, .f32⟩ : BufTy).Contents (Elt F) → (⟨S200000x20, .f32⟩ : BufTy).Contents (Elt F)),
    binary main_v143 main_v81 main_v149 (mulf : (⟨S200000x20, .f32⟩ : BufTy).Contents (Elt F) → (⟨S200000x20, .f32⟩ : BufTy).Contents (Elt F) → (⟨S200000x20, .f32⟩ : BufTy).Contents (Elt F)),
    unary main_arg11 main_v150 ((transpose S20x20 [1, 0] · transposes_S20x20_S20x20_1_0) : (⟨S20x20, .f32⟩ : BufTy).Contents (Elt F) → (⟨S20x20, .f32⟩ : BufTy).Contents (Elt F)),
    binary main_v149 main_v150 main_v151 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg12 main_v152 (broadcastInDim S1x20 ![1] bcast_S20_S1x20_1 : (⟨S20, .f32⟩ : BufTy).Contents (Elt F) → (⟨S1x20, .f32⟩ : BufTy).Contents (Elt F)),
    unary main_v152 main_v153 (broadcastInDim S200000x20 ![0, 1] bcast_S1x20_S200000x20_0_1 : (⟨S1x20, .f32⟩ : BufTy).Contents (Elt F) → (⟨S200000x20, .f32⟩ : BufTy).Contents (Elt F)),
    binary main_v151 main_v153 main_v154 (addf : (⟨S200000x20, .f32⟩ : BufTy).Contents (Elt F) → (⟨S200000x20, .f32⟩ : BufTy).Contents (Elt F) → (⟨S200000x20, .f32⟩ : BufTy).Contents (Elt F)),
    binary main_v148 main_v154 main_v155 (addf : (⟨S200000x20, .f32⟩ : BufTy).Contents (Elt F) → (⟨S200000x20, .f32⟩ : BufTy).Contents (Elt F) → (⟨S200000x20, .f32⟩ : BufTy).Contents (Elt F)),
    unary main_v155 main_v156 (Host.tanh : (⟨S200000x20, .f32⟩ : BufTy).Contents (Elt F) → (⟨S200000x20, .f32⟩ : BufTy).Contents (Elt F)),
    binary main_v126 main_v81 main_v157 (mulf : (⟨S200000x20, .f32⟩ : BufTy).Contents (Elt F) → (⟨S200000x20, .f32⟩ : BufTy).Contents (Elt F) → (⟨S200000x20, .f32⟩ : BufTy).Contents (Elt F)),
    nullary main_cst_21 (constant S_ .f32 0x3F800000#32),
    unary main_cst_21 main_v158 (broadcastInDim S200000x20 ![] bcast_S_S200000x20 : (⟨S_, .f32⟩ : BufTy).Contents (Elt F) → (⟨S200000x20, .f32⟩ : BufTy).Contents (Elt F)),
    binary main_v158 main_v126 main_v159 (subf : (⟨S200000x20, .f32⟩ : BufTy).Contents (Elt F) → (⟨S200000x20, .f32⟩ : BufTy).Contents (Elt F) → (⟨S200000x20, .f32⟩ : BufTy).Contents (Elt F)),
    binary main_v159 main_v156 main_v160 (mulf : (⟨S200000x20, .f32⟩ : BufTy).Contents (Elt F) → (⟨S200000x20, .f32⟩ : BufTy).Contents (Elt F) → (⟨S200000x20, .f32⟩ : BufTy).Contents (Elt F)),
    binary main_v157 main_v160 main_v161 (addf : (⟨S200000x20, .f32⟩ : BufTy).Contents (Elt F) → (⟨S200000x20, .f32⟩ : BufTy).Contents (Elt F) → (⟨S200000x20, .f32⟩ : BufTy).Contents (Elt F)),
    unary main_v85 main_v162 (broadcastInDim S200000x1 ![0] bcast_S200000_S200000x1_0 : (⟨S200000, .i1⟩ : BufTy).Contents (Elt F) → (⟨S200000x1, .i1⟩ : BufTy).Contents (Elt F)),
    TRef.unary (TRef.of (T := ⟨S200000x1, .i1⟩) main_v162) (TRef.of (T := ⟨S200000x20, .i1⟩) main_call1_v0) (broadcastInDim S200000x20 ![0, 1] bcast_S200000x1_S200000x20_0_1),
    TRef.ternary (TRef.of (T := ⟨S200000x20, .i1⟩) main_call1_v0) (TRef.of (T := ⟨S200000x20, .f32⟩) main_v161) (TRef.of (T := ⟨S200000x20, .f32⟩) main_v81) (TRef.of (T := ⟨S200000x20, .f32⟩) main_v163) select ]

/-- The third iteration's 100 operations, the final zeroing included. -/
abbrev opsC : List (HloOp τ sig (Elt F)) :=
  [ nullary main_c_22 (constantI S_ 32 2#32),
    unary main_c_22 main_v164 (broadcastInDim S200000 ![] bcast_S_S200000 : (⟨S_, .i32⟩ : BufTy).Contents (Elt F) → (⟨S200000, .i32⟩ : BufTy).Contents (Elt F)),
    binary main_arg13 main_v164 main_v165 (addi : (⟨S200000, .i32⟩ : BufTy).Contents (Elt F) → (⟨S200000, .i32⟩ : BufTy).Contents (Elt F) → (⟨S200000, .i32⟩ : BufTy).Contents (Elt F)),
    nullary main_c_23 (constantI S_ 32 3#32),
    unary main_c_23 main_v166 (broadcastInDim S200000 ![] bcast_S_S200000 : (⟨S_, .i32⟩ : BufTy).Contents (Elt F) → (⟨S200000, .i32⟩ : BufTy).Contents (Elt F)),
    binary main_v165 main_v166 main_v167 (cmpi .sle : (⟨S200000, .i32⟩ : BufTy).Contents (Elt F) → (⟨S200000, .i32⟩ : BufTy).Contents (Elt F) → (⟨S200000, .i1⟩ : BufTy).Contents (Elt F)),
    unary main_v167 main_v168 (uitofp .f32 : (⟨S200000, .i1⟩ : BufTy).Contents (Elt F) → (⟨S200000, .f32⟩ : BufTy).Contents (Elt F)),
    nullary main_c_24 (constantI S_ 32 0#32),
    unary main_c_24 main_v169 (broadcastInDim S6400000 ![] bcast_S_S6400000 : (⟨S_, .i32⟩ : BufTy).Contents (Elt F) → (⟨S6400000, .i32⟩ : BufTy).Contents (Elt F)),
    binary main_arg14 main_v169 main_v170 (cmpi .slt : (⟨S6400000, .i32⟩ : BufTy).Contents (Elt F) → (⟨S6400000, .i32⟩ : BufTy).Contents (Elt F) → (⟨S6400000, .i1⟩ : BufTy).Contents (Elt F)),
    nullary main_c_25 (constantI S_ 32 200000#32),
    unary main_c_25 main_v171 (broadcastInDim S6400000 ![] bcast_S_S6400000 : (⟨S_, .i32⟩ : BufTy).Contents (Elt F) → (⟨S6400000, .i32⟩ : BufTy).Contents (Elt F)),
    binary main_arg14 main_v171 main_v172 (addi : (⟨S6400000, .i32⟩ : BufTy).Contents (Elt F) → (⟨S6400000, .i32⟩ : BufTy).Contents (Elt F) → (⟨S6400000, .i32⟩ : BufTy).Contents (Elt F)),
    ternary main_v170 main_v172 main_arg14 main_v173 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v173 main_v174 (broadcastInDim S6400000x1 ![0] bcast_S6400000_S6400000x1_0 : (⟨S6400000, .i32⟩ : BufTy).Contents (Elt F) → (⟨S6400000x1, .i32⟩ : BufTy).Contents (Elt F)),
    binary main_v163 main_v174 main_v175 ((fun x i => Host.gather gather_S200000x20_S6400000x1_S6400000x20_1_0_n_n_0_1_120 x i) : (⟨S200000x20, .f32⟩ : BufTy).Contents (Elt F) → (⟨S6400000x1, .i32⟩ : BufTy).Contents (Elt F) → (⟨S6400000x20, .f32⟩ : BufTy).Contents (Elt F)),
    nullary main_c_26 (constantI S_ 32 0#32),
    unary main_c_26 main_v176 (broadcastInDim S6400000 ![] bcast_S_S6400000 : (⟨S_, .i32⟩ : BufTy).Contents (Elt F) → (⟨S6400000, .i32⟩ : BufTy).Contents (Elt F)),
    binary main_arg14 main_v176 main_v177 (cmpi .slt : (⟨S6400000, .i32⟩ : BufTy).Contents (Elt F) → (⟨S6400000, .i32⟩ : BufTy).Contents (Elt F) → (⟨S6400000, .i1⟩ : BufTy).Contents (Elt F)),
    nullary main_c_27 (constantI S_ 32 200000#32),
    unary main_c_27 main_v178 (broadcastInDim S6400000 ![] bcast_S_S6400000 : (⟨S_, .i32⟩ : BufTy).Contents (Elt F) → (⟨S6400000, .i32⟩ : BufTy).Contents (Elt F)),
    binary main_arg14 main_v178 main_v179 (addi : (⟨S6400000, .i32⟩ : BufTy).Contents (Elt F) → (⟨S6400000, .i32⟩ : BufTy).Contents (Elt F) → (⟨S6400000, .i32⟩ : BufTy).Contents (Elt F)),
    ternary main_v177 main_v179 main_arg14 main_v180 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v180 main_v181 (broadcastInDim S6400000x1 ![0] bcast_S6400000_S6400000x1_0 : (⟨S6400000, .i32⟩ : BufTy).Contents (Elt F) → (⟨S6400000x1, .i32⟩ : BufTy).Contents (Elt F)),
    binary main_v168 main_v181 main_v182 ((fun x i => Host.gather gather_S200000_S6400000x1_S6400000_n_0_n_n_0_1_1 x i) : (⟨S200000, .f32⟩ : BufTy).Contents (Elt F) → (⟨S6400000x1, .i32⟩ : BufTy).Contents (Elt F) → (⟨S6400000, .f32⟩ : BufTy).Contents (Elt F)),
    unary main_v182 main_v183 (broadcastInDim S6400000x1 ![0] bcast_S6400000_S6400000x1_0 : (⟨S6400000, .f32⟩ : BufTy).Contents (Elt F) → (⟨S6400000x1, .f32⟩ : BufTy).Contents (Elt F)),
    unary main_v183 main_v184 (broadcastInDim S6400000x20 ![0, 1] bcast_S6400000x1_S6400000x20_0_1 : (⟨S6400000x1, .f32⟩ : BufTy).Contents (Elt F) → (⟨S6400000x20, .f32⟩ : BufTy).Contents (Elt F)),
    binary main_v175 main_v184 main_v185 (mulf : (⟨S6400000x20, .f32⟩ : BufTy).Contents (Elt F) → (⟨S6400000x20, .f32⟩ : BufTy).Contents (Elt F) → (⟨S6400000x20, .f32⟩ : BufTy).Contents (Elt F)),
    nullary main_cst_28 (constant S_ .f32 0x00000000#32),
    unary main_cst_28 main_v186 (broadcastInDim S200000x20 ![] bcast_S_S200000x20 : (⟨S_, .f32⟩ : BufTy).Contents (Elt F) → (⟨S200000x20, .f32⟩ : BufTy).Contents (Elt F)),
    unary main_arg15 main_v187 (broadcastInDim S6400000x1 ![0] bcast_S6400000_S6400000x1_0 : (⟨S6400000, .i32⟩ : BufTy).Contents (Elt F) → (⟨S6400000x1, .i32⟩ : BufTy).Contents (Elt F)),
    ternary main_v186 main_v187 main_v185 main_v188 ((fun x i u => Host.scatterAdd scatter_S200000x20_S6400000x1_S6400000x20_1_0_0_1 x i u) : (⟨S200000x20, .f32⟩ : BufTy).Contents (Elt F) → (⟨S6400000x1, .i32⟩ : BufTy).Contents (Elt F) → (⟨S6400000x20, .f32⟩ : BufTy).Contents (Elt F) → (⟨S200000x20, .f32⟩ : BufTy).Contents (Elt F)),
    unary main_v168 main_v189 (broadcastInDim S200000x1 ![0] bcast_S200000_S200000x1_0 : (⟨S200000, .f32⟩ : BufTy).Contents (Elt F) → (⟨S200000x1, .f32⟩ : BufTy).Contents (Elt F)),
    unary main_v189 main_v190 (broadcastInDim S200000x20 ![0, 1] bcast_S200000x1_S200000x20_0_1 : (⟨S200000x1, .f32⟩ : BufTy).Contents (Elt F) → (⟨S200000x20, .f32⟩ : BufTy).Contents (Elt F)),
    binary main_v188 main_v190 main_v191 (mulf : (⟨S200000x20, .f32⟩ : BufTy).Contents (Elt F) → (⟨S200000x20, .f32⟩ : BufTy).Contents (Elt F) → (⟨S200000x20, .f32⟩ : BufTy).Contents (Elt F)),
    unary main_arg1 main_v192 ((transpose S20x20 [1, 0] · transposes_S20x20_S20x20_1_0) : (⟨S20x20, .f32⟩ : BufTy).Contents (Elt F) → (⟨S20x20, .f32⟩ : BufTy).Contents (Elt F)),
    binary main_v191 main_v192 main_v193 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg2 main_v194 (broadcastInDim S1x20 ![1] bcast_S20_S1x20_1 : (⟨S20, .f32⟩ : BufTy).Contents (Elt F) → (⟨S1x20, .f32⟩ : BufTy).Contents (Elt F)),
    unary main_v194 main_v195 (broadcastInDim S200000x20 ![0, 1] bcast_S1x20_S200000x20_0_1 : (⟨S1x20, .f32⟩ : BufTy).Contents (Elt F) → (⟨S200000x20, .f32⟩ : BufTy).Contents (Elt F)),
    binary main_v193 main_v195 main_v196 (addf : (⟨S200000x20, .f32⟩ : BufTy).Contents (Elt F) → (⟨S200000x20, .f32⟩ : BufTy).Contents (Elt F) → (⟨S200000x20, .f32⟩ : BufTy).Contents (Elt F)),
    unary main_arg3 main_v197 ((transpose S20x20 [1, 0] · transposes_S20x20_S20x20_1_0) : (⟨S20x20, .f32⟩ : BufTy).Contents (Elt F) → (⟨S20x20, .f32⟩ : BufTy).Contents (Elt F)),
    binary main_v163 main_v197 main_v198 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg4 main_v199 (broadcastInDim S1x20 ![1] bcast_S20_S1x20_1 : (⟨S20, .f32⟩ : BufTy).Contents (Elt F) → (⟨S1x20, .f32⟩ : BufTy).Contents (Elt F)),
    unary main_v199 main_v200 (broadcastInDim S200000x20 ![0, 1] bcast_S1x20_S200000x20_0_1 : (⟨S1x20, .f32⟩ : BufTy).Contents (Elt F) → (⟨S200000x20, .f32⟩ : BufTy).Contents (Elt F)),
    binary main_v198 main_v200 main_v201 (addf : (⟨S200000x20, .f32⟩ : BufTy).Contents (Elt F) → (⟨S200000x20, .f32⟩ : BufTy).Contents (Elt F) → (⟨S200000x20, .f32⟩ : BufTy).Contents (Elt F)),
    binary main_v196 main_v201 main_v202 (addf : (⟨S200000x20, .f32⟩ : BufTy).Contents (Elt F) → (⟨S200000x20, .f32⟩ : BufTy).Contents (Elt F) → (⟨S200000x20, .f32⟩ : BufTy).Contents (Elt F)),
    unary main_v202 main_v203 (Host.negf : (⟨S200000x20, .f32⟩ : BufTy).Contents (Elt F) → (⟨S200000x20, .f32⟩ : BufTy).Contents (Elt F)),
    unary main_v203 main_v204 (Host.exp : (⟨S200000x20, .f32⟩ : BufTy).Contents (Elt F) → (⟨S200000x20, .f32⟩ : BufTy).Contents (Elt F)),
    nullary main_cst_29 (constant S_ .f32 0x3F800000#32),
    unary main_cst_29 main_v205 (broadcastInDim S200000x20 ![] bcast_S_S200000x20 : (⟨S_, .f32⟩ : BufTy).Contents (Elt F) → (⟨S200000x20, .f32⟩ : BufTy).Contents (Elt F)),
    binary main_v205 main_v204 main_v206 (addf : (⟨S200000x20, .f32⟩ : BufTy).Contents (Elt F) → (⟨S200000x20, .f32⟩ : BufTy).Contents (Elt F) → (⟨S200000x20, .f32⟩ : BufTy).Contents (Elt F)),
    nullary main_cst_30 (constant S_ .f32 0x3F800000#32),
    unary main_cst_30 main_v207 (broadcastInDim S200000x20 ![] bcast_S_S200000x20 : (⟨S_, .f32⟩ : BufTy).Contents (Elt F) → (⟨S200000x20, .f32⟩ : BufTy).Contents (Elt F)),
    binary main_v207 main_v206 main_v208 (Host.divf : (⟨S200000x20, .f32⟩ : BufTy).Contents (Elt F) → (⟨S200000x20, .f32⟩ : BufTy).Contents (Elt F) → (⟨S200000x20, .f32⟩ : BufTy).Contents (Elt F)),
    unary main_arg5 main_v209 ((transpose S20x20 [1, 0] · transposes_S20x20_S20x20_1_0) : (⟨S20x20, .f32⟩ : BufTy).Contents (Elt F) → (⟨S20x20, .f32⟩ : BufTy).Contents (Elt F)),
    binary main_v191 main_v209 main_v210 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg6 main_v211 (broadcastInDim S1x20 ![1] bcast_S20_S1x20_1 : (⟨S20, .f32⟩ : BufTy).Contents (Elt F) → (⟨S1x20, .f32⟩ : BufTy).Contents (Elt F)),
    unary main_v211 main_v212 (broadcastInDim S200000x20 ![0, 1] bcast_S1x20_S200000x20_0_1 : (⟨S1x20, .f32⟩ : BufTy).Contents (Elt F) → (⟨S200000x20, .f32⟩ : BufTy).Contents (Elt F)),
    binary main_v210 main_v212 main_v213 (addf : (⟨S200000x20, .f32⟩ : BufTy).Contents (Elt F) → (⟨S200000x20, .f32⟩ : BufTy).Contents (Elt F) → (⟨S200000x20, .f32⟩ : BufTy).Contents (Elt F)),
    unary main_arg7 main_v214 ((transpose S20x20 [1, 0] · transposes_S20x20_S20x20_1_0) : (⟨S20x20, .f32⟩ : BufTy).Contents (Elt F) → (⟨S20x20, .f32⟩ : BufTy).Contents (Elt F)),
    binary main_v163 main_v214 main_v215 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg8 main_v216 (broadcastInDim S1x20 ![1] bcast_S20_S1x20_1 : (⟨S20, .f32⟩ : BufTy).Contents (Elt F) → (⟨S1x20, .f32⟩ : BufTy).Contents (Elt F)),
    unary main_v216 main_v217 (broadcastInDim S200000x20 ![0, 1] bcast_S1x20_S200000x20_0_1 : (⟨S1x20, .f32⟩ : BufTy).Contents (Elt F) → (⟨S200000x20, .f32⟩ : BufTy).Contents (Elt F)),
    binary main_v215 main_v217 main_v218 (addf : (⟨S200000x20, .f32⟩ : BufTy).Contents (Elt F) → (⟨S200000x20, .f32⟩ : BufTy).Contents (Elt F) → (⟨S200000x20, .f32⟩ : BufTy).Contents (Elt F)),
    binary main_v213 main_v218 main_v219 (addf : (⟨S200000x20, .f32⟩ : BufTy).Contents (Elt F) → (⟨S200000x20, .f32⟩ : BufTy).Contents (Elt F) → (⟨S200000x20, .f32⟩ : BufTy).Contents (Elt F)),
    unary main_v219 main_v220 (Host.negf : (⟨S200000x20, .f32⟩ : BufTy).Contents (Elt F) → (⟨S200000x20, .f32⟩ : BufTy).Contents (Elt F)),
    unary main_v220 main_v221 (Host.exp : (⟨S200000x20, .f32⟩ : BufTy).Contents (Elt F) → (⟨S200000x20, .f32⟩ : BufTy).Contents (Elt F)),
    nullary main_cst_31 (constant S_ .f32 0x3F800000#32),
    unary main_cst_31 main_v222 (broadcastInDim S200000x20 ![] bcast_S_S200000x20 : (⟨S_, .f32⟩ : BufTy).Contents (Elt F) → (⟨S200000x20, .f32⟩ : BufTy).Contents (Elt F)),
    binary main_v222 main_v221 main_v223 (addf : (⟨S200000x20, .f32⟩ : BufTy).Contents (Elt F) → (⟨S200000x20, .f32⟩ : BufTy).Contents (Elt F) → (⟨S200000x20, .f32⟩ : BufTy).Contents (Elt F)),
    nullary main_cst_32 (constant S_ .f32 0x3F800000#32),
    unary main_cst_32 main_v224 (broadcastInDim S200000x20 ![] bcast_S_S200000x20 : (⟨S_, .f32⟩ : BufTy).Contents (Elt F) → (⟨S200000x20, .f32⟩ : BufTy).Contents (Elt F)),
    binary main_v224 main_v223 main_v225 (Host.divf : (⟨S200000x20, .f32⟩ : BufTy).Contents (Elt F) → (⟨S200000x20, .f32⟩ : BufTy).Contents (Elt F) → (⟨S200000x20, .f32⟩ : BufTy).Contents (Elt F)),
    unary main_arg9 main_v226 ((transpose S20x20 [1, 0] · transposes_S20x20_S20x20_1_0) : (⟨S20x20, .f32⟩ : BufTy).Contents (Elt F) → (⟨S20x20, .f32⟩ : BufTy).Contents (Elt F)),
    binary main_v191 main_v226 main_v227 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg10 main_v228 (broadcastInDim S1x20 ![1] bcast_S20_S1x20_1 : (⟨S20, .f32⟩ : BufTy).Contents (Elt F) → (⟨S1x20, .f32⟩ : BufTy).Contents (Elt F)),
    unary main_v228 main_v229 (broadcastInDim S200000x20 ![0, 1] bcast_S1x20_S200000x20_0_1 : (⟨S1x20, .f32⟩ : BufTy).Contents (Elt F) → (⟨S200000x20, .f32⟩ : BufTy).Contents (Elt F)),
    binary main_v227 main_v229 main_v230 (addf : (⟨S200000x20, .f32⟩ : BufTy).Contents (Elt F) → (⟨S200000x20, .f32⟩ : BufTy).Contents (Elt F) → (⟨S200000x20, .f32⟩ : BufTy).Contents (Elt F)),
    binary main_v225 main_v163 main_v231 (mulf : (⟨S200000x20, .f32⟩ : BufTy).Contents (Elt F) → (⟨S200000x20, .f32⟩ : BufTy).Contents (Elt F) → (⟨S200000x20, .f32⟩ : BufTy).Contents (Elt F)),
    unary main_arg11 main_v232 ((transpose S20x20 [1, 0] · transposes_S20x20_S20x20_1_0) : (⟨S20x20, .f32⟩ : BufTy).Contents (Elt F) → (⟨S20x20, .f32⟩ : BufTy).Contents (Elt F)),
    binary main_v231 main_v232 main_v233 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg12 main_v234 (broadcastInDim S1x20 ![1] bcast_S20_S1x20_1 : (⟨S20, .f32⟩ : BufTy).Contents (Elt F) → (⟨S1x20, .f32⟩ : BufTy).Contents (Elt F)),
    unary main_v234 main_v235 (broadcastInDim S200000x20 ![0, 1] bcast_S1x20_S200000x20_0_1 : (⟨S1x20, .f32⟩ : BufTy).Contents (Elt F) → (⟨S200000x20, .f32⟩ : BufTy).Contents (Elt F)),
    binary main_v233 main_v235 main_v236 (addf : (⟨S200000x20, .f32⟩ : BufTy).Contents (Elt F) → (⟨S200000x20, .f32⟩ : BufTy).Contents (Elt F) → (⟨S200000x20, .f32⟩ : BufTy).Contents (Elt F)),
    binary main_v230 main_v236 main_v237 (addf : (⟨S200000x20, .f32⟩ : BufTy).Contents (Elt F) → (⟨S200000x20, .f32⟩ : BufTy).Contents (Elt F) → (⟨S200000x20, .f32⟩ : BufTy).Contents (Elt F)),
    unary main_v237 main_v238 (Host.tanh : (⟨S200000x20, .f32⟩ : BufTy).Contents (Elt F) → (⟨S200000x20, .f32⟩ : BufTy).Contents (Elt F)),
    binary main_v208 main_v163 main_v239 (mulf : (⟨S200000x20, .f32⟩ : BufTy).Contents (Elt F) → (⟨S200000x20, .f32⟩ : BufTy).Contents (Elt F) → (⟨S200000x20, .f32⟩ : BufTy).Contents (Elt F)),
    nullary main_cst_33 (constant S_ .f32 0x3F800000#32),
    unary main_cst_33 main_v240 (broadcastInDim S200000x20 ![] bcast_S_S200000x20 : (⟨S_, .f32⟩ : BufTy).Contents (Elt F) → (⟨S200000x20, .f32⟩ : BufTy).Contents (Elt F)),
    binary main_v240 main_v208 main_v241 (subf : (⟨S200000x20, .f32⟩ : BufTy).Contents (Elt F) → (⟨S200000x20, .f32⟩ : BufTy).Contents (Elt F) → (⟨S200000x20, .f32⟩ : BufTy).Contents (Elt F)),
    binary main_v241 main_v238 main_v242 (mulf : (⟨S200000x20, .f32⟩ : BufTy).Contents (Elt F) → (⟨S200000x20, .f32⟩ : BufTy).Contents (Elt F) → (⟨S200000x20, .f32⟩ : BufTy).Contents (Elt F)),
    binary main_v239 main_v242 main_v243 (addf : (⟨S200000x20, .f32⟩ : BufTy).Contents (Elt F) → (⟨S200000x20, .f32⟩ : BufTy).Contents (Elt F) → (⟨S200000x20, .f32⟩ : BufTy).Contents (Elt F)),
    unary main_v167 main_v244 (broadcastInDim S200000x1 ![0] bcast_S200000_S200000x1_0 : (⟨S200000, .i1⟩ : BufTy).Contents (Elt F) → (⟨S200000x1, .i1⟩ : BufTy).Contents (Elt F)),
    TRef.unary (TRef.of (T := ⟨S200000x1, .i1⟩) main_v244) (TRef.of (T := ⟨S200000x20, .i1⟩) main_call2_v0) (broadcastInDim S200000x20 ![0, 1] bcast_S200000x1_S200000x20_0_1),
    TRef.ternary (TRef.of (T := ⟨S200000x20, .i1⟩) main_call2_v0) (TRef.of (T := ⟨S200000x20, .f32⟩) main_v243) (TRef.of (T := ⟨S200000x20, .f32⟩) main_v163) (TRef.of (T := ⟨S200000x20, .f32⟩) main_v245) select,
    unary main_v167 main_v246 (broadcastInDim S200000x1 ![0] bcast_S200000_S200000x1_0 : (⟨S200000, .i1⟩ : BufTy).Contents (Elt F) → (⟨S200000x1, .i1⟩ : BufTy).Contents (Elt F)),
    nullary main_cst_34 (constant S_ .f32 0x00000000#32),
    unary main_cst_34 main_v247 (broadcastInDim S200000x20 ![] bcast_S_S200000x20 : (⟨S_, .f32⟩ : BufTy).Contents (Elt F) → (⟨S200000x20, .f32⟩ : BufTy).Contents (Elt F)),
    TRef.unary (TRef.of (T := ⟨S200000x1, .i1⟩) main_v246) (TRef.of (T := ⟨S200000x20, .i1⟩) main_call3_v0) (broadcastInDim S200000x20 ![0, 1] bcast_S200000x1_S200000x20_0_1),
    TRef.ternary (TRef.of (T := ⟨S200000x20, .i1⟩) main_call3_v0) (TRef.of (T := ⟨S200000x20, .f32⟩) main_v245) (TRef.of (T := ⟨S200000x20, .f32⟩) main_v247) (TRef.of (T := ⟨S200000x20, .f32⟩) main_v248) select ]

/-- @main's 290 operations, in order. -/
abbrev ops : List (HloOp τ sig (Elt F)) := opsA ++ (opsB ++ opsC)

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., binary_bufs_sub .., binary_bufs_sub .., unary_bufs_sub .., unary_bufs_sub .., ternary_bufs_sub ..⟩
set_option maxRecDepth 8192 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., binary_bufs_sub .., binary_bufs_sub .., unary_bufs_sub .., unary_bufs_sub .., ternary_bufs_sub ..⟩
set_option maxRecDepth 8192 in
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., binary_bufs_sub .., binary_bufs_sub .., unary_bufs_sub .., unary_bufs_sub .., ternary_bufs_sub .., unary_bufs_sub .., nullary_bufs_sub .., unary_bufs_sub .., unary_bufs_sub .., ternary_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsA_sub op h
    · rcases List.mem_append.mp h with h | h
      · exact List.forall_iff_forall_mem.mp opsB_sub op h
      · exact List.forall_iff_forall_mem.mp opsC_sub op h

/-- No operation allocates a buffer. -/
theorem ops_fresh : ∀ op ∈ (ops : List (HloOp τ sig (Elt F))), op.fresh = ∅ := by
  have hA : ∀ op ∈ (opsA : List (HloOp τ sig (Elt F))), op.fresh = ∅ := by
    intro _ h; (repeat (cases h with | head => rfl | tail _ h => ?_)); exact nomatch h
  have hB : ∀ op ∈ (opsB : List (HloOp τ sig (Elt F))), op.fresh = ∅ := by
    intro _ h; (repeat (cases h with | head => rfl | tail _ h => ?_)); exact nomatch h
  have hC : ∀ op ∈ (opsC : List (HloOp τ sig (Elt F))), op.fresh = ∅ := by
    intro _ h; (repeat (cases h with | head => rfl | tail _ h => ?_)); exact nomatch h
  intro op h
  rcases List.mem_append.mp h with h | h
  · exact hA op h
  · rcases List.mem_append.mp h with h | h
    · exact hB op h
    · exact hC op h

/-- Folding a concatenation of operations is folding its parts in turn. -/
theorem after_append {Val : EltTy → Type} (a b : List (HloOp τ sig Val)) (V : Valuation τ sig Val) :
    after (a ++ b) V = after b (after a V) := by
  induction a generalizing V with
  | nil => rfl
  | cons op a ih => exact ih (op.result V)

/-- The contents after the first, the second and the third iteration. -/
abbrev VA (m : (ℓ : Loc nD τ sig) → Buf (Elt F) ℓ) (d : Dev nD) : Valuation τ sig (Elt F) := after opsA (launchContents m d)
abbrev VB (m : (ℓ : Loc nD τ sig) → Buf (Elt F) ℓ) (d : Dev nD) : Valuation τ sig (Elt F) := after opsB (VA m d)
abbrev VC (m : (ℓ : Loc nD τ sig) → Buf (Elt F) ℓ) (d : Dev nD) : Valuation τ sig (Elt F) := after opsC (VB m d)

/-- Every weakly fair execution terminates with each buffer at the contents after the third iteration. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = VC m d (Proc.devRef .tc b) :=
  (θ_run defs _ _).mono (fun _ h d b => (h d b).trans (by
      show after (opsA ++ (opsB ++ opsC)) (launchContents m d) (Proc.devRef .tc b) = _
      rw [after_append, after_append]))
    (run_seq scopedRefs_eq scopedSems_eq defs main (fun _ => ops) main_eq (fun _ => ops_sub) m ρ (fun _ => ops_fresh))

end Cert.RefOps

end
-- ==== Proof.RefWalkA.lean ====
/-
  The reference's arguments ride through its first iteration: no operation of the stretch writes an argument's buffer, so the
  buffer holds after the stretch what it held before it.
-/
import proofs.«162891_j90013924590102_1_alg».proof.Proof.RefOps

set_option maxRecDepth 8192

noncomputable section

namespace Cert.RefWalkA

open Cert.ReferenceIdeal Cert.ReferenceIdeal.Gen Cert.RefOps Idealize.ShloMosaic Idealize.ShloMosaic.TcCoe Idealize.SL.Sem Idealize.ShloMosaic.StableHlo

variable {F : FTy → Type} [FloatOps F]
variable (m : (ℓ : Loc nD τ sig) → Buf (Elt F) ℓ) (d : Dev nD)

set_option maxHeartbeats 4000000 in
theorem arg0 : VA m d (Proc.devRef .tc main_arg0) = m ((d.tc : Thread nD τ).loc main_arg0) := by
  show after opsA (launchContents m d) (Proc.devRef .tc main_arg0) = _
  after_results_simp <;> rfl

set_option maxHeartbeats 4000000 in
theorem arg1 : VA m d (Proc.devRef .tc main_arg1) = m ((d.tc : Thread nD τ).loc main_arg1) := by
  show after opsA (launchContents m d) (Proc.devRef .tc main_arg1) = _
  after_results_simp <;> rfl

set_option maxHeartbeats 4000000 in
theorem arg2 : VA m d (Proc.devRef .tc main_arg2) = m ((d.tc : Thread nD τ).loc main_arg2) := by
  show after opsA (launchContents m d) (Proc.devRef .tc main_arg2) = _
  after_results_simp <;> rfl

set_option maxHeartbeats 4000000 in
theorem arg3 : VA m d (Proc.devRef .tc main_arg3) = m ((d.tc : Thread nD τ).loc main_arg3) := by
  show after opsA (launchContents m d) (Proc.devRef .tc main_arg3) = _
  after_results_simp <;> rfl

set_option maxHeartbeats 4000000 in
theorem arg4 : VA m d (Proc.devRef .tc main_arg4) = m ((d.tc : Thread nD τ).loc main_arg4) := by
  show after opsA (launchContents m d) (Proc.devRef .tc main_arg4) = _
  after_results_simp <;> rfl

set_option maxHeartbeats 4000000 in
theorem arg5 : VA m d (Proc.devRef .tc main_arg5) = m ((d.tc : Thread nD τ).loc main_arg5) := by
  show after opsA (launchContents m d) (Proc.devRef .tc main_arg5) = _
  after_results_simp <;> rfl

set_option maxHeartbeats 4000000 in
theorem arg6 : VA m d (Proc.devRef .tc main_arg6) = m ((d.tc : Thread nD τ).loc main_arg6) := by
  show after opsA (launchContents m d) (Proc.devRef .tc main_arg6) = _
  after_results_simp <;> rfl

set_option maxHeartbeats 4000000 in
theorem arg7 : VA m d (Proc.devRef .tc main_arg7) = m ((d.tc : Thread nD τ).loc main_arg7) := by
  show after opsA (launchContents m d) (Proc.devRef .tc main_arg7) = _
  after_results_simp <;> rfl

set_option maxHeartbeats 4000000 in
theorem arg8 : VA m d (Proc.devRef .tc main_arg8) = m ((d.tc : Thread nD τ).loc main_arg8) := by
  show after opsA (launchContents m d) (Proc.devRef .tc main_arg8) = _
  after_results_simp <;> rfl

set_option maxHeartbeats 4000000 in
theorem arg9 : VA m d (Proc.devRef .tc main_arg9) = m ((d.tc : Thread nD τ).loc main_arg9) := by
  show after opsA (launchContents m d) (Proc.devRef .tc main_arg9) = _
  after_results_simp <;> rfl

set_option maxHeartbeats 4000000 in
theorem arg10 : VA m d (Proc.devRef .tc main_arg10) = m ((d.tc : Thread nD τ).loc main_arg10) := by
  show after opsA (launchContents m d) (Proc.devRef .tc main_arg10) = _
  after_results_simp <;> rfl

set_option maxHeartbeats 4000000 in
theorem arg11 : VA m d (Proc.devRef .tc main_arg11) = m ((d.tc : Thread nD τ).loc main_arg11) := by
  show after opsA (launchContents m d) (Proc.devRef .tc main_arg11) = _
  after_results_simp <;> rfl

set_option maxHeartbeats 4000000 in
theorem arg12 : VA m d (Proc.devRef .tc main_arg12) = m ((d.tc : Thread nD τ).loc main_arg12) := by
  show after opsA (launchContents m d) (Proc.devRef .tc main_arg12) = _
  after_results_simp <;> rfl

set_option maxHeartbeats 4000000 in
theorem arg13 : VA m d (Proc.devRef .tc main_arg13) = m ((d.tc : Thread nD τ).loc main_arg13) := by
  show after opsA (launchContents m d) (Proc.devRef .tc main_arg13) = _
  after_results_simp <;> rfl

set_option maxHeartbeats 4000000 in
theorem arg14 : VA m d (Proc.devRef .tc main_arg14) = m ((d.tc : Thread nD τ).loc main_arg14) := by
  show after opsA (launchContents m d) (Proc.devRef .tc main_arg14) = _
  after_results_simp <;> rfl

set_option maxHeartbeats 4000000 in
theorem arg15 : VA m d (Proc.devRef .tc main_arg15) = m ((d.tc : Thread nD τ).loc main_arg15) := by
  show after opsA (launchContents m d) (Proc.devRef .tc main_arg15) = _
  after_results_simp <;> rfl

end Cert.RefWalkA

end
-- ==== Proof.RefWalkB.lean ====
/-
  The reference's arguments ride through its second iteration: no operation of the stretch writes an argument's buffer, so the
  buffer holds after the stretch what it held before it.
-/
import proofs.«162891_j90013924590102_1_alg».proof.Proof.RefOps

set_option maxRecDepth 8192

noncomputable section

namespace Cert.RefWalkB

open Cert.ReferenceIdeal Cert.ReferenceIdeal.Gen Cert.RefOps Idealize.ShloMosaic Idealize.ShloMosaic.TcCoe Idealize.SL.Sem Idealize.ShloMosaic.StableHlo

variable {F : FTy → Type} [FloatOps F]
variable (m : (ℓ : Loc nD τ sig) → Buf (Elt F) ℓ) (d : Dev nD)

set_option maxHeartbeats 4000000 in
theorem arg0 : VB m d (Proc.devRef .tc main_arg0) = VA m d (Proc.devRef .tc main_arg0) := by
  show after opsB (VA m d) (Proc.devRef .tc main_arg0) = _
  generalize VA m d = W
  after_results_simp <;> rfl

set_option maxHeartbeats 4000000 in
theorem arg1 : VB m d (Proc.devRef .tc main_arg1) = VA m d (Proc.devRef .tc main_arg1) := by
  show after opsB (VA m d) (Proc.devRef .tc main_arg1) = _
  generalize VA m d = W
  after_results_simp <;> rfl

set_option maxHeartbeats 4000000 in
theorem arg2 : VB m d (Proc.devRef .tc main_arg2) = VA m d (Proc.devRef .tc main_arg2) := by
  show after opsB (VA m d) (Proc.devRef .tc main_arg2) = _
  generalize VA m d = W
  after_results_simp <;> rfl

set_option maxHeartbeats 4000000 in
theorem arg3 : VB m d (Proc.devRef .tc main_arg3) = VA m d (Proc.devRef .tc main_arg3) := by
  show after opsB (VA m d) (Proc.devRef .tc main_arg3) = _
  generalize VA m d = W
  after_results_simp <;> rfl

set_option maxHeartbeats 4000000 in
theorem arg4 : VB m d (Proc.devRef .tc main_arg4) = VA m d (Proc.devRef .tc main_arg4) := by
  show after opsB (VA m d) (Proc.devRef .tc main_arg4) = _
  generalize VA m d = W
  after_results_simp <;> rfl

set_option maxHeartbeats 4000000 in
theorem arg5 : VB m d (Proc.devRef .tc main_arg5) = VA m d (Proc.devRef .tc main_arg5) := by
  show after opsB (VA m d) (Proc.devRef .tc main_arg5) = _
  generalize VA m d = W
  after_results_simp <;> rfl

set_option maxHeartbeats 4000000 in
theorem arg6 : VB m d (Proc.devRef .tc main_arg6) = VA m d (Proc.devRef .tc main_arg6) := by
  show after opsB (VA m d) (Proc.devRef .tc main_arg6) = _
  generalize VA m d = W
  after_results_simp <;> rfl

set_option maxHeartbeats 4000000 in
theorem arg7 : VB m d (Proc.devRef .tc main_arg7) = VA m d (Proc.devRef .tc main_arg7) := by
  show after opsB (VA m d) (Proc.devRef .tc main_arg7) = _
  generalize VA m d = W
  after_results_simp <;> rfl

set_option maxHeartbeats 4000000 in
theorem arg8 : VB m d (Proc.devRef .tc main_arg8) = VA m d (Proc.devRef .tc main_arg8) := by
  show after opsB (VA m d) (Proc.devRef .tc main_arg8) = _
  generalize VA m d = W
  after_results_simp <;> rfl

set_option maxHeartbeats 4000000 in
theorem arg9 : VB m d (Proc.devRef .tc main_arg9) = VA m d (Proc.devRef .tc main_arg9) := by
  show after opsB (VA m d) (Proc.devRef .tc main_arg9) = _
  generalize VA m d = W
  after_results_simp <;> rfl

set_option maxHeartbeats 4000000 in
theorem arg10 : VB m d (Proc.devRef .tc main_arg10) = VA m d (Proc.devRef .tc main_arg10) := by
  show after opsB (VA m d) (Proc.devRef .tc main_arg10) = _
  generalize VA m d = W
  after_results_simp <;> rfl

set_option maxHeartbeats 4000000 in
theorem arg11 : VB m d (Proc.devRef .tc main_arg11) = VA m d (Proc.devRef .tc main_arg11) := by
  show after opsB (VA m d) (Proc.devRef .tc main_arg11) = _
  generalize VA m d = W
  after_results_simp <;> rfl

set_option maxHeartbeats 4000000 in
theorem arg12 : VB m d (Proc.devRef .tc main_arg12) = VA m d (Proc.devRef .tc main_arg12) := by
  show after opsB (VA m d) (Proc.devRef .tc main_arg12) = _
  generalize VA m d = W
  after_results_simp <;> rfl

set_option maxHeartbeats 4000000 in
theorem arg13 : VB m d (Proc.devRef .tc main_arg13) = VA m d (Proc.devRef .tc main_arg13) := by
  show after opsB (VA m d) (Proc.devRef .tc main_arg13) = _
  generalize VA m d = W
  after_results_simp <;> rfl

set_option maxHeartbeats 4000000 in
theorem arg14 : VB m d (Proc.devRef .tc main_arg14) = VA m d (Proc.devRef .tc main_arg14) := by
  show after opsB (VA m d) (Proc.devRef .tc main_arg14) = _
  generalize VA m d = W
  after_results_simp <;> rfl

set_option maxHeartbeats 4000000 in
theorem arg15 : VB m d (Proc.devRef .tc main_arg15) = VA m d (Proc.devRef .tc main_arg15) := by
  show after opsB (VA m d) (Proc.devRef .tc main_arg15) = _
  generalize VA m d = W
  after_results_simp <;> rfl

end Cert.RefWalkB

end
-- ==== Proof.RefStages.lean ====
/-
  The reference's state after each iteration, read off the fold of its operations.

  Each stretch is evaluated from ARBITRARY starting contents `W`: the new state of an active node (`hnA`, `hnB`,
  `hnC`) and the activity bits over the array (`maskA` …) are the stretch's operations composed; the selection that
  closes an iteration is one operation of those two buffers and the old state (`selA` …). Chaining the three stretches —
  the arguments, which no operation writes, and the previous iteration's state substituted — gives the state after the
  first and second iteration and the result.
-/
import proofs.«162891_j90013924590102_1_alg».proof.Proof.RefResult
import proofs.«162891_j90013924590102_1_alg».proof.Proof.RefWalkA
import proofs.«162891_j90013924590102_1_alg».proof.Proof.RefWalkB

set_option maxRecDepth 16384

noncomputable section

namespace Cert.RefStages

open Cert.ReferenceIdeal Cert.ReferenceIdeal.Gen Cert.RefOps Cert.RefTerms Idealize.ShloMosaic Idealize.ShloMosaic.TcCoe Idealize.SL.Sem Idealize.ShloMosaic.StableHlo

/-! ## The last operation of a list -/

/-- When the last operation of a list is a three-operand one of an inlined call and writes none of its operands, its
    result buffer ends at its function of the FINAL contents of the three operands (moved through the call's identity
    casts). -/
theorem after_last_ternary {Val : EltTy → Type} {Tc Ta Tb Ty : BufTy} (pre : List (HloOp τ sig Val))
    (c : TRef sig Tc) (a : TRef sig Ta) (b : TRef sig Tb) (y : TRef sig Ty)
    (f : Tc.Contents Val → Ta.Contents Val → Tb.Contents Val → Ty.Contents Val) (W : Valuation τ sig Val)
    (hcy : c.ref ≠ y.ref) (hay : a.ref ≠ y.ref) (hby : b.ref ≠ y.ref) :
    after (pre ++ [TRef.ternary (τ := τ) c a b y f]) W (Proc.devRef .tc y.ref)
      = y.toBuf (f (c.ofBuf (after (pre ++ [TRef.ternary (τ := τ) c a b y f]) W (Proc.devRef .tc c.ref)))
          (a.ofBuf (after (pre ++ [TRef.ternary (τ := τ) c a b y f]) W (Proc.devRef .tc a.ref)))
          (b.ofBuf (after (pre ++ [TRef.ternary (τ := τ) c a b y f]) W (Proc.devRef .tc b.ref)))) := by
  simp only [Cert.RefOps.after_append, after_cons, after_nil]
  rw [ternary_result, ternary_result_ne (h := hcy), ternary_result_ne (h := hay), ternary_result_ne (h := hby)]

/-! ## Iteration 1, from any contents `W` -/

set_option maxHeartbeats 8000000 in
/-- The new state of an active node, over all nodes. -/
theorem hnA (W : Valuation τ sig (Elt Ideal)) :
    after opsA W (Proc.devRef .tc main_v79) = hnewRef (W (Proc.devRef .tc main_arg0)) (msgRef 0#32 (W (Proc.devRef .tc main_arg0)) (W (Proc.devRef .tc main_arg13)) (W (Proc.devRef .tc main_arg14)) (W (Proc.devRef .tc main_arg15))) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) := by
  after_results_simp
  rfl

set_option maxHeartbeats 4000000 in
/-- The activity bits over the state array. -/
theorem maskA (W : Valuation τ sig (Elt Ideal)) :
    after opsA W (Proc.devRef .tc main_call0_v0) = maskMat (act 0#32 (W (Proc.devRef .tc main_arg13))) := by
  after_results_simp
  rfl

/-- The selection, one operation: active nodes take the new state, the others keep the old one. -/
theorem selA (W : Valuation τ sig (Elt Ideal)) :
    after opsA W (Proc.devRef .tc main_v81)
      = select (after opsA W (Proc.devRef .tc main_call0_v0)) (after opsA W (Proc.devRef .tc main_v79))
          (after opsA W (Proc.devRef .tc main_arg0)) := by
  have e : (opsA (F := Ideal)) = (opsA (F := Ideal)).dropLast
      ++ [TRef.ternary (TRef.of (T := ⟨S200000x20, .i1⟩) main_call0_v0) (TRef.of (T := ⟨S200000x20, .f32⟩) main_v79)
          (TRef.of (T := ⟨S200000x20, .f32⟩) main_arg0) (TRef.of (T := ⟨S200000x20, .f32⟩) main_v81) select] := by rfl
  have h := after_last_ternary (opsA (F := Ideal)).dropLast (TRef.of (T := ⟨S200000x20, .i1⟩) main_call0_v0)
    (TRef.of (T := ⟨S200000x20, .f32⟩) main_v79) (TRef.of (T := ⟨S200000x20, .f32⟩) main_arg0)
    (TRef.of (T := ⟨S200000x20, .f32⟩) main_v81) select W (by decide) (by decide) (by decide)
  rw [← e] at h
  exact h

set_option maxHeartbeats 4000000 in
/-- The old state's buffer is not written by the stretch. -/
theorem keepA (W : Valuation τ sig (Elt Ideal)) : after opsA W (Proc.devRef .tc main_arg0) = W (Proc.devRef .tc main_arg0) := by
  after_results_simp

/-- The whole iteration. -/
theorem allA (W : Valuation τ sig (Elt Ideal)) :
    after opsA W (Proc.devRef .tc main_v81) = stepRef 0#32 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [selA, maskA, hnA, keepA]
  rfl

/-! ## Iteration 2, from any contents `W` -/

set_option maxHeartbeats 8000000 in
/-- The new state of an active node, over all nodes. -/
theorem hnB (W : Valuation τ sig (Elt Ideal)) :
    after opsB W (Proc.devRef .tc main_v161) = hnewRef (W (Proc.devRef .tc main_v81)) (msgRef 1#32 (W (Proc.devRef .tc main_v81)) (W (Proc.devRef .tc main_arg13)) (W (Proc.devRef .tc main_arg14)) (W (Proc.devRef .tc main_arg15))) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) := by
  after_results_simp
  rfl

set_option maxHeartbeats 4000000 in
/-- The activity bits over the state array. -/
theorem maskB (W : Valuation τ sig (Elt Ideal)) :
    after opsB W (Proc.devRef .tc main_call1_v0) = maskMat (act 1#32 (W (Proc.devRef .tc main_arg13))) := by
  after_results_simp
  rfl

/-- The selection, one operation: active nodes take the new state, the others keep the old one. -/
theorem selB (W : Valuation τ sig (Elt Ideal)) :
    after opsB W (Proc.devRef .tc main_v163)
      = select (after opsB W (Proc.devRef .tc main_call1_v0)) (after opsB W (Proc.devRef .tc main_v161))
          (after opsB W (Proc.devRef .tc main_v81)) := by
  have e : (opsB (F := Ideal)) = (opsB (F := Ideal)).dropLast
      ++ [TRef.ternary (TRef.of (T := ⟨S200000x20, .i1⟩) main_call1_v0) (TRef.of (T := ⟨S200000x20, .f32⟩) main_v161)
          (TRef.of (T := ⟨S200000x20, .f32⟩) main_v81) (TRef.of (T := ⟨S200000x20, .f32⟩) main_v163) select] := by rfl
  have h := after_last_ternary (opsB (F := Ideal)).dropLast (TRef.of (T := ⟨S200000x20, .i1⟩) main_call1_v0)
    (TRef.of (T := ⟨S200000x20, .f32⟩) main_v161) (TRef.of (T := ⟨S200000x20, .f32⟩) main_v81)
    (TRef.of (T := ⟨S200000x20, .f32⟩) main_v163) select W (by decide) (by decide) (by decide)
  rw [← e] at h
  exact h

set_option maxHeartbeats 4000000 in
/-- The old state's buffer is not written by the stretch. -/
theorem keepB (W : Valuation τ sig (Elt Ideal)) : after opsB W (Proc.devRef .tc main_v81) = W (Proc.devRef .tc main_v81) := by
  after_results_simp

/-- The whole iteration. -/
theorem allB (W : Valuation τ sig (Elt Ideal)) :
    after opsB W (Proc.devRef .tc main_v163) = stepRef 1#32 (W (Proc.devRef .tc main_v81)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [selB, maskB, hnB, keepB]
  rfl

/-! ## The third stretch in two parts: the iteration, then the final zeroing -/

/-- The third iteration's 95 operations, and the 5 that zero the inactive nodes. -/
abbrev opsC1 {F : FTy → Type} [FloatOps F] : List (HloOp τ sig (Elt F)) :=
  [ nullary main_c_22 (constantI S_ 32 2#32),
    unary main_c_22 main_v164 (broadcastInDim S200000 ![] bcast_S_S200000 : (⟨S_, .i32⟩ : BufTy).Contents (Elt F) → (⟨S200000, .i32⟩ : BufTy).Contents (Elt F)),
    binary main_arg13 main_v164 main_v165 (addi : (⟨S200000, .i32⟩ : BufTy).Contents (Elt F) → (⟨S200000, .i32⟩ : BufTy).Contents (Elt F) → (⟨S200000, .i32⟩ : BufTy).Contents (Elt F)),
    nullary main_c_23 (constantI S_ 32 3#32),
    unary main_c_23 main_v166 (broadcastInDim S200000 ![] bcast_S_S200000 : (⟨S_, .i32⟩ : BufTy).Contents (Elt F) → (⟨S200000, .i32⟩ : BufTy).Contents (Elt F)),
    binary main_v165 main_v166 main_v167 (cmpi .sle : (⟨S200000, .i32⟩ : BufTy).Contents (Elt F) → (⟨S200000, .i32⟩ : BufTy).Contents (Elt F) → (⟨S200000, .i1⟩ : BufTy).Contents (Elt F)),
    unary main_v167 main_v168 (uitofp .f32 : (⟨S200000, .i1⟩ : BufTy).Contents (Elt F) → (⟨S200000, .f32⟩ : BufTy).Contents (Elt F)),
    nullary main_c_24 (constantI S_ 32 0#32),
    unary main_c_24 main_v169 (broadcastInDim S6400000 ![] bcast_S_S6400000 : (⟨S_, .i32⟩ : BufTy).Contents (Elt F) → (⟨S6400000, .i32⟩ : BufTy).Contents (Elt F)),
    binary main_arg14 main_v169 main_v170 (cmpi .slt : (⟨S6400000, .i32⟩ : BufTy).Contents (Elt F) → (⟨S6400000, .i32⟩ : BufTy).Contents (Elt F) → (⟨S6400000, .i1⟩ : BufTy).Contents (Elt F)),
    nullary main_c_25 (constantI S_ 32 200000#32),
    unary main_c_25 main_v171 (broadcastInDim S6400000 ![] bcast_S_S6400000 : (⟨S_, .i32⟩ : BufTy).Contents (Elt F) → (⟨S6400000, .i32⟩ : BufTy).Contents (Elt F)),
    binary main_arg14 main_v171 main_v172 (addi : (⟨S6400000, .i32⟩ : BufTy).Contents (Elt F) → (⟨S6400000, .i32⟩ : BufTy).Contents (Elt F) → (⟨S6400000, .i32⟩ : BufTy).Contents (Elt F)),
    ternary main_v170 main_v172 main_arg14 main_v173 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v173 main_v174 (broadcastInDim S6400000x1 ![0] bcast_S6400000_S6400000x1_0 : (⟨S6400000, .i32⟩ : BufTy).Contents (Elt F) → (⟨S6400000x1, .i32⟩ : BufTy).Contents (Elt F)),
    binary main_v163 main_v174 main_v175 ((fun x i => Host.gather gather_S200000x20_S6400000x1_S6400000x20_1_0_n_n_0_1_120 x i) : (⟨S200000x20, .f32⟩ : BufTy).Contents (Elt F) → (⟨S6400000x1, .i32⟩ : BufTy).Contents (Elt F) → (⟨S6400000x20, .f32⟩ : BufTy).Contents (Elt F)),
    nullary main_c_26 (constantI S_ 32 0#32),
    unary main_c_26 main_v176 (broadcastInDim S6400000 ![] bcast_S_S6400000 : (⟨S_, .i32⟩ : BufTy).Contents (Elt F) → (⟨S6400000, .i32⟩ : BufTy).Contents (Elt F)),
    binary main_arg14 main_v176 main_v177 (cmpi .slt : (⟨S6400000, .i32⟩ : BufTy).Contents (Elt F) → (⟨S6400000, .i32⟩ : BufTy).Contents (Elt F) → (⟨S6400000, .i1⟩ : BufTy).Contents (Elt F)),
    nullary main_c_27 (constantI S_ 32 200000#32),
    unary main_c_27 main_v178 (broadcastInDim S6400000 ![] bcast_S_S6400000 : (⟨S_, .i32⟩ : BufTy).Contents (Elt F) → (⟨S6400000, .i32⟩ : BufTy).Contents (Elt F)),
    binary main_arg14 main_v178 main_v179 (addi : (⟨S6400000, .i32⟩ : BufTy).Contents (Elt F) → (⟨S6400000, .i32⟩ : BufTy).Contents (Elt F) → (⟨S6400000, .i32⟩ : BufTy).Contents (Elt F)),
    ternary main_v177 main_v179 main_arg14 main_v180 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v180 main_v181 (broadcastInDim S6400000x1 ![0] bcast_S6400000_S6400000x1_0 : (⟨S6400000, .i32⟩ : BufTy).Contents (Elt F) → (⟨S6400000x1, .i32⟩ : BufTy).Contents (Elt F)),
    binary main_v168 main_v181 main_v182 ((fun x i => Host.gather gather_S200000_S6400000x1_S6400000_n_0_n_n_0_1_1 x i) : (⟨S200000, .f32⟩ : BufTy).Contents (Elt F) → (⟨S6400000x1, .i32⟩ : BufTy).Contents (Elt F) → (⟨S6400000, .f32⟩ : BufTy).Contents (Elt F)),
    unary main_v182 main_v183 (broadcastInDim S6400000x1 ![0] bcast_S6400000_S6400000x1_0 : (⟨S6400000, .f32⟩ : BufTy).Contents (Elt F) → (⟨S6400000x1, .f32⟩ : BufTy).Contents (Elt F)),
    unary main_v183 main_v184 (broadcastInDim S6400000x20 ![0, 1] bcast_S6400000x1_S6400000x20_0_1 : (⟨S6400000x1, .f32⟩ : BufTy).Contents (Elt F) → (⟨S6400000x20, .f32⟩ : BufTy).Contents (Elt F)),
    binary main_v175 main_v184 main_v185 (mulf : (⟨S6400000x20, .f32⟩ : BufTy).Contents (Elt F) → (⟨S6400000x20, .f32⟩ : BufTy).Contents (Elt F) → (⟨S6400000x20, .f32⟩ : BufTy).Contents (Elt F)),
    nullary main_cst_28 (constant S_ .f32 0x00000000#32),
    unary main_cst_28 main_v186 (broadcastInDim S200000x20 ![] bcast_S_S200000x20 : (⟨S_, .f32⟩ : BufTy).Contents (Elt F) → (⟨S200000x20, .f32⟩ : BufTy).Contents (Elt F)),
    unary main_arg15 main_v187 (broadcastInDim S6400000x1 ![0] bcast_S6400000_S6400000x1_0 : (⟨S6400000, .i32⟩ : BufTy).Contents (Elt F) → (⟨S6400000x1, .i32⟩ : BufTy).Contents (Elt F)),
    ternary main_v186 main_v187 main_v185 main_v188 ((fun x i u => Host.scatterAdd scatter_S200000x20_S6400000x1_S6400000x20_1_0_0_1 x i u) : (⟨S200000x20, .f32⟩ : BufTy).Contents (Elt F) → (⟨S6400000x1, .i32⟩ : BufTy).Contents (Elt F) → (⟨S6400000x20, .f32⟩ : BufTy).Contents (Elt F) → (⟨S200000x20, .f32⟩ : BufTy).Contents (Elt F)),
    unary main_v168 main_v189 (broadcastInDim S200000x1 ![0] bcast_S200000_S200000x1_0 : (⟨S200000, .f32⟩ : BufTy).Contents (Elt F) → (⟨S200000x1, .f32⟩ : BufTy).Contents (Elt F)),
    unary main_v189 main_v190 (broadcastInDim S200000x20 ![0, 1] bcast_S200000x1_S200000x20_0_1 : (⟨S200000x1, .f32⟩ : BufTy).Contents (Elt F) → (⟨S200000x20, .f32⟩ : BufTy).Contents (Elt F)),
    binary main_v188 main_v190 main_v191 (mulf : (⟨S200000x20, .f32⟩ : BufTy).Contents (Elt F) → (⟨S200000x20, .f32⟩ : BufTy).Contents (Elt F) → (⟨S200000x20, .f32⟩ : BufTy).Contents (Elt F)),
    unary main_arg1 main_v192 ((transpose S20x20 [1, 0] · transposes_S20x20_S20x20_1_0) : (⟨S20x20, .f32⟩ : BufTy).Contents (Elt F) → (⟨S20x20, .f32⟩ : BufTy).Contents (Elt F)),
    binary main_v191 main_v192 main_v193 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg2 main_v194 (broadcastInDim S1x20 ![1] bcast_S20_S1x20_1 : (⟨S20, .f32⟩ : BufTy).Contents (Elt F) → (⟨S1x20, .f32⟩ : BufTy).Contents (Elt F)),
    unary main_v194 main_v195 (broadcastInDim S200000x20 ![0, 1] bcast_S1x20_S200000x20_0_1 : (⟨S1x20, .f32⟩ : BufTy).Contents (Elt F) → (⟨S200000x20, .f32⟩ : BufTy).Contents (Elt F)),
    binary main_v193 main_v195 main_v196 (addf : (⟨S200000x20, .f32⟩ : BufTy).Contents (Elt F) → (⟨S200000x20, .f32⟩ : BufTy).Contents (Elt F) → (⟨S200000x20, .f32⟩ : BufTy).Contents (Elt F)),
    unary main_arg3 main_v197 ((transpose S20x20 [1, 0] · transposes_S20x20_S20x20_1_0) : (⟨S20x20, .f32⟩ : BufTy).Contents (Elt F) → (⟨S20x20, .f32⟩ : BufTy).Contents (Elt F)),
    binary main_v163 main_v197 main_v198 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg4 main_v199 (broadcastInDim S1x20 ![1] bcast_S20_S1x20_1 : (⟨S20, .f32⟩ : BufTy).Contents (Elt F) → (⟨S1x20, .f32⟩ : BufTy).Contents (Elt F)),
    unary main_v199 main_v200 (broadcastInDim S200000x20 ![0, 1] bcast_S1x20_S200000x20_0_1 : (⟨S1x20, .f32⟩ : BufTy).Contents (Elt F) → (⟨S200000x20, .f32⟩ : BufTy).Contents (Elt F)),
    binary main_v198 main_v200 main_v201 (addf : (⟨S200000x20, .f32⟩ : BufTy).Contents (Elt F) → (⟨S200000x20, .f32⟩ : BufTy).Contents (Elt F) → (⟨S200000x20, .f32⟩ : BufTy).Contents (Elt F)),
    binary main_v196 main_v201 main_v202 (addf : (⟨S200000x20, .f32⟩ : BufTy).Contents (Elt F) → (⟨S200000x20, .f32⟩ : BufTy).Contents (Elt F) → (⟨S200000x20, .f32⟩ : BufTy).Contents (Elt F)),
    unary main_v202 main_v203 (Host.negf : (⟨S200000x20, .f32⟩ : BufTy).Contents (Elt F) → (⟨S200000x20, .f32⟩ : BufTy).Contents (Elt F)),
    unary main_v203 main_v204 (Host.exp : (⟨S200000x20, .f32⟩ : BufTy).Contents (Elt F) → (⟨S200000x20, .f32⟩ : BufTy).Contents (Elt F)),
    nullary main_cst_29 (constant S_ .f32 0x3F800000#32),
    unary main_cst_29 main_v205 (broadcastInDim S200000x20 ![] bcast_S_S200000x20 : (⟨S_, .f32⟩ : BufTy).Contents (Elt F) → (⟨S200000x20, .f32⟩ : BufTy).Contents (Elt F)),
    binary main_v205 main_v204 main_v206 (addf : (⟨S200000x20, .f32⟩ : BufTy).Contents (Elt F) → (⟨S200000x20, .f32⟩ : BufTy).Contents (Elt F) → (⟨S200000x20, .f32⟩ : BufTy).Contents (Elt F)),
    nullary main_cst_30 (constant S_ .f32 0x3F800000#32),
    unary main_cst_30 main_v207 (broadcastInDim S200000x20 ![] bcast_S_S200000x20 : (⟨S_, .f32⟩ : BufTy).Contents (Elt F) → (⟨S200000x20, .f32⟩ : BufTy).Contents (Elt F)),
    binary main_v207 main_v206 main_v208 (Host.divf : (⟨S200000x20, .f32⟩ : BufTy).Contents (Elt F) → (⟨S200000x20, .f32⟩ : BufTy).Contents (Elt F) → (⟨S200000x20, .f32⟩ : BufTy).Contents (Elt F)),
    unary main_arg5 main_v209 ((transpose S20x20 [1, 0] · transposes_S20x20_S20x20_1_0) : (⟨S20x20, .f32⟩ : BufTy).Contents (Elt F) → (⟨S20x20, .f32⟩ : BufTy).Contents (Elt F)),
    binary main_v191 main_v209 main_v210 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg6 main_v211 (broadcastInDim S1x20 ![1] bcast_S20_S1x20_1 : (⟨S20, .f32⟩ : BufTy).Contents (Elt F) → (⟨S1x20, .f32⟩ : BufTy).Contents (Elt F)),
    unary main_v211 main_v212 (broadcastInDim S200000x20 ![0, 1] bcast_S1x20_S200000x20_0_1 : (⟨S1x20, .f32⟩ : BufTy).Contents (Elt F) → (⟨S200000x20, .f32⟩ : BufTy).Contents (Elt F)),
    binary main_v210 main_v212 main_v213 (addf : (⟨S200000x20, .f32⟩ : BufTy).Contents (Elt F) → (⟨S200000x20, .f32⟩ : BufTy).Contents (Elt F) → (⟨S200000x20, .f32⟩ : BufTy).Contents (Elt F)),
    unary main_arg7 main_v214 ((transpose S20x20 [1, 0] · transposes_S20x20_S20x20_1_0) : (⟨S20x20, .f32⟩ : BufTy).Contents (Elt F) → (⟨S20x20, .f32⟩ : BufTy).Contents (Elt F)),
    binary main_v163 main_v214 main_v215 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg8 main_v216 (broadcastInDim S1x20 ![1] bcast_S20_S1x20_1 : (⟨S20, .f32⟩ : BufTy).Contents (Elt F) → (⟨S1x20, .f32⟩ : BufTy).Contents (Elt F)),
    unary main_v216 main_v217 (broadcastInDim S200000x20 ![0, 1] bcast_S1x20_S200000x20_0_1 : (⟨S1x20, .f32⟩ : BufTy).Contents (Elt F) → (⟨S200000x20, .f32⟩ : BufTy).Contents (Elt F)),
    binary main_v215 main_v217 main_v218 (addf : (⟨S200000x20, .f32⟩ : BufTy).Contents (Elt F) → (⟨S200000x20, .f32⟩ : BufTy).Contents (Elt F) → (⟨S200000x20, .f32⟩ : BufTy).Contents (Elt F)),
    binary main_v213 main_v218 main_v219 (addf : (⟨S200000x20, .f32⟩ : BufTy).Contents (Elt F) → (⟨S200000x20, .f32⟩ : BufTy).Contents (Elt F) → (⟨S200000x20, .f32⟩ : BufTy).Contents (Elt F)),
    unary main_v219 main_v220 (Host.negf : (⟨S200000x20, .f32⟩ : BufTy).Contents (Elt F) → (⟨S200000x20, .f32⟩ : BufTy).Contents (Elt F)),
    unary main_v220 main_v221 (Host.exp : (⟨S200000x20, .f32⟩ : BufTy).Contents (Elt F) → (⟨S200000x20, .f32⟩ : BufTy).Contents (Elt F)),
    nullary main_cst_31 (constant S_ .f32 0x3F800000#32),
    unary main_cst_31 main_v222 (broadcastInDim S200000x20 ![] bcast_S_S200000x20 : (⟨S_, .f32⟩ : BufTy).Contents (Elt F) → (⟨S200000x20, .f32⟩ : BufTy).Contents (Elt F)),
    binary main_v222 main_v221 main_v223 (addf : (⟨S200000x20, .f32⟩ : BufTy).Contents (Elt F) → (⟨S200000x20, .f32⟩ : BufTy).Contents (Elt F) → (⟨S200000x20, .f32⟩ : BufTy).Contents (Elt F)),
    nullary main_cst_32 (constant S_ .f32 0x3F800000#32),
    unary main_cst_32 main_v224 (broadcastInDim S200000x20 ![] bcast_S_S200000x20 : (⟨S_, .f32⟩ : BufTy).Contents (Elt F) → (⟨S200000x20, .f32⟩ : BufTy).Contents (Elt F)),
    binary main_v224 main_v223 main_v225 (Host.divf : (⟨S200000x20, .f32⟩ : BufTy).Contents (Elt F) → (⟨S200000x20, .f32⟩ : BufTy).Contents (Elt F) → (⟨S200000x20, .f32⟩ : BufTy).Contents (Elt F)),
    unary main_arg9 main_v226 ((transpose S20x20 [1, 0] · transposes_S20x20_S20x20_1_0) : (⟨S20x20, .f32⟩ : BufTy).Contents (Elt F) → (⟨S20x20, .f32⟩ : BufTy).Contents (Elt F)),
    binary main_v191 main_v226 main_v227 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg10 main_v228 (broadcastInDim S1x20 ![1] bcast_S20_S1x20_1 : (⟨S20, .f32⟩ : BufTy).Contents (Elt F) → (⟨S1x20, .f32⟩ : BufTy).Contents (Elt F)),
    unary main_v228 main_v229 (broadcastInDim S200000x20 ![0, 1] bcast_S1x20_S200000x20_0_1 : (⟨S1x20, .f32⟩ : BufTy).Contents (Elt F) → (⟨S200000x20, .f32⟩ : BufTy).Contents (Elt F)),
    binary main_v227 main_v229 main_v230 (addf : (⟨S200000x20, .f32⟩ : BufTy).Contents (Elt F) → (⟨S200000x20, .f32⟩ : BufTy).Contents (Elt F) → (⟨S200000x20, .f32⟩ : BufTy).Contents (Elt F)),
    binary main_v225 main_v163 main_v231 (mulf : (⟨S200000x20, .f32⟩ : BufTy).Contents (Elt F) → (⟨S200000x20, .f32⟩ : BufTy).Contents (Elt F) → (⟨S200000x20, .f32⟩ : BufTy).Contents (Elt F)),
    unary main_arg11 main_v232 ((transpose S20x20 [1, 0] · transposes_S20x20_S20x20_1_0) : (⟨S20x20, .f32⟩ : BufTy).Contents (Elt F) → (⟨S20x20, .f32⟩ : BufTy).Contents (Elt F)),
    binary main_v231 main_v232 main_v233 ((fun l r => Host.dotGeneral dot_S200000x20_S20x20_S200000x20_1_0_0_1_n_n none l r) : (⟨S200000x20, .f32⟩ : BufTy).Contents (Elt F) → (⟨S20x20, .f32⟩ : BufTy).Contents (Elt F) → (⟨S200000x20, .f32⟩ : BufTy).Contents (Elt F)),
    unary main_arg12 main_v234 (broadcastInDim S1x20 ![1] bcast_S20_S1x20_1 : (⟨S20, .f32⟩ : BufTy).Contents (Elt F) → (⟨S1x20, .f32⟩ : BufTy).Contents (Elt F)),
    unary main_v234 main_v235 (broadcastInDim S200000x20 ![0, 1] bcast_S1x20_S200000x20_0_1 : (⟨S1x20, .f32⟩ : BufTy).Contents (Elt F) → (⟨S200000x20, .f32⟩ : BufTy).Contents (Elt F)),
    binary main_v233 main_v235 main_v236 (addf : (⟨S200000x20, .f32⟩ : BufTy).Contents (Elt F) → (⟨S200000x20, .f32⟩ : BufTy).Contents (Elt F) → (⟨S200000x20, .f32⟩ : BufTy).Contents (Elt F)),
    binary main_v230 main_v236 main_v237 (addf : (⟨S200000x20, .f32⟩ : BufTy).Contents (Elt F) → (⟨S200000x20, .f32⟩ : BufTy).Contents (Elt F) → (⟨S200000x20, .f32⟩ : BufTy).Contents (Elt F)),
    unary main_v237 main_v238 (Host.tanh : (⟨S200000x20, .f32⟩ : BufTy).Contents (Elt F) → (⟨S200000x20, .f32⟩ : BufTy).Contents (Elt F)),
    binary main_v208 main_v163 main_v239 (mulf : (⟨S200000x20, .f32⟩ : BufTy).Contents (Elt F) → (⟨S200000x20, .f32⟩ : BufTy).Contents (Elt F) → (⟨S200000x20, .f32⟩ : BufTy).Contents (Elt F)),
    nullary main_cst_33 (constant S_ .f32 0x3F800000#32),
    unary main_cst_33 main_v240 (broadcastInDim S200000x20 ![] bcast_S_S200000x20 : (⟨S_, .f32⟩ : BufTy).Contents (Elt F) → (⟨S200000x20, .f32⟩ : BufTy).Contents (Elt F)),
    binary main_v240 main_v208 main_v241 (subf : (⟨S200000x20, .f32⟩ : BufTy).Contents (Elt F) → (⟨S200000x20, .f32⟩ : BufTy).Contents (Elt F) → (⟨S200000x20, .f32⟩ : BufTy).Contents (Elt F)),
    binary main_v241 main_v238 main_v242 (mulf : (⟨S200000x20, .f32⟩ : BufTy).Contents (Elt F) → (⟨S200000x20, .f32⟩ : BufTy).Contents (Elt F) → (⟨S200000x20, .f32⟩ : BufTy).Contents (Elt F)),
    binary main_v239 main_v242 main_v243 (addf : (⟨S200000x20, .f32⟩ : BufTy).Contents (Elt F) → (⟨S200000x20, .f32⟩ : BufTy).Contents (Elt F) → (⟨S200000x20, .f32⟩ : BufTy).Contents (Elt F)),
    unary main_v167 main_v244 (broadcastInDim S200000x1 ![0] bcast_S200000_S200000x1_0 : (⟨S200000, .i1⟩ : BufTy).Contents (Elt F) → (⟨S200000x1, .i1⟩ : BufTy).Contents (Elt F)),
    TRef.unary (TRef.of (T := ⟨S200000x1, .i1⟩) main_v244) (TRef.of (T := ⟨S200000x20, .i1⟩) main_call2_v0) (broadcastInDim S200000x20 ![0, 1] bcast_S200000x1_S200000x20_0_1),
    TRef.ternary (TRef.of (T := ⟨S200000x20, .i1⟩) main_call2_v0) (TRef.of (T := ⟨S200000x20, .f32⟩) main_v243) (TRef.of (T := ⟨S200000x20, .f32⟩) main_v163) (TRef.of (T := ⟨S200000x20, .f32⟩) main_v245) select ]

abbrev opsC2 {F : FTy → Type} [FloatOps F] : List (HloOp τ sig (Elt F)) :=
  [ unary main_v167 main_v246 (broadcastInDim S200000x1 ![0] bcast_S200000_S200000x1_0 : (⟨S200000, .i1⟩ : BufTy).Contents (Elt F) → (⟨S200000x1, .i1⟩ : BufTy).Contents (Elt F)),
    nullary main_cst_34 (constant S_ .f32 0x00000000#32),
    unary main_cst_34 main_v247 (broadcastInDim S200000x20 ![] bcast_S_S200000x20 : (⟨S_, .f32⟩ : BufTy).Contents (Elt F) → (⟨S200000x20, .f32⟩ : BufTy).Contents (Elt F)),
    TRef.unary (TRef.of (T := ⟨S200000x1, .i1⟩) main_v246) (TRef.of (T := ⟨S200000x20, .i1⟩) main_call3_v0) (broadcastInDim S200000x20 ![0, 1] bcast_S200000x1_S200000x20_0_1),
    TRef.ternary (TRef.of (T := ⟨S200000x20, .i1⟩) main_call3_v0) (TRef.of (T := ⟨S200000x20, .f32⟩) main_v245) (TRef.of (T := ⟨S200000x20, .f32⟩) main_v247) (TRef.of (T := ⟨S200000x20, .f32⟩) main_v248) select ]

theorem opsC_split {F : FTy → Type} [FloatOps F] : (opsC (F := F)) = opsC1 ++ opsC2 := rfl

/-! ## Iteration 3, from any contents `W` -/

set_option maxHeartbeats 8000000 in
/-- The new state of an active node, over all nodes. -/
theorem hnC (W : Valuation τ sig (Elt Ideal)) :
    after opsC1 W (Proc.devRef .tc main_v243) = hnewRef (W (Proc.devRef .tc main_v163)) (msgRef 2#32 (W (Proc.devRef .tc main_v163)) (W (Proc.devRef .tc main_arg13)) (W (Proc.devRef .tc main_arg14)) (W (Proc.devRef .tc main_arg15))) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) := by
  after_results_simp
  rfl

set_option maxHeartbeats 4000000 in
/-- The activity bits over the state array. -/
theorem maskC (W : Valuation τ sig (Elt Ideal)) :
    after opsC1 W (Proc.devRef .tc main_call2_v0) = maskMat (act 2#32 (W (Proc.devRef .tc main_arg13))) := by
  after_results_simp
  rfl

/-- The selection, one operation: active nodes take the new state, the others keep the old one. -/
theorem selC (W : Valuation τ sig (Elt Ideal)) :
    after opsC1 W (Proc.devRef .tc main_v245)
      = select (after opsC1 W (Proc.devRef .tc main_call2_v0)) (after opsC1 W (Proc.devRef .tc main_v243))
          (after opsC1 W (Proc.devRef .tc main_v163)) := by
  have e : (opsC1 (F := Ideal)) = (opsC1 (F := Ideal)).dropLast
      ++ [TRef.ternary (TRef.of (T := ⟨S200000x20, .i1⟩) main_call2_v0) (TRef.of (T := ⟨S200000x20, .f32⟩) main_v243)
          (TRef.of (T := ⟨S200000x20, .f32⟩) main_v163) (TRef.of (T := ⟨S200000x20, .f32⟩) main_v245) select] := by rfl
  have h := after_last_ternary (opsC1 (F := Ideal)).dropLast (TRef.of (T := ⟨S200000x20, .i1⟩) main_call2_v0)
    (TRef.of (T := ⟨S200000x20, .f32⟩) main_v243) (TRef.of (T := ⟨S200000x20, .f32⟩) main_v163)
    (TRef.of (T := ⟨S200000x20, .f32⟩) main_v245) select W (by decide) (by decide) (by decide)
  rw [← e] at h
  exact h

set_option maxHeartbeats 4000000 in
/-- The old state's buffer is not written by the stretch. -/
theorem keepC (W : Valuation τ sig (Elt Ideal)) : after opsC1 W (Proc.devRef .tc main_v163) = W (Proc.devRef .tc main_v163) := by
  after_results_simp

/-- The whole iteration. -/
theorem allC (W : Valuation τ sig (Elt Ideal)) :
    after opsC1 W (Proc.devRef .tc main_v245) = stepRef 2#32 (W (Proc.devRef .tc main_v163)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [selC, maskC, hnC, keepC]
  rfl

/-! ## The final zeroing -/

set_option maxHeartbeats 4000000 in
/-- The third iteration's activity bits. -/
theorem actC (W : Valuation τ sig (Elt Ideal)) : after opsC1 W (Proc.devRef .tc main_v167) = act 2#32 (W (Proc.devRef .tc main_arg13)) := by
  after_results_simp
  rfl

/-- The five last operations, from any contents: the nodes inactive in the third iteration are zeroed. -/
theorem tailC (W : Valuation τ sig (Elt Ideal)) :
    after opsC2 W (Proc.devRef .tc main_v248) = zeroRef (W (Proc.devRef .tc main_v167)) (W (Proc.devRef .tc main_v245)) := by
  after_results_simp
  simp only [TRef.ofBuf, TRef.toBuf, cast_eq]
  rfl

/-- The third stretch as a whole. -/
theorem finC (W : Valuation τ sig (Elt Ideal)) :
    after opsC W (Proc.devRef .tc main_v248)
      = zeroRef (act 2#32 (W (Proc.devRef .tc main_arg13))) (stepRef 2#32 (W (Proc.devRef .tc main_v163)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15))) := by
  rw [opsC_split, Cert.RefOps.after_append, tailC, actC, allC]

/-! ## The three stretches chained -/

variable (m : (ℓ : Loc nD τ sig) → Buf (Elt Ideal) ℓ) (d : Dev nD)

/-- After the first iteration. -/
theorem stageA : VA m d (Proc.devRef .tc main_v81) = iter1 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) :=
  allA (launchContents m d)

/-- After the second iteration. -/
theorem stageB : VB m d (Proc.devRef .tc main_v163) = iter2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) := by
  refine (allB (VA m d)).trans ?_
  rw [stageA m d, Cert.RefWalkA.arg1 m d, Cert.RefWalkA.arg2 m d, Cert.RefWalkA.arg3 m d, Cert.RefWalkA.arg4 m d, Cert.RefWalkA.arg5 m d, Cert.RefWalkA.arg6 m d, Cert.RefWalkA.arg7 m d, Cert.RefWalkA.arg8 m d, Cert.RefWalkA.arg9 m d, Cert.RefWalkA.arg10 m d, Cert.RefWalkA.arg11 m d, Cert.RefWalkA.arg12 m d, Cert.RefWalkA.arg13 m d, Cert.RefWalkA.arg14 m d, Cert.RefWalkA.arg15 m d]
  rfl

/-- After the third iteration: the result. -/
theorem stageC : VC m d (Proc.devRef .tc main_v248) = resultRef (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) := by
  refine (finC (VB m d)).trans ?_
  rw [stageB m d, (Cert.RefWalkB.arg1 m d).trans (Cert.RefWalkA.arg1 m d), (Cert.RefWalkB.arg2 m d).trans (Cert.RefWalkA.arg2 m d), (Cert.RefWalkB.arg3 m d).trans (Cert.RefWalkA.arg3 m d), (Cert.RefWalkB.arg4 m d).trans (Cert.RefWalkA.arg4 m d), (Cert.RefWalkB.arg5 m d).trans (Cert.RefWalkA.arg5 m d), (Cert.RefWalkB.arg6 m d).trans (Cert.RefWalkA.arg6 m d), (Cert.RefWalkB.arg7 m d).trans (Cert.RefWalkA.arg7 m d), (Cert.RefWalkB.arg8 m d).trans (Cert.RefWalkA.arg8 m d), (Cert.RefWalkB.arg9 m d).trans (Cert.RefWalkA.arg9 m d), (Cert.RefWalkB.arg10 m d).trans (Cert.RefWalkA.arg10 m d), (Cert.RefWalkB.arg11 m d).trans (Cert.RefWalkA.arg11 m d), (Cert.RefWalkB.arg12 m d).trans (Cert.RefWalkA.arg12 m d), (Cert.RefWalkB.arg13 m d).trans (Cert.RefWalkA.arg13 m d), (Cert.RefWalkB.arg14 m d).trans (Cert.RefWalkA.arg14 m d), (Cert.RefWalkB.arg15 m d).trans (Cert.RefWalkA.arg15 m d)]
  rfl

end Cert.RefStages

end
-- ==== Proof.RefWalkC.lean ====
/-
  The reference's arguments ride through its third iteration: no operation of the stretch writes an argument's buffer, so the
  buffer holds after the stretch what it held before it.
-/
import proofs.«162891_j90013924590102_1_alg».proof.Proof.RefOps

set_option maxRecDepth 8192

noncomputable section

namespace Cert.RefWalkC

open Cert.ReferenceIdeal Cert.ReferenceIdeal.Gen Cert.RefOps Idealize.ShloMosaic Idealize.ShloMosaic.TcCoe Idealize.SL.Sem Idealize.ShloMosaic.StableHlo

variable {F : FTy → Type} [FloatOps F]
variable (m : (ℓ : Loc nD τ sig) → Buf (Elt F) ℓ) (d : Dev nD)

set_option maxHeartbeats 4000000 in
theorem arg0 : VC m d (Proc.devRef .tc main_arg0) = VB m d (Proc.devRef .tc main_arg0) := by
  show after opsC (VB m d) (Proc.devRef .tc main_arg0) = _
  generalize VB m d = W
  after_results_simp <;> rfl

set_option maxHeartbeats 4000000 in
theorem arg1 : VC m d (Proc.devRef .tc main_arg1) = VB m d (Proc.devRef .tc main_arg1) := by
  show after opsC (VB m d) (Proc.devRef .tc main_arg1) = _
  generalize VB m d = W
  after_results_simp <;> rfl

set_option maxHeartbeats 4000000 in
theorem arg2 : VC m d (Proc.devRef .tc main_arg2) = VB m d (Proc.devRef .tc main_arg2) := by
  show after opsC (VB m d) (Proc.devRef .tc main_arg2) = _
  generalize VB m d = W
  after_results_simp <;> rfl

set_option maxHeartbeats 4000000 in
theorem arg3 : VC m d (Proc.devRef .tc main_arg3) = VB m d (Proc.devRef .tc main_arg3) := by
  show after opsC (VB m d) (Proc.devRef .tc main_arg3) = _
  generalize VB m d = W
  after_results_simp <;> rfl

set_option maxHeartbeats 4000000 in
theorem arg4 : VC m d (Proc.devRef .tc main_arg4) = VB m d (Proc.devRef .tc main_arg4) := by
  show after opsC (VB m d) (Proc.devRef .tc main_arg4) = _
  generalize VB m d = W
  after_results_simp <;> rfl

set_option maxHeartbeats 4000000 in
theorem arg5 : VC m d (Proc.devRef .tc main_arg5) = VB m d (Proc.devRef .tc main_arg5) := by
  show after opsC (VB m d) (Proc.devRef .tc main_arg5) = _
  generalize VB m d = W
  after_results_simp <;> rfl

set_option maxHeartbeats 4000000 in
theorem arg6 : VC m d (Proc.devRef .tc main_arg6) = VB m d (Proc.devRef .tc main_arg6) := by
  show after opsC (VB m d) (Proc.devRef .tc main_arg6) = _
  generalize VB m d = W
  after_results_simp <;> rfl

set_option maxHeartbeats 4000000 in
theorem arg7 : VC m d (Proc.devRef .tc main_arg7) = VB m d (Proc.devRef .tc main_arg7) := by
  show after opsC (VB m d) (Proc.devRef .tc main_arg7) = _
  generalize VB m d = W
  after_results_simp <;> rfl

set_option maxHeartbeats 4000000 in
theorem arg8 : VC m d (Proc.devRef .tc main_arg8) = VB m d (Proc.devRef .tc main_arg8) := by
  show after opsC (VB m d) (Proc.devRef .tc main_arg8) = _
  generalize VB m d = W
  after_results_simp <;> rfl

set_option maxHeartbeats 4000000 in
theorem arg9 : VC m d (Proc.devRef .tc main_arg9) = VB m d (Proc.devRef .tc main_arg9) := by
  show after opsC (VB m d) (Proc.devRef .tc main_arg9) = _
  generalize VB m d = W
  after_results_simp <;> rfl

set_option maxHeartbeats 4000000 in
theorem arg10 : VC m d (Proc.devRef .tc main_arg10) = VB m d (Proc.devRef .tc main_arg10) := by
  show after opsC (VB m d) (Proc.devRef .tc main_arg10) = _
  generalize VB m d = W
  after_results_simp <;> rfl

set_option maxHeartbeats 4000000 in
theorem arg11 : VC m d (Proc.devRef .tc main_arg11) = VB m d (Proc.devRef .tc main_arg11) := by
  show after opsC (VB m d) (Proc.devRef .tc main_arg11) = _
  generalize VB m d = W
  after_results_simp <;> rfl

set_option maxHeartbeats 4000000 in
theorem arg12 : VC m d (Proc.devRef .tc main_arg12) = VB m d (Proc.devRef .tc main_arg12) := by
  show after opsC (VB m d) (Proc.devRef .tc main_arg12) = _
  generalize VB m d = W
  after_results_simp <;> rfl

set_option maxHeartbeats 4000000 in
theorem arg13 : VC m d (Proc.devRef .tc main_arg13) = VB m d (Proc.devRef .tc main_arg13) := by
  show after opsC (VB m d) (Proc.devRef .tc main_arg13) = _
  generalize VB m d = W
  after_results_simp <;> rfl

set_option maxHeartbeats 4000000 in
theorem arg14 : VC m d (Proc.devRef .tc main_arg14) = VB m d (Proc.devRef .tc main_arg14) := by
  show after opsC (VB m d) (Proc.devRef .tc main_arg14) = _
  generalize VB m d = W
  after_results_simp <;> rfl

set_option maxHeartbeats 4000000 in
theorem arg15 : VC m d (Proc.devRef .tc main_arg15) = VB m d (Proc.devRef .tc main_arg15) := by
  show after opsC (VB m d) (Proc.devRef .tc main_arg15) = _
  generalize VB m d = W
  after_results_simp <;> rfl

end Cert.RefWalkC

end
-- ==== Proof.RefRun.lean ====
/-
  The reference's run: every weakly fair execution terminates with the result buffer at the three iterations'
  composed term of the arguments, and every argument as launched.
-/
import proofs.«162891_j90013924590102_1_alg».proof.Proof.RefStages
import proofs.«162891_j90013924590102_1_alg».proof.Proof.RefWalkC

set_option maxRecDepth 16384

noncomputable section

namespace Cert.RefRun

open Cert.ReferenceIdeal Cert.ReferenceIdeal.Gen Cert.RefOps Cert.RefTerms Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run defs (onTc (τ := τ) (main (F := Ideal))) ⟨m, fun _ => 0, ρ⟩ fun r => ∀ d : Dev nD,
      r.2.mem ((d.tc : Thread nD τ).loc main_v248) = resultRef (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9)
      ∧ r.2.mem ((d.tc : Thread nD τ).loc main_arg10) = m ((d.tc : Thread nD τ).loc main_arg10)
      ∧ r.2.mem ((d.tc : Thread nD τ).loc main_arg11) = m ((d.tc : Thread nD τ).loc main_arg11)
      ∧ r.2.mem ((d.tc : Thread nD τ).loc main_arg12) = m ((d.tc : Thread nD τ).loc main_arg12)
      ∧ r.2.mem ((d.tc : Thread nD τ).loc main_arg13) = m ((d.tc : Thread nD τ).loc main_arg13)
      ∧ r.2.mem ((d.tc : Thread nD τ).loc main_arg14) = m ((d.tc : Thread nD τ).loc main_arg14)
      ∧ r.2.mem ((d.tc : Thread nD τ).loc main_arg15) = m ((d.tc : Thread nD τ).loc main_arg15) :=
  (θ_run defs _ _).mono (fun _ h d => ⟨(h d main_v248).trans (Cert.RefStages.stageC m d),
      (h d main_arg0).trans ((Cert.RefWalkC.arg0 m d).trans ((Cert.RefWalkB.arg0 m d).trans (Cert.RefWalkA.arg0 m d))),
      (h d main_arg1).trans ((Cert.RefWalkC.arg1 m d).trans ((Cert.RefWalkB.arg1 m d).trans (Cert.RefWalkA.arg1 m d))),
      (h d main_arg2).trans ((Cert.RefWalkC.arg2 m d).trans ((Cert.RefWalkB.arg2 m d).trans (Cert.RefWalkA.arg2 m d))),
      (h d main_arg3).trans ((Cert.RefWalkC.arg3 m d).trans ((Cert.RefWalkB.arg3 m d).trans (Cert.RefWalkA.arg3 m d))),
      (h d main_arg4).trans ((Cert.RefWalkC.arg4 m d).trans ((Cert.RefWalkB.arg4 m d).trans (Cert.RefWalkA.arg4 m d))),
      (h d main_arg5).trans ((Cert.RefWalkC.arg5 m d).trans ((Cert.RefWalkB.arg5 m d).trans (Cert.RefWalkA.arg5 m d))),
      (h d main_arg6).trans ((Cert.RefWalkC.arg6 m d).trans ((Cert.RefWalkB.arg6 m d).trans (Cert.RefWalkA.arg6 m d))),
      (h d main_arg7).trans ((Cert.RefWalkC.arg7 m d).trans ((Cert.RefWalkB.arg7 m d).trans (Cert.RefWalkA.arg7 m d))),
      (h d main_arg8).trans ((Cert.RefWalkC.arg8 m d).trans ((Cert.RefWalkB.arg8 m d).trans (Cert.RefWalkA.arg8 m d))),
      (h d main_arg9).trans ((Cert.RefWalkC.arg9 m d).trans ((Cert.RefWalkB.arg9 m d).trans (Cert.RefWalkA.arg9 m d))),
      (h d main_arg10).trans ((Cert.RefWalkC.arg10 m d).trans ((Cert.RefWalkB.arg10 m d).trans (Cert.RefWalkA.arg10 m d))),
      (h d main_arg11).trans ((Cert.RefWalkC.arg11 m d).trans ((Cert.RefWalkB.arg11 m d).trans (Cert.RefWalkA.arg11 m d))),
      (h d main_arg12).trans ((Cert.RefWalkC.arg12 m d).trans ((Cert.RefWalkB.arg12 m d).trans (Cert.RefWalkA.arg12 m d))),
      (h d main_arg13).trans ((Cert.RefWalkC.arg13 m d).trans ((Cert.RefWalkB.arg13 m d).trans (Cert.RefWalkA.arg13 m d))),
      (h d main_arg14).trans ((Cert.RefWalkC.arg14 m d).trans ((Cert.RefWalkB.arg14 m d).trans (Cert.RefWalkA.arg14 m d))),
      (h d main_arg15).trans ((Cert.RefWalkC.arg15 m d).trans ((Cert.RefWalkB.arg15 m d).trans (Cert.RefWalkA.arg15 m d)))⟩)
    (run_all m ρ)

end Cert.RefRun

end
-- ==== Proof.lean ====
/-
  The certificate of a three-iteration gated recurrent graph network: a Pallas kernel for the node update against a
  plain reference, equal as extended reals.

  Both programs run, three times, a message-passing stage on the host (every edge carries its source node's state row
  times the source's activity; the rows are summed into their destination nodes; the sum is masked by the destination's
  activity) and then update every node: update and reset gates `z, r = logistic(x·Wᵀ + b + h·Uᵀ + c)`, candidate
  `ĥ = tanh(x·Whᵀ + bh + (r ⊙ h)·Uhᵀ + ch)`, `h_new = z ⊙ h + (1 − z) ⊙ ĥ`. The reference keeps an inactive node's
  state by a selection and zeroes the inactive nodes at the very end; the kernel computes the update in blocks of 2000
  nodes and writes `a · h_new + ((1 − a) · h) · keep` with the activity `a ∈ {0, 1}`, `keep = 1` in the first two
  launches and `0` in the last.

  Where the two differ, they are equal on ALL extended reals, so the precondition is never opened: the logistic is by
  definition `1 / (1 + e⁻ˣ)`, which the reference spells out; a gate's four summands are grouped differently
  (associativity of `+`); the activity mix is the selection because `0 · x = 0`, `1 · x = x`, `1 − 1 = 0`
  (`Cert.Gru.blend_one`, `blend_zero`); the sources' activity is gathered from a column or from a vector
  (`Cert.GatherCol.gather_column_eq`); a bias row is a reshape or a broadcast (`bias_row_eq`); and a node's update
  reads only its own row, so the 100 blocks of a launch assemble to the update of the whole arrays
  (`Region0/1/2.final`). `Bridge0/1/2` chain the three iterations: each launch's output array is the reference's
  state after that iteration (`Cert.RefTerms.iter1`, `iter2`, `resultRef`; the reference's node update read at an index in
  `Cert.RefGru`). The reference's own run (`Cert.RefRun.run`) folds its 290 host operations one iteration at a time.
  The frames of the two kernel programs are the generated ones; the reference's is its run with the result dropped;
  the idealization rewrote nothing.
-/
import proofs.«162891_j90013924590102_1_alg».proof.Defs
import proofs.«162891_j90013924590102_1_alg».proof.Proof.Gen.Kernel
import proofs.«162891_j90013924590102_1_alg».proof.Proof.Gen.Kernel.Skeleton
import proofs.«162891_j90013924590102_1_alg».proof.Proof.Gen.Kernel.Launch
import proofs.«162891_j90013924590102_1_alg».proof.Proof.Gen.Kernel.Points
import proofs.«162891_j90013924590102_1_alg».proof.Proof.Gen.Kernel.Frame
import proofs.«162891_j90013924590102_1_alg».proof.Proof.Gen.KernelIdeal
import proofs.«162891_j90013924590102_1_alg».proof.Proof.Gen.KernelIdeal.Skeleton
import proofs.«162891_j90013924590102_1_alg».proof.Proof.Gen.KernelIdeal.Launch
import proofs.«162891_j90013924590102_1_alg».proof.Proof.Gen.KernelIdeal.Points
import proofs.«162891_j90013924590102_1_alg».proof.Proof.Gen.KernelIdeal.Frame
import proofs.«162891_j90013924590102_1_alg».proof.Proof.Gen.ReferenceIdeal
import proofs.«162891_j90013924590102_1_alg».proof.Proof.Gen.Pre_finite_inputs
import proofs.«162891_j90013924590102_1_alg».proof.Proof.RunValue
import proofs.«162891_j90013924590102_1_alg».proof.Proof.Bridge2
import proofs.«162891_j90013924590102_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel's frame: generated. -/
theorem frame_k : Cert.frame_Kernel := fun m ρ _ => Cert.Kernel.Gen.frame m ρ

/-- The idealized kernel's frame: generated. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.RefRun.run m ρ)

/-- The idealization rewrote no operation. -/
theorem preserves : Cert.preserves_Kernel_KernelIdeal := trivial

/-- From memories agreeing on the arguments, the kernel's result array (the third launch's output) and the reference's
    (its state after three iterations, inactive nodes zeroed) are one array. -/
theorem algebraic : Cert.algebraic_KernelIdeal_ReferenceIdeal := by
  intro m ρ m' ρ' _ hagree
  refine ⟨fun c => Cert.KernelIdeal.Gen.W6 m ρ c (Proc.devRef .tc Cert.KernelIdeal.main_v95),
    Cert.KernelIdeal.RunValue.run_result m ρ, ?_⟩
  refine (θ_run Cert.ReferenceIdeal.defs _ _).mono (fun _ h c => ⟨(h c).1.trans ?_, (h c).2⟩)
    (Cert.RefRun.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
  exact (Cert.Bridge2.H m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
